-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v83)) (v1 : (c : Dev Cert.KernelIdeal.nD) → Buf (Elt Ideal) ((c.tc : Thread Cert.KernelIdeal.nD Cert.KernelIdeal.τ).loc Cert.KernelIdeal.main_v101)) (v2 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_v101) = v1 c
          ∧ r.2.mem ((c.tc : Thread Cert.KernelIdeal.nD Cert.KernelIdeal.τ).loc Cert.KernelIdeal.main_v54) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_v127) = v1 c
          ∧ r.2.mem ((c.tc : Thread Cert.ReferenceIdeal.nD Cert.ReferenceIdeal.τ).loc Cert.ReferenceIdeal.main_v80) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2400000x4 : Shape := ⟨2, ![2400000, 4]⟩
abbrev S_ : Shape := ⟨0, ![]⟩

class Facts : Prop where
  bcast_S_S2400000x4 : S_.BroadcastsInDim S2400000x4 (![] : Fin 0 → Fin S2400000x4.rank)
  reducesTo_S2400000x4_S_d0_1 : S2400000x4.ReducesTo [0, 1] S_
  h_S_ : 0 < S_.numel

variable [Facts]

def fn {F : FTy → Type} [FloatOps F] (main_arg0 : FVec F S2400000x4 .f32) : IVec S_ 1 :=
  let main_v0 : FVec F S2400000x4 .f32 := Host.absf main_arg0
  let main_cst : FVec F S_ .f32 := constant S_ .f32 0x7F800000#32
  let main_v1 : FVec F S2400000x4 .f32 := broadcastInDim S2400000x4 ![] bcast_S_S2400000x4 main_cst
  let main_v2 : IVec S2400000x4 1 := cmpf .olt main_v0 main_v1
  let main_c : IVec S_ 1 := constantI S_ 1 1#1
  let main_v3 : IVec S_ 1 := (fun x v => Host.reduce IntOp.andi x v reducesTo_S2400000x4_S_d0_1 h_S_) main_v2 main_c
  main_v3
-- ==== Kernel.lean ====
abbrev S2400000x4 : Shape := ⟨2, ![2400000, 4]⟩
abbrev S2400000x1 : Shape := ⟨2, ![2400000, 1]⟩
abbrev S2400000x3 : Shape := ⟨2, ![2400000, 3]⟩
abbrev S4800x4 : Shape := ⟨2, ![4800, 4]⟩
abbrev S4800x1 : Shape := ⟨2, ![4800, 1]⟩
abbrev S4800x3 : Shape := ⟨2, ![4800, 3]⟩
abbrev S4800 : Shape := ⟨1, ![4800]⟩
abbrev S2400000 : Shape := ⟨1, ![2400000]⟩
abbrev S_ : Shape := ⟨0, ![]⟩
abbrev S1 : Shape := ⟨1, ![1]⟩
abbrev S2399999 : Shape := ⟨1, ![2399999]⟩
abbrev S40000 : Shape := ⟨1, ![40000]⟩
abbrev S40000x1 : Shape := ⟨2, ![40000, 1]⟩
abbrev S32 : Shape := ⟨1, ![32]⟩
abbrev S1x32 : Shape := ⟨2, ![1, 32]⟩
abbrev S40000x32 : Shape := ⟨2, ![40000, 32]⟩
abbrev S40000x32x1 : Shape := ⟨3, ![40000, 32, 1]⟩
abbrev S40000x32x4 : Shape := ⟨3, ![40000, 32, 4]⟩
abbrev S40000x3 : Shape := ⟨2, ![40000, 3]⟩

abbrev nBuf : Space → Nat
  | .hbm => 159
  | .vmem => 6
  | .smem => 0
  | _ => 0

abbrev hbmTy0_0 (i : Nat) : BufTy := match i % 128 with
  | 0 => ⟨S2400000x4, .f32⟩
  | 1 => ⟨S2400000x1, .i32⟩
  | 2 => ⟨S2400000x3, .i32⟩
  | 3 => ⟨S2400000, .i32⟩
  | 4 => ⟨S2400000, .i32⟩
  | 5 => ⟨S2400000, .i32⟩
  | 6 => ⟨S2400000, .i32⟩
  | 7 => ⟨S_, .i32⟩
  | 8 => ⟨S2400000, .i32⟩
  | 9 => ⟨S2400000, .i1⟩
  | 10 => ⟨S_, .i32⟩
  | 11 => ⟨S2400000, .i32⟩
  | 12 => ⟨S2400000, .i32⟩
  | 13 => ⟨S2400000, .i32⟩
  | 14 => ⟨S2400000x1, .i32⟩
  | 15 => ⟨S2400000, .i32⟩
  | 16 => ⟨S_, .i32⟩
  | 17 => ⟨S2400000, .i32⟩
  | 18 => ⟨S2400000, .i1⟩
  | 19 => ⟨S_, .i1⟩
  | 20 => ⟨S1, .i1⟩
  | 21 => ⟨S2399999, .i32⟩
  | 22 => ⟨S2399999, .i32⟩
  | 23 => ⟨S2399999, .i1⟩
  | 24 => ⟨S2400000, .i1⟩
  | 25 => ⟨S2400000, .i32⟩
  | 26 => ⟨S_, .i32⟩
  | 27 => ⟨S_, .i32⟩
  | 28 => ⟨S2400000, .i32⟩
  | 29 => ⟨S_, .i32⟩
  | 30 => ⟨S2400000, .i32⟩
  | 31 => ⟨S2400000, .i32⟩
  | 32 => ⟨S2400000, .i32⟩
  | 33 => ⟨S_, .i32⟩
  | 34 => ⟨S2400000, .i32⟩
  | 35 => ⟨S2400000x1, .i32⟩
  | 36 => ⟨S2400000, .i32⟩
  | 37 => ⟨S2400000, .i1⟩
  | 38 => ⟨S_, .i32⟩
  | 39 => ⟨S2400000, .i32⟩
  | 40 => ⟨S2400000, .i32⟩
  | 41 => ⟨S2400000, .i32⟩
  | 42 => ⟨S2400000, .i32⟩
  | 43 => ⟨S2400000, .i32⟩
  | 44 => ⟨S40000, .i32⟩
  | 45 => ⟨S_, .i32⟩
  | 46 => ⟨S40000, .i32⟩
  | 47 => ⟨S40000, .i1⟩
  | 48 => ⟨S_, .i32⟩
  | 49 => ⟨S40000, .i32⟩
  | 50 => ⟨S40000, .i32⟩
  | 51 => ⟨S40000, .i32⟩
  | 52 => ⟨S40000x1, .i32⟩
  | 53 => ⟨S40000, .i32⟩
  | 54 => ⟨S_, .i32⟩
  | 55 => ⟨S40000, .i32⟩
  | 56 => ⟨S40000, .i1⟩
  | 57 => ⟨S_, .i32⟩
  | 58 => ⟨S40000, .i32⟩
  | 59 => ⟨S40000, .i1⟩
  | 60 => ⟨S_, .i32⟩
  | 61 => ⟨S40000, .i32⟩
  | 62 => ⟨S40000, .i32⟩
  | 63 => ⟨S40000, .i32⟩
  | 64 => ⟨S40000x1, .i32⟩
  | 65 => ⟨S40000, .i32⟩
  | 66 => ⟨S_, .i32⟩
  | 67 => ⟨S40000, .i32⟩
  | 68 => ⟨S40000, .i1⟩
  | 69 => ⟨S_, .i32⟩
  | 70 => ⟨S40000, .i32⟩
  | 71 => ⟨S40000, .i32⟩
  | 72 => ⟨S40000, .i32⟩
  | 73 => ⟨S40000x1, .i32⟩
  | 74 => ⟨S40000, .i32⟩
  | 75 => ⟨S_, .i32⟩
  | 76 => ⟨S_, .i32⟩
  | 77 => ⟨S40000, .i32⟩
  | 78 => ⟨S40000, .i32⟩
  | 79 => ⟨S_, .i32⟩
  | 80 => ⟨S40000, .i32⟩
  | 81 => ⟨S40000, .i32⟩
  | 82 => ⟨S40000x1, .i32⟩
  | 83 => ⟨S32, .i32⟩
  | 84 => ⟨S1x32, .i32⟩
  | 85 => ⟨S40000x32, .i32⟩
  | 86 => ⟨S40000x32, .i32⟩
  | 87 => ⟨S40000x32, .i32⟩
  | 88 => ⟨S32, .i32⟩
  | 89 => ⟨S1x32, .i32⟩
  | 90 => ⟨S40000x1, .i32⟩
  | 91 => ⟨S40000x32, .i32⟩
  | 92 => ⟨S40000x32, .i32⟩
  | 93 => ⟨S40000x32, .i1⟩
  | 94 => ⟨S_, .i32⟩
  | 95 => ⟨S_, .i32⟩
  | 96 => ⟨S_, .i32⟩
  | 97 => ⟨S40000x32, .i32⟩
  | 98 => ⟨S40000x32, .i32⟩
  | 99 => ⟨S_, .i32⟩
  | 100 => ⟨S40000x32, .i32⟩
  | 101 => ⟨S40000x32, .i32⟩
  | 102 => ⟨S_, .i32⟩
  | 103 => ⟨S40000x32, .i32⟩
  | 104 => ⟨S40000x32, .i1⟩
  | 105 => ⟨S_, .i32⟩
  | 106 => ⟨S40000x32, .i32⟩
  | 107 => ⟨S40000x32, .i32⟩
  | 108 => ⟨S40000x32, .i32⟩
  | 109 => ⟨S40000x32x1, .i32⟩
  | 110 => ⟨S40000x32, .i32⟩
  | 111 => ⟨S40000x32x1, .i1⟩
  | 112 => ⟨S_, .i32⟩
  | 113 => ⟨S40000x32, .i32⟩
  | 114 => ⟨S40000x32, .i1⟩
  | 115 => ⟨S_, .i32⟩
  | 116 => ⟨S40000x32, .i32⟩
  | 117 => ⟨S40000x32, .i32⟩
  | 118 => ⟨S40000x32, .i32⟩
  | 119 => ⟨S40000x32x1, .i32⟩
  | 120 => ⟨S40000x32x4, .f32⟩
  | 121 => ⟨S_, .f32⟩
  | 122 => ⟨S_, .f32⟩
  | 123 => ⟨S40000x32x4, .i1⟩
  | 124 => ⟨S40000x32x4, .f32⟩
  | 125 => ⟨S40000x32x4, .f32⟩
  | 126 => ⟨S_, .i32⟩
  | 127 => ⟨S_, .i32⟩
  | _ => ⟨S2400000x4, .f32⟩

abbrev hbmTy0_1 (i : Nat) : BufTy := match i % 128 with
  | 0 => ⟨S_, .i32⟩
  | 1 => ⟨S40000, .i32⟩
  | 2 => ⟨S40000, .i32⟩
  | 3 => ⟨S_, .i32⟩
  | 4 => ⟨S40000, .i32⟩
  | 5 => ⟨S40000, .i32⟩
  | 6 => ⟨S_, .i32⟩
  | 7 => ⟨S40000, .i32⟩
  | 8 => ⟨S40000, .i1⟩
  | 9 => ⟨S_, .i32⟩
  | 10 => ⟨S40000, .i32⟩
  | 11 => ⟨S40000, .i32⟩
  | 12 => ⟨S40000, .i32⟩
  | 13 => ⟨S40000x1, .i32⟩
  | 14 => ⟨S40000, .i32⟩
  | 15 => ⟨S_, .i32⟩
  | 16 => ⟨S40000, .i32⟩
  | 17 => ⟨S40000, .i1⟩
  | 18 => ⟨S_, .i32⟩
  | 19 => ⟨S40000, .i32⟩
  | 20 => ⟨S40000, .i32⟩
  | 21 => ⟨S40000, .i32⟩
  | 22 => ⟨S40000x1, .i32⟩
  | 23 => ⟨S40000x3, .i32⟩
  | 24 => ⟨S40000x1, .i1⟩
  | 25 => ⟨S40000x3, .i32⟩
  | 26 => ⟨S_, .i32⟩
  | 27 => ⟨S_, .i32⟩
  | 28 => ⟨S40000x3, .i1⟩
  | 29 => ⟨S40000x3, .i32⟩
  | 30 => ⟨S40000x3, .i32⟩
  | _ => ⟨S2400000x4, .f32⟩

abbrev hbmTy (i : Nat) : BufTy := match i / 128 with
  | 0 => hbmTy0_0 i
  | 1 => hbmTy0_1 i
  | _ => ⟨S2400000x4, .f32⟩

abbrev bufTy : (tb : Table) → Fin (tcTables nBuf tb) → BufTy
  | .hbm, ⟨i, _⟩ => hbmTy i
  | .local _ .vmem, ⟨0, _⟩ => ⟨S4800x4, .f32⟩
  | .local _ .vmem, ⟨1, _⟩ => ⟨S4800x4, .f32⟩
  | .local _ .vmem, ⟨2, _⟩ => ⟨S4800x1, .i32⟩
  | .local _ .vmem, ⟨3, _⟩ => ⟨S4800x1, .i32⟩
  | .local _ .vmem, ⟨4, _⟩ => ⟨S4800x3, .i32⟩
  | .local _ .vmem, ⟨5, _⟩ => ⟨S4800x3, .i32⟩
  | _, _ => ⟨S2400000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v1 : Ref sig .tc := ⟨.hbm, 3, rfl⟩
abbrev main_call0_v0 : Ref sig .tc := ⟨.hbm, 4, rfl⟩
abbrev main_call0_v1_0 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call1_call0_c : Ref sig .tc := ⟨.hbm, 26, rfl⟩
abbrev main_call1_call0_v0 : Ref sig .tc := ⟨.hbm, 27, rfl⟩
abbrev main_v18 : Ref sig .tc := ⟨.hbm, 28, rfl⟩
abbrev main_c_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_5 : Ref sig .tc := ⟨.hbm, 38, rfl⟩
abbrev main_call2_v0 : Ref sig .tc := ⟨.hbm, 39, rfl⟩
abbrev main_v26 : Ref sig .tc := ⟨.hbm, 40, rfl⟩
abbrev main_call3_v0 : Ref sig .tc := ⟨.hbm, 41, rfl⟩
abbrev main_call3_v1_0 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_c_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_c_9 : Ref sig .tc := ⟨.hbm, 57, rfl⟩
abbrev main_v38 : Ref sig .tc := ⟨.hbm, 58, rfl⟩
abbrev main_v39 : Ref sig .tc := ⟨.hbm, 59, rfl⟩
abbrev main_c_10 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c_11 : Ref sig .tc := ⟨.hbm, 66, rfl⟩
abbrev main_v45 : Ref sig .tc := ⟨.hbm, 67, rfl⟩
abbrev main_v46 : Ref sig .tc := ⟨.hbm, 68, rfl⟩
abbrev main_c_12 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c_13 : Ref sig .tc := ⟨.hbm, 75, rfl⟩
abbrev main_call4_v0 : Ref sig .tc := ⟨.hbm, 76, rfl⟩
abbrev main_call4_v1 : Ref sig .tc := ⟨.hbm, 77, rfl⟩
abbrev main_v52 : Ref sig .tc := ⟨.hbm, 78, rfl⟩
abbrev main_c_14 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_c_15 : Ref sig .tc := ⟨.hbm, 94, rfl⟩
abbrev main_c_16 : Ref sig .tc := ⟨.hbm, 95, rfl⟩
abbrev main_call5_v0 : Ref sig .tc := ⟨.hbm, 96, rfl⟩
abbrev main_call5_v1 : Ref sig .tc := ⟨.hbm, 97, rfl⟩
abbrev main_call5_v2 : Ref sig .tc := ⟨.hbm, 98, rfl⟩
abbrev main_call5_v3 : Ref sig .tc := ⟨.hbm, 99, rfl⟩
abbrev main_call5_v4 : Ref sig .tc := ⟨.hbm, 100, rfl⟩
abbrev main_v67 : Ref sig .tc := ⟨.hbm, 101, rfl⟩
abbrev main_c_17 : Ref sig .tc := ⟨.hbm, 102, rfl⟩
abbrev main_v68 : Ref sig .tc := ⟨.hbm, 103, rfl⟩
abbrev main_v69 : Ref sig .tc := ⟨.hbm, 104, rfl⟩
abbrev main_c_18 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_c_19 : Ref sig .tc := ⟨.hbm, 112, rfl⟩
abbrev main_v76 : Ref sig .tc := ⟨.hbm, 113, rfl⟩
abbrev main_v77 : Ref sig .tc := ⟨.hbm, 114, rfl⟩
abbrev main_c_20 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_cst : Ref sig .tc := ⟨.hbm, 121, rfl⟩
abbrev main_call6_v0 : Ref sig .tc := ⟨.hbm, 122, rfl⟩
abbrev main_call6_v1 : Ref sig .tc := ⟨.hbm, 123, rfl⟩
abbrev main_call6_v2 : Ref sig .tc := ⟨.hbm, 124, rfl⟩
abbrev main_v83 : Ref sig .tc := ⟨.hbm, 125, rfl⟩
abbrev main_c_21 : Ref sig .tc := ⟨.hbm, 126, rfl⟩
abbrev main_c_22 : Ref sig .tc := ⟨.hbm, 127, rfl⟩
abbrev main_call7_v0 : Ref sig .tc := ⟨.hbm, 128, rfl⟩
abbrev main_call7_v1 : Ref sig .tc := ⟨.hbm, 129, rfl⟩
abbrev main_call7_v2 : Ref sig .tc := ⟨.hbm, 130, rfl⟩
abbrev main_call7_v3 : Ref sig .tc := ⟨.hbm, 131, rfl⟩
abbrev main_call7_v4 : Ref sig .tc := ⟨.hbm, 132, rfl⟩
abbrev main_v84 : Ref sig .tc := ⟨.hbm, 133, rfl⟩
abbrev main_c_23 : Ref sig .tc := ⟨.hbm, 134, rfl⟩
abbrev main_v85 : Ref sig .tc := ⟨.hbm, 135, rfl⟩
abbrev main_v86 : Ref sig .tc := ⟨.hbm, 136, rfl⟩
abbrev main_c_24 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_c_25 : Ref sig .tc := ⟨.hbm, 143, rfl⟩
abbrev main_v92 : Ref sig .tc := ⟨.hbm, 144, rfl⟩
abbrev main_v93 : Ref sig .tc := ⟨.hbm, 145, rfl⟩
abbrev main_c_26 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_c_27 : Ref sig .tc := ⟨.hbm, 154, rfl⟩
abbrev main_call8_v0 : Ref sig .tc := ⟨.hbm, 155, rfl⟩
abbrev main_call8_v1 : Ref sig .tc := ⟨.hbm, 156, rfl⟩
abbrev main_call8_v2 : Ref sig .tc := ⟨.hbm, 157, rfl⟩
abbrev main_v101 : Ref sig .tc := ⟨.hbm, 158, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![500], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4800x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4800x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4800x3 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S4800x4_S4800x4_0_0 : ∀ a, (![0, 0] : Fin 2 → Nat) a + S4800x4.size a ≤ S4800x4.size a
  h_S4800x4 : 0 < S4800x4.numel
  slices_S4800x4_o0_0_S4800x3 : S4800x4.Slices ![0, 0] S4800x3
  slices_S4800x3_o0_0_S4800x1 : S4800x3.Slices ![0, 0] S4800x1
  shapeCasts_S4800x1_S4800 : S4800x1.ShapeCasts S4800
  slices_S4800x3_o0_1_S4800x1 : S4800x3.Slices ![0, 1] S4800x1
  slices_S4800x3_o0_2_S4800x1 : S4800x3.Slices ![0, 2] S4800x1
  inb_S4800x1_S4800x1_0_0 : ∀ a, (![0, 0] : Fin 2 → Nat) a + S4800x1.size a ≤ S4800x1.size a
  h_S4800x1 : 0 < S4800x1.numel
  shapeCasts_S4800_S4800x1 : S4800.ShapeCasts S4800x1
  inb_S4800x3_S4800x1_0_0 : ∀ a, (![0, 0] : Fin 2 → Nat) a + S4800x1.size a ≤ S4800x3.size a
  inb_S4800x3_S4800x1_0_1 : ∀ a, (![0, 1] : Fin 2 → Nat) a + S4800x1.size a ≤ S4800x3.size a
  inb_S4800x3_S4800x1_0_2 : ∀ a, (![0, 2] : Fin 2 → Nat) a + S4800x1.size a ≤ S4800x3.size a
  shapeCasts_S2400000x1_S2400000 : S2400000x1.ShapeCasts S2400000
  bcast_S_S2400000 : S_.BroadcastsInDim S2400000 (![] : Fin 0 → Fin S2400000.rank)
  bcast_S2400000_S2400000x1_0 : S2400000.BroadcastsInDim S2400000x1 (![0] : Fin 1 → Fin S2400000x1.rank)
  bcast_S_S1 : S_.BroadcastsInDim S1 (![] : Fin 0 → Fin S1.rank)
  slices_S2400000_S2399999_1 : S2400000.Slices ![1] S2399999
  slices_S2400000_S2399999_0 : S2400000.Slices ![0] S2399999
  concatenates_S1_S2399999_S2400000_d0 : Shape.Concatenates [S1, S2399999] S2400000 0
  natLt_1_32 : 1 < 32
  bcast_S_S_ : S_.BroadcastsInDim S_ (![] : Fin 0 → Fin S_.rank)
  reduceWindows_S2400000_S2400000_w2400000s1p2399999_0 : S2400000.ReduceWindows (![2400000] : Fin 1 → Nat) ![1] ![2399999] ![0] S2400000
  h_S_ : 0 < S_.numel
  slices_S2400000_S40000_0 : S2400000.Slices ![0] S40000
  bcast_S_S40000 : S_.BroadcastsInDim S40000 (![] : Fin 0 → Fin S40000.rank)
  bcast_S40000_S40000x1_0 : S40000.BroadcastsInDim S40000x1 (![0] : Fin 1 → Fin S40000x1.rank)
  bcast_S32_S1x32_1 : S32.BroadcastsInDim S1x32 (![1] : Fin 1 → Fin S1x32.rank)
  bcast_S40000x1_S40000x32_0_1 : S40000x1.BroadcastsInDim S40000x32 (![0, 1] : Fin 2 → Fin S40000x32.rank)
  bcast_S1x32_S40000x32_0_1 : S1x32.BroadcastsInDim S40000x32 (![0, 1] : Fin 2 → Fin S40000x32.rank)
  bcast_S_S40000x32 : S_.BroadcastsInDim S40000x32 (![] : Fin 0 → Fin S40000x32.rank)
  bcast_S40000x32_S40000x32x1_0_1 : S40000x32.BroadcastsInDim S40000x32x1 (![0, 1] : Fin 2 → Fin S40000x32x1.rank)
  bcast_S40000x32x1_S40000x32x4_0_1_2 : S40000x32x1.BroadcastsInDim S40000x32x4 (![0, 1, 2] : Fin 3 → Fin S40000x32x4.rank)
  bcast_S_S40000x32x4 : S_.BroadcastsInDim S40000x32x4 (![] : Fin 0 → Fin S40000x32x4.rank)
  bcast_S40000x1_S40000x3_0_1 : S40000x1.BroadcastsInDim S40000x3 (![0, 1] : Fin 2 → Fin S40000x3.rank)
  bcast_S_S40000x3 : S_.BroadcastsInDim S40000x3 (![] : Fin 0 → Fin S40000x3.rank)
  gather_S2400000_S2400000x1_S2400000_n_0_n_n_0_1_1_wf : GatherDims.WF S2400000 S2400000x1 S2400000 [] [0] [] [0] [] 1 ![1]
  scatter_S2400000_S2400000x1_S2400000_n_0_0_1_wf : ScatterDims.WF S2400000 S2400000x1 S2400000 [] [0] [0] 1
  gather_S2400000_S40000x1_S40000_n_0_n_n_0_1_1_wf : GatherDims.WF S2400000 S40000x1 S40000 [] [0] [] [0] [] 1 ![1]
  gather_S2400000_S40000x32x1_S40000x32_n_0_n_n_0_2_1_wf : GatherDims.WF S2400000 S40000x32x1 S40000x32 [] [0] [] [0] [] 2 ![1]
  gather_S2400000x4_S40000x32x1_S40000x32x4_2_0_n_n_0_2_14_wf : GatherDims.WF S2400000x4 S40000x32x1 S40000x32x4 [2] [0] [] [0] [] 2 ![1, 4]
  gather_S2400000x3_S40000x1_S40000x3_1_0_n_n_0_1_13_wf : GatherDims.WF S2400000x3 S40000x1 S40000x3 [1] [0] [] [0] [] 1 ![1, 3]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4800x4.size a ≤ S2400000x4.size a
  hwx0_0 : ∀ i : grid0.Coords, EltTy.bits .f32 = 32 ∨ (Rect.block (s := S2400000x4) S4800x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4800x1.size a ≤ S2400000x1.size a
  hwx0_1 : ∀ i : grid0.Coords, EltTy.bits .i32 = 32 ∨ (Rect.block (s := S2400000x1) S4800x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4800x3.size a ≤ S2400000x3.size a
  hwx0_2 : ∀ i : grid0.Coords, EltTy.bits .i32 = 32 ∨ (Rect.block (s := S2400000x3) S4800x3.size (cc0_transform_2 i) (hinb0_2 i)).WholeWords (EltTy.packing .i32)

variable [Facts₀]

def comparator_i32_i32_d0 : BitVec 32 × BitVec 32 → BitVec 32 × BitVec 32 → BitVec 1 :=
  fun l r =>
    let v2 := IntOp.cmpi .slt l.1 r.1
    v2
def gather_S2400000_S2400000x1_S2400000_n_0_n_n_0_1_1 : GatherDims S2400000 S2400000x1 S2400000 where
  offsetDims := []
  collapsedSliceDims := [0]
  operandBatchingDims := []
  startIndicesBatchingDims := []
  startIndexMap := [0]
  indexVectorDim := 1
  sliceSizes := ![1]
  wf := gather_S2400000_S2400000x1_S2400000_n_0_n_n_0_1_1_wf
def scatter_S2400000_S2400000x1_S2400000_n_0_0_1 : ScatterDims S2400000 S2400000x1 S2400000 where
  updateWindowDims := []
  insertedWindowDims := [0]
  scatterDimsToOperandDims := [0]
  indexVectorDim := 1
  wf := scatter_S2400000_S2400000x1_S2400000_n_0_0_1_wf
def gather_S2400000_S40000x1_S40000_n_0_n_n_0_1_1 : GatherDims S2400000 S40000x1 S40000 where
  offsetDims := []
  collapsedSliceDims := [0]
  operandBatchingDims := []
  startIndicesBatchingDims := []
  startIndexMap := [0]
  indexVectorDim := 1
  sliceSizes := ![1]
  wf := gather_S2400000_S40000x1_S40000_n_0_n_n_0_1_1_wf
def gather_S2400000_S40000x32x1_S40000x32_n_0_n_n_0_2_1 : GatherDims S2400000 S40000x32x1 S40000x32 where
  offsetDims := []
  collapsedSliceDims := [0]
  operandBatchingDims := []
  startIndicesBatchingDims := []
  startIndexMap := [0]
  indexVectorDim := 2
  sliceSizes := ![1]
  wf := gather_S2400000_S40000x32x1_S40000x32_n_0_n_n_0_2_1_wf
def gather_S2400000x4_S40000x32x1_S40000x32x4_2_0_n_n_0_2_14 : GatherDims S2400000x4 S40000x32x1 S40000x32x4 where
  offsetDims := [2]
  collapsedSliceDims := [0]
  operandBatchingDims := []
  startIndicesBatchingDims := []
  startIndexMap := [0]
  indexVectorDim := 2
  sliceSizes := ![1, 4]
  wf := gather_S2400000x4_S40000x32x1_S40000x32x4_2_0_n_n_0_2_14_wf
def gather_S2400000x3_S40000x1_S40000x3_1_0_n_n_0_1_13 : GatherDims S2400000x3 S40000x1 S40000x3 where
  offsetDims := [1]
  collapsedSliceDims := [0]
  operandBatchingDims := []
  startIndicesBatchingDims := []
  startIndexMap := [0]
  indexVectorDim := 1
  sliceSizes := ![1, 3]
  wf := gather_S2400000x3_S40000x1_S40000x3_1_0_n_n_0_1_13_wf

abbrev win0_0 : Pipeline.Window sig grid0 :=
  Pipeline.Window.ofSpec (Memref.whole main_arg0) S4800x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S4800x1.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S4800x3.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2400000x4 : Shape := ⟨2, ![2400000, 4]⟩
abbrev S3 : Shape := ⟨1, ![3]⟩
abbrev S2400000x3 : Shape := ⟨2, ![2400000, 3]⟩
abbrev S1x3 : Shape := ⟨2, ![1, 3]⟩
abbrev S_ : Shape := ⟨0, ![]⟩
abbrev S2400000 : Shape := ⟨1, ![2400000]⟩
abbrev S2400000x1 : Shape := ⟨2, ![2400000, 1]⟩
abbrev S1 : Shape := ⟨1, ![1]⟩
abbrev S2399999 : Shape := ⟨1, ![2399999]⟩
abbrev S40000 : Shape := ⟨1, ![40000]⟩
abbrev S40000x1 : Shape := ⟨2, ![40000, 1]⟩
abbrev S32 : Shape := ⟨1, ![32]⟩
abbrev S1x32 : Shape := ⟨2, ![1, 32]⟩
abbrev S40000x32 : Shape := ⟨2, ![40000, 32]⟩
abbrev S40000x32x1 : Shape := ⟨3, ![40000, 32, 1]⟩
abbrev S40000x32x4 : Shape := ⟨3, ![40000, 32, 4]⟩
abbrev S40000x3 : Shape := ⟨2, ![40000, 3]⟩

abbrev nBuf : Space → Nat
  | .hbm => 194
  | .vmem => 0
  | .smem => 0
  | _ => 0

abbrev hbmTy0_0 (i : Nat) : BufTy := match i % 128 with
  | 0 => ⟨S2400000x4, .f32⟩
  | 1 => ⟨S3, .f32⟩
  | 2 => ⟨S3, .f32⟩
  | 3 => ⟨S3, .i32⟩
  | 4 => ⟨S2400000x3, .f32⟩
  | 5 => ⟨S1x3, .f32⟩
  | 6 => ⟨S2400000x3, .f32⟩
  | 7 => ⟨S2400000x3, .f32⟩
  | 8 => ⟨S1x3, .f32⟩
  | 9 => ⟨S2400000x3, .f32⟩
  | 10 => ⟨S2400000x3, .f32⟩
  | 11 => ⟨S2400000x3, .f32⟩
  | 12 => ⟨S2400000x3, .i32⟩
  | 13 => ⟨S_, .i32⟩
  | 14 => ⟨S2400000x3, .i32⟩
  | 15 => ⟨S2400000x3, .i1⟩
  | 16 => ⟨S1x3, .i32⟩
  | 17 => ⟨S2400000x3, .i32⟩
  | 18 => ⟨S2400000x3, .i1⟩
  | 19 => ⟨S2400000x3, .i1⟩
  | 20 => ⟨S_, .i1⟩
  | 21 => ⟨S2400000, .i1⟩
  | 22 => ⟨S2400000x1, .i32⟩
  | 23 => ⟨S2400000, .i32⟩
  | 24 => ⟨S_, .i32⟩
  | 25 => ⟨S2400000, .i32⟩
  | 26 => ⟨S2400000, .i32⟩
  | 27 => ⟨S2400000x1, .i32⟩
  | 28 => ⟨S2400000, .i32⟩
  | 29 => ⟨S2400000, .i32⟩
  | 30 => ⟨S_, .i32⟩
  | 31 => ⟨S2400000, .i32⟩
  | 32 => ⟨S2400000, .i32⟩
  | 33 => ⟨S2400000x1, .i32⟩
  | 34 => ⟨S2400000, .i32⟩
  | 35 => ⟨S2400000, .i32⟩
  | 36 => ⟨S_, .i32⟩
  | 37 => ⟨S2400000, .i32⟩
  | 38 => ⟨S2400000, .i32⟩
  | 39 => ⟨S2400000, .i32⟩
  | 40 => ⟨S2400000, .i32⟩
  | 41 => ⟨S2400000, .i32⟩
  | 42 => ⟨S_, .i32⟩
  | 43 => ⟨S2400000, .i32⟩
  | 44 => ⟨S2400000, .i1⟩
  | 45 => ⟨S_, .i32⟩
  | 46 => ⟨S2400000, .i32⟩
  | 47 => ⟨S2400000, .i32⟩
  | 48 => ⟨S2400000, .i32⟩
  | 49 => ⟨S2400000x1, .i32⟩
  | 50 => ⟨S2400000, .i32⟩
  | 51 => ⟨S_, .i32⟩
  | 52 => ⟨S2400000, .i32⟩
  | 53 => ⟨S2400000, .i1⟩
  | 54 => ⟨S_, .i1⟩
  | 55 => ⟨S1, .i1⟩
  | 56 => ⟨S2399999, .i32⟩
  | 57 => ⟨S2399999, .i32⟩
  | 58 => ⟨S2399999, .i1⟩
  | 59 => ⟨S2400000, .i1⟩
  | 60 => ⟨S2400000, .i32⟩
  | 61 => ⟨S_, .i32⟩
  | 62 => ⟨S_, .i32⟩
  | 63 => ⟨S2400000, .i32⟩
  | 64 => ⟨S_, .i32⟩
  | 65 => ⟨S2400000, .i32⟩
  | 66 => ⟨S2400000, .i32⟩
  | 67 => ⟨S2400000, .i32⟩
  | 68 => ⟨S_, .i32⟩
  | 69 => ⟨S2400000, .i32⟩
  | 70 => ⟨S2400000x1, .i32⟩
  | 71 => ⟨S2400000, .i32⟩
  | 72 => ⟨S2400000, .i1⟩
  | 73 => ⟨S_, .i32⟩
  | 74 => ⟨S2400000, .i32⟩
  | 75 => ⟨S2400000, .i32⟩
  | 76 => ⟨S2400000, .i32⟩
  | 77 => ⟨S2400000, .i32⟩
  | 78 => ⟨S2400000, .i32⟩
  | 79 => ⟨S40000, .i32⟩
  | 80 => ⟨S_, .i32⟩
  | 81 => ⟨S40000, .i32⟩
  | 82 => ⟨S40000, .i1⟩
  | 83 => ⟨S_, .i32⟩
  | 84 => ⟨S40000, .i32⟩
  | 85 => ⟨S40000, .i32⟩
  | 86 => ⟨S40000, .i32⟩
  | 87 => ⟨S40000x1, .i32⟩
  | 88 => ⟨S40000, .i32⟩
  | 89 => ⟨S_, .i32⟩
  | 90 => ⟨S40000, .i32⟩
  | 91 => ⟨S40000, .i1⟩
  | 92 => ⟨S_, .i32⟩
  | 93 => ⟨S40000, .i32⟩
  | 94 => ⟨S40000, .i1⟩
  | 95 => ⟨S_, .i32⟩
  | 96 => ⟨S40000, .i32⟩
  | 97 => ⟨S40000, .i32⟩
  | 98 => ⟨S40000, .i32⟩
  | 99 => ⟨S40000x1, .i32⟩
  | 100 => ⟨S40000, .i32⟩
  | 101 => ⟨S_, .i32⟩
  | 102 => ⟨S40000, .i32⟩
  | 103 => ⟨S40000, .i1⟩
  | 104 => ⟨S_, .i32⟩
  | 105 => ⟨S40000, .i32⟩
  | 106 => ⟨S40000, .i32⟩
  | 107 => ⟨S40000, .i32⟩
  | 108 => ⟨S40000x1, .i32⟩
  | 109 => ⟨S40000, .i32⟩
  | 110 => ⟨S_, .i32⟩
  | 111 => ⟨S_, .i32⟩
  | 112 => ⟨S40000, .i32⟩
  | 113 => ⟨S40000, .i32⟩
  | 114 => ⟨S_, .i32⟩
  | 115 => ⟨S40000, .i32⟩
  | 116 => ⟨S40000, .i32⟩
  | 117 => ⟨S40000x1, .i32⟩
  | 118 => ⟨S32, .i32⟩
  | 119 => ⟨S1x32, .i32⟩
  | 120 => ⟨S40000x32, .i32⟩
  | 121 => ⟨S40000x32, .i32⟩
  | 122 => ⟨S40000x32, .i32⟩
  | 123 => ⟨S32, .i32⟩
  | 124 => ⟨S1x32, .i32⟩
  | 125 => ⟨S40000x1, .i32⟩
  | 126 => ⟨S40000x32, .i32⟩
  | 127 => ⟨S40000x32, .i32⟩
  | _ => ⟨S2400000x4, .f32⟩

abbrev hbmTy0_1 (i : Nat) : BufTy := match i % 128 with
  | 0 => ⟨S40000x32, .i1⟩
  | 1 => ⟨S_, .i32⟩
  | 2 => ⟨S_, .i32⟩
  | 3 => ⟨S_, .i32⟩
  | 4 => ⟨S40000x32, .i32⟩
  | 5 => ⟨S40000x32, .i32⟩
  | 6 => ⟨S_, .i32⟩
  | 7 => ⟨S40000x32, .i32⟩
  | 8 => ⟨S40000x32, .i32⟩
  | 9 => ⟨S_, .i32⟩
  | 10 => ⟨S40000x32, .i32⟩
  | 11 => ⟨S40000x32, .i1⟩
  | 12 => ⟨S_, .i32⟩
  | 13 => ⟨S40000x32, .i32⟩
  | 14 => ⟨S40000x32, .i32⟩
  | 15 => ⟨S40000x32, .i32⟩
  | 16 => ⟨S40000x32x1, .i32⟩
  | 17 => ⟨S40000x32, .i32⟩
  | 18 => ⟨S40000x32x1, .i1⟩
  | 19 => ⟨S_, .i32⟩
  | 20 => ⟨S40000x32, .i32⟩
  | 21 => ⟨S40000x32, .i1⟩
  | 22 => ⟨S_, .i32⟩
  | 23 => ⟨S40000x32, .i32⟩
  | 24 => ⟨S40000x32, .i32⟩
  | 25 => ⟨S40000x32, .i32⟩
  | 26 => ⟨S40000x32x1, .i32⟩
  | 27 => ⟨S40000x32x4, .f32⟩
  | 28 => ⟨S_, .f32⟩
  | 29 => ⟨S_, .f32⟩
  | 30 => ⟨S40000x32x4, .i1⟩
  | 31 => ⟨S40000x32x4, .f32⟩
  | 32 => ⟨S40000x32x4, .f32⟩
  | 33 => ⟨S_, .i32⟩
  | 34 => ⟨S_, .i32⟩
  | 35 => ⟨S_, .i32⟩
  | 36 => ⟨S40000, .i32⟩
  | 37 => ⟨S40000, .i32⟩
  | 38 => ⟨S_, .i32⟩
  | 39 => ⟨S40000, .i32⟩
  | 40 => ⟨S40000, .i32⟩
  | 41 => ⟨S_, .i32⟩
  | 42 => ⟨S40000, .i32⟩
  | 43 => ⟨S40000, .i1⟩
  | 44 => ⟨S_, .i32⟩
  | 45 => ⟨S40000, .i32⟩
  | 46 => ⟨S40000, .i32⟩
  | 47 => ⟨S40000, .i32⟩
  | 48 => ⟨S40000x1, .i32⟩
  | 49 => ⟨S40000, .i32⟩
  | 50 => ⟨S_, .i32⟩
  | 51 => ⟨S40000, .i32⟩
  | 52 => ⟨S40000, .i1⟩
  | 53 => ⟨S_, .i32⟩
  | 54 => ⟨S40000, .i32⟩
  | 55 => ⟨S40000, .i32⟩
  | 56 => ⟨S40000, .i32⟩
  | 57 => ⟨S40000x1, .i32⟩
  | 58 => ⟨S40000x3, .i32⟩
  | 59 => ⟨S40000x1, .i1⟩
  | 60 => ⟨S40000x3, .i32⟩
  | 61 => ⟨S_, .i32⟩
  | 62 => ⟨S_, .i32⟩
  | 63 => ⟨S40000x3, .i1⟩
  | 64 => ⟨S40000x3, .i32⟩
  | 65 => ⟨S40000x3, .i32⟩
  | _ => ⟨S2400000x4, .f32⟩

abbrev hbmTy (i : Nat) : BufTy := match i / 128 with
  | 0 => hbmTy0_0 i
  | 1 => hbmTy0_1 i
  | _ => ⟨S2400000x4, .f32⟩

abbrev bufTy : (tb : Table) → Fin (tcTables nBuf tb) → BufTy
  | .hbm, ⟨i, _⟩ => hbmTy i
  | _, _ => ⟨S2400000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c_4 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c_5 : Ref sig .tc := ⟨.hbm, 36, rfl⟩
abbrev main_call0_v0 : Ref sig .tc := ⟨.hbm, 37, rfl⟩
abbrev main_v28 : Ref sig .tc := ⟨.hbm, 38, rfl⟩
abbrev main_call1_v0 : Ref sig .tc := ⟨.hbm, 39, rfl⟩
abbrev main_call1_v1_0 : Ref sig .tc := ⟨.hbm, 40, rfl⟩
abbrev main_v29 : Ref sig .tc := ⟨.hbm, 41, rfl⟩
abbrev main_c_6 : Ref sig .tc := ⟨.hbm, 42, rfl⟩
abbrev main_v30 : Ref sig .tc := ⟨.hbm, 43, rfl⟩
abbrev main_v31 : Ref sig .tc := ⟨.hbm, 44, rfl⟩
abbrev main_c_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_c_8 : Ref sig .tc := ⟨.hbm, 51, rfl⟩
abbrev main_v37 : Ref sig .tc := ⟨.hbm, 52, rfl⟩
abbrev main_v38 : Ref sig .tc := ⟨.hbm, 53, rfl⟩
abbrev main_c_9 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_call2_v0 : Ref sig .tc := ⟨.hbm, 60, rfl⟩
abbrev main_call2_call0_c : Ref sig .tc := ⟨.hbm, 61, rfl⟩
abbrev main_call2_call0_v0 : Ref sig .tc := ⟨.hbm, 62, rfl⟩
abbrev main_v44 : Ref sig .tc := ⟨.hbm, 63, rfl⟩
abbrev main_c_10 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_11 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_c_12 : Ref sig .tc := ⟨.hbm, 73, rfl⟩
abbrev main_call3_v0 : Ref sig .tc := ⟨.hbm, 74, rfl⟩
abbrev main_v52 : Ref sig .tc := ⟨.hbm, 75, rfl⟩
abbrev main_call4_v0 : Ref sig .tc := ⟨.hbm, 76, rfl⟩
abbrev main_call4_v1_0 : Ref sig .tc := ⟨.hbm, 77, rfl⟩
abbrev main_v53 : Ref sig .tc := ⟨.hbm, 78, rfl⟩
abbrev main_v54 : Ref sig .tc := ⟨.hbm, 79, rfl⟩
abbrev main_c_13 : Ref sig .tc := ⟨.hbm, 80, rfl⟩
abbrev main_v55 : Ref sig .tc := ⟨.hbm, 81, rfl⟩
abbrev main_v56 : Ref sig .tc := ⟨.hbm, 82, rfl⟩
abbrev main_c_14 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_c_15 : Ref sig .tc := ⟨.hbm, 89, rfl⟩
abbrev main_v62 : Ref sig .tc := ⟨.hbm, 90, rfl⟩
abbrev main_v63 : Ref sig .tc := ⟨.hbm, 91, rfl⟩
abbrev main_c_16 : Ref sig .tc := ⟨.hbm, 92, rfl⟩
abbrev main_v64 : Ref sig .tc := ⟨.hbm, 93, rfl⟩
abbrev main_v65 : Ref sig .tc := ⟨.hbm, 94, rfl⟩
abbrev main_c_17 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_c_18 : Ref sig .tc := ⟨.hbm, 101, rfl⟩
abbrev main_v71 : Ref sig .tc := ⟨.hbm, 102, rfl⟩
abbrev main_v72 : Ref sig .tc := ⟨.hbm, 103, rfl⟩
abbrev main_c_19 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_c_20 : Ref sig .tc := ⟨.hbm, 110, rfl⟩
abbrev main_call5_v0 : Ref sig .tc := ⟨.hbm, 111, rfl⟩
abbrev main_call5_v1 : Ref sig .tc := ⟨.hbm, 112, rfl⟩
abbrev main_v78 : Ref sig .tc := ⟨.hbm, 113, rfl⟩
abbrev main_c_21 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_c_22 : Ref sig .tc := ⟨.hbm, 129, rfl⟩
abbrev main_c_23 : Ref sig .tc := ⟨.hbm, 130, rfl⟩
abbrev main_call6_v0 : Ref sig .tc := ⟨.hbm, 131, rfl⟩
abbrev main_call6_v1 : Ref sig .tc := ⟨.hbm, 132, rfl⟩
abbrev main_call6_v2 : Ref sig .tc := ⟨.hbm, 133, rfl⟩
abbrev main_call6_v3 : Ref sig .tc := ⟨.hbm, 134, rfl⟩
abbrev main_call6_v4 : Ref sig .tc := ⟨.hbm, 135, rfl⟩
abbrev main_v93 : Ref sig .tc := ⟨.hbm, 136, rfl⟩
abbrev main_c_24 : Ref sig .tc := ⟨.hbm, 137, rfl⟩
abbrev main_v94 : Ref sig .tc := ⟨.hbm, 138, rfl⟩
abbrev main_v95 : Ref sig .tc := ⟨.hbm, 139, rfl⟩
abbrev main_c_25 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_c_26 : Ref sig .tc := ⟨.hbm, 147, rfl⟩
abbrev main_v102 : Ref sig .tc := ⟨.hbm, 148, rfl⟩
abbrev main_v103 : Ref sig .tc := ⟨.hbm, 149, rfl⟩
abbrev main_c_27 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_cst_28 : Ref sig .tc := ⟨.hbm, 156, rfl⟩
abbrev main_call7_v0 : Ref sig .tc := ⟨.hbm, 157, rfl⟩
abbrev main_call7_v1 : Ref sig .tc := ⟨.hbm, 158, rfl⟩
abbrev main_call7_v2 : Ref sig .tc := ⟨.hbm, 159, rfl⟩
abbrev main_v109 : Ref sig .tc := ⟨.hbm, 160, rfl⟩
abbrev main_c_29 : Ref sig .tc := ⟨.hbm, 161, rfl⟩
abbrev main_c_30 : Ref sig .tc := ⟨.hbm, 162, rfl⟩
abbrev main_call8_v0 : Ref sig .tc := ⟨.hbm, 163, rfl⟩
abbrev main_call8_v1 : Ref sig .tc := ⟨.hbm, 164, rfl⟩
abbrev main_call8_v2 : Ref sig .tc := ⟨.hbm, 165, rfl⟩
abbrev main_call8_v3 : Ref sig .tc := ⟨.hbm, 166, rfl⟩
abbrev main_call8_v4 : Ref sig .tc := ⟨.hbm, 167, rfl⟩
abbrev main_v110 : Ref sig .tc := ⟨.hbm, 168, rfl⟩
abbrev main_c_31 : Ref sig .tc := ⟨.hbm, 169, rfl⟩
abbrev main_v111 : Ref sig .tc := ⟨.hbm, 170, rfl⟩
abbrev main_v112 : Ref sig .tc := ⟨.hbm, 171, rfl⟩
abbrev main_c_32 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_c_33 : Ref sig .tc := ⟨.hbm, 178, rfl⟩
abbrev main_v118 : Ref sig .tc := ⟨.hbm, 179, rfl⟩
abbrev main_v119 : Ref sig .tc := ⟨.hbm, 180, rfl⟩
abbrev main_c_34 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_c_35 : Ref sig .tc := ⟨.hbm, 189, rfl⟩
abbrev main_call9_v0 : Ref sig .tc := ⟨.hbm, 190, rfl⟩
abbrev main_call9_v1 : Ref sig .tc := ⟨.hbm, 191, rfl⟩
abbrev main_call9_v2 : Ref sig .tc := ⟨.hbm, 192, rfl⟩
abbrev main_v127 : Ref sig .tc := ⟨.hbm, 193, rfl⟩

abbrev nD : Nat := 1
abbrev τ : Topo := Topo.v7x

variable {F : FTy → Type} [FloatOps F]

class Facts₀ : Prop where
  slices_S2400000x4_S2400000x3_0_0 : S2400000x4.Slices ![0, 0] S2400000x3
  bcast_S3_S1x3_1 : S3.BroadcastsInDim S1x3 (![1] : Fin 1 → Fin S1x3.rank)
  bcast_S1x3_S2400000x3_0_1 : S1x3.BroadcastsInDim S2400000x3 (![0, 1] : Fin 2 → Fin S2400000x3.rank)
  bcast_S_S2400000x3 : S_.BroadcastsInDim S2400000x3 (![] : Fin 0 → Fin S2400000x3.rank)
  reducesTo_S2400000x3_S2400000_d1 : S2400000x3.ReducesTo [1] S2400000
  h_S_ : 0 < S_.numel
  slices_S2400000x3_S2400000x1_0_2 : S2400000x3.Slices ![0, 2] S2400000x1
  shapeCasts_S2400000x1_S2400000 : S2400000x1.ShapeCasts S2400000
  bcast_S_S2400000 : S_.BroadcastsInDim S2400000 (![] : Fin 0 → Fin S2400000.rank)
  slices_S2400000x3_S2400000x1_0_1 : S2400000x3.Slices ![0, 1] S2400000x1
  slices_S2400000x3_S2400000x1_0_0 : S2400000x3.Slices ![0, 0] S2400000x1
  bcast_S2400000_S2400000x1_0 : S2400000.BroadcastsInDim S2400000x1 (![0] : Fin 1 → Fin S2400000x1.rank)
  bcast_S_S1 : S_.BroadcastsInDim S1 (![] : Fin 0 → Fin S1.rank)
  slices_S2400000_S2399999_1 : S2400000.Slices ![1] S2399999
  slices_S2400000_S2399999_0 : S2400000.Slices ![0] S2399999
  concatenates_S1_S2399999_S2400000_d0 : Shape.Concatenates [S1, S2399999] S2400000 0
  natLt_1_32 : 1 < 32
  bcast_S_S_ : S_.BroadcastsInDim S_ (![] : Fin 0 → Fin S_.rank)
  reduceWindows_S2400000_S2400000_w2400000s1p2399999_0 : S2400000.ReduceWindows (![2400000] : Fin 1 → Nat) ![1] ![2399999] ![0] S2400000
  slices_S2400000_S40000_0 : S2400000.Slices ![0] S40000
  bcast_S_S40000 : S_.BroadcastsInDim S40000 (![] : Fin 0 → Fin S40000.rank)
  bcast_S40000_S40000x1_0 : S40000.BroadcastsInDim S40000x1 (![0] : Fin 1 → Fin S40000x1.rank)
  bcast_S32_S1x32_1 : S32.BroadcastsInDim S1x32 (![1] : Fin 1 → Fin S1x32.rank)
  bcast_S40000x1_S40000x32_0_1 : S40000x1.BroadcastsInDim S40000x32 (![0, 1] : Fin 2 → Fin S40000x32.rank)
  bcast_S1x32_S40000x32_0_1 : S1x32.BroadcastsInDim S40000x32 (![0, 1] : Fin 2 → Fin S40000x32.rank)
  bcast_S_S40000x32 : S_.BroadcastsInDim S40000x32 (![] : Fin 0 → Fin S40000x32.rank)
  bcast_S40000x32_S40000x32x1_0_1 : S40000x32.BroadcastsInDim S40000x32x1 (![0, 1] : Fin 2 → Fin S40000x32x1.rank)
  bcast_S40000x32x1_S40000x32x4_0_1_2 : S40000x32x1.BroadcastsInDim S40000x32x4 (![0, 1, 2] : Fin 3 → Fin S40000x32x4.rank)
  bcast_S_S40000x32x4 : S_.BroadcastsInDim S40000x32x4 (![] : Fin 0 → Fin S40000x32x4.rank)
  bcast_S40000x1_S40000x3_0_1 : S40000x1.BroadcastsInDim S40000x3 (![0, 1] : Fin 2 → Fin S40000x3.rank)
  bcast_S_S40000x3 : S_.BroadcastsInDim S40000x3 (![] : Fin 0 → Fin S40000x3.rank)
  gather_S2400000_S2400000x1_S2400000_n_0_n_n_0_1_1_wf : GatherDims.WF S2400000 S2400000x1 S2400000 [] [0] [] [0] [] 1 ![1]
  scatter_S2400000_S2400000x1_S2400000_n_0_0_1_wf : ScatterDims.WF S2400000 S2400000x1 S2400000 [] [0] [0] 1
  gather_S2400000_S40000x1_S40000_n_0_n_n_0_1_1_wf : GatherDims.WF S2400000 S40000x1 S40000 [] [0] [] [0] [] 1 ![1]
  gather_S2400000_S40000x32x1_S40000x32_n_0_n_n_0_2_1_wf : GatherDims.WF S2400000 S40000x32x1 S40000x32 [] [0] [] [0] [] 2 ![1]
  gather_S2400000x4_S40000x32x1_S40000x32x4_2_0_n_n_0_2_14_wf : GatherDims.WF S2400000x4 S40000x32x1 S40000x32x4 [2] [0] [] [0] [] 2 ![1, 4]
  gather_S2400000x3_S40000x1_S40000x3_1_0_n_n_0_1_13_wf : GatherDims.WF S2400000x3 S40000x1 S40000x3 [1] [0] [] [0] [] 1 ![1, 3]

variable [Facts₀]

def comparator_i32_i32_d0 : BitVec 32 × BitVec 32 → BitVec 32 × BitVec 32 → BitVec 1 :=
  fun l r =>
    let v2 := IntOp.cmpi .slt l.1 r.1
    v2
def gather_S2400000_S2400000x1_S2400000_n_0_n_n_0_1_1 : GatherDims S2400000 S2400000x1 S2400000 where
  offsetDims := []
  collapsedSliceDims := [0]
  operandBatchingDims := []
  startIndicesBatchingDims := []
  startIndexMap := [0]
  indexVectorDim := 1
  sliceSizes := ![1]
  wf := gather_S2400000_S2400000x1_S2400000_n_0_n_n_0_1_1_wf
def scatter_S2400000_S2400000x1_S2400000_n_0_0_1 : ScatterDims S2400000 S2400000x1 S2400000 where
  updateWindowDims := []
  insertedWindowDims := [0]
  scatterDimsToOperandDims := [0]
  indexVectorDim := 1
  wf := scatter_S2400000_S2400000x1_S2400000_n_0_0_1_wf
def gather_S2400000_S40000x1_S40000_n_0_n_n_0_1_1 : GatherDims S2400000 S40000x1 S40000 where
  offsetDims := []
  collapsedSliceDims := [0]
  operandBatchingDims := []
  startIndicesBatchingDims := []
  startIndexMap := [0]
  indexVectorDim := 1
  sliceSizes := ![1]
  wf := gather_S2400000_S40000x1_S40000_n_0_n_n_0_1_1_wf
def gather_S2400000_S40000x32x1_S40000x32_n_0_n_n_0_2_1 : GatherDims S2400000 S40000x32x1 S40000x32 where
  offsetDims := []
  collapsedSliceDims := [0]
  operandBatchingDims := []
  startIndicesBatchingDims := []
  startIndexMap := [0]
  indexVectorDim := 2
  sliceSizes := ![1]
  wf := gather_S2400000_S40000x32x1_S40000x32_n_0_n_n_0_2_1_wf
def gather_S2400000x4_S40000x32x1_S40000x32x4_2_0_n_n_0_2_14 : GatherDims S2400000x4 S40000x32x1 S40000x32x4 where
  offsetDims := [2]
  collapsedSliceDims := [0]
  operandBatchingDims := []
  startIndicesBatchingDims := []
  startIndexMap := [0]
  indexVectorDim := 2
  sliceSizes := ![1, 4]
  wf := gather_S2400000x4_S40000x32x1_S40000x32x4_2_0_n_n_0_2_14_wf
def gather_S2400000x3_S40000x1_S40000x3_1_0_n_n_0_1_13 : GatherDims S2400000x3 S40000x1 S40000x3 where
  offsetDims := [1]
  collapsedSliceDims := [0]
  operandBatchingDims := []
  startIndicesBatchingDims := []
  startIndexMap := [0]
  indexVectorDim := 1
  sliceSizes := ![1, 3]
  wf := gather_S2400000x3_S40000x1_S40000x3_1_0_n_n_0_1_13_wf

class Facts : Prop extends Facts₀ where

variable [Facts]
-- ==== Proof.KFrame.lean ====
/-
  The frame of the voxel-binning program: a grid of 500 points, each staging one block of 4800 points (4800×4 reals),
  computing per point the three voxel coordinates and the linear voxel id, and writing back one 4800×1 block of ids
  and one 4800×3 block of coordinates; then the host operations that sort, group and gather, which read those two
  arrays and the argument array and write none of them. What each output window's buffer holds after the body is the
  canon of the body's stores over the loaded block; the region is launched with that proof data, the host operations
  after it continue from the arrays the region leaves, and the argument array is an input window, so it ends as it began.
-/
import proofs.«161434_j1726576856006_2_alg».proof.Proof.Gen.KernelIdeal.Launch
import proofs.«161434_j1726576856006_2_alg».proof.Proof.Gen.KernelIdeal.Skeleton
import proofs.«161434_j1726576856006_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its one region -/

/-- The host operations after the region, stretch by stretch, in program order. -/
abbrev tailOps : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16]

/-- A core's buffer contents when the region is entered: the launch contents (no host operation comes before it). -/
abbrev V0 (c : Dev nD) : Valuation τ sig (Elt F) :=
  StableHlo.after (List.flatten ([] : List (List (HloOp τ sig (Elt F))))) (fun b => m (c, b))
/-- The same read at a TensorCore reference. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor
theorem hostOps1_12_fresh : (hostOps1_12 : List (HloOp τ sig (Elt F))).Forall fun op => op.fresh = ∅ := by
  simp only [List.Forall]; repeat' constructor
theorem hostOps1_13_fresh : (hostOps1_13 : List (HloOp τ sig (Elt F))).Forall fun op => op.fresh = ∅ := by
  simp only [List.Forall]; repeat' constructor
theorem hostOps1_14_fresh : (hostOps1_14 : List (HloOp τ sig (Elt F))).Forall fun op => op.fresh = ∅ := by
  simp only [List.Forall]; repeat' constructor
theorem hostOps1_15_fresh : (hostOps1_15 : List (HloOp τ sig (Elt F))).Forall fun op => op.fresh = ∅ := by
  simp only [List.Forall]; repeat' constructor
theorem hostOps1_16_fresh : (hostOps1_16 : List (HloOp τ sig (Elt F))).Forall fun op => op.fresh = ∅ := by
  simp only [List.Forall]; repeat' constructor

/-- The program is its region continued by the later host operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps (by simp only [List.Forall])
    (by simp only [List.Forall]) main_chain

/-- The later operations touch only unscoped TensorCore buffers: the pipeline's arrays and the buffers that bypass it. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)
  · exact Pipeline.sub_ucRefs op ((List.forall_iff_forall_mem.mp hostOps1_11_sub) op hop)
  · exact Pipeline.sub_ucRefs op ((List.forall_iff_forall_mem.mp hostOps1_12_sub) op hop)
  · exact Pipeline.sub_ucRefs op ((List.forall_iff_forall_mem.mp hostOps1_13_sub) op hop)
  · exact Pipeline.sub_ucRefs op ((List.forall_iff_forall_mem.mp hostOps1_14_sub) op hop)
  · exact Pipeline.sub_ucRefs op ((List.forall_iff_forall_mem.mp hostOps1_15_sub) op hop)
  · exact Pipeline.sub_ucRefs op ((List.forall_iff_forall_mem.mp hostOps1_16_sub) op hop)

/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
  · exact (List.forall_iff_forall_mem.mp hostOps1_9_fresh) op hop
  · exact (List.forall_iff_forall_mem.mp hostOps1_10_fresh) op hop
  · exact (List.forall_iff_forall_mem.mp hostOps1_11_fresh) op hop
  · exact (List.forall_iff_forall_mem.mp hostOps1_12_fresh) op hop
  · exact (List.forall_iff_forall_mem.mp hostOps1_13_fresh) op hop
  · exact (List.forall_iff_forall_mem.mp hostOps1_14_fresh) op hop
  · exact (List.forall_iff_forall_mem.mp hostOps1_15_fresh) op hop
  · exact (List.forall_iff_forall_mem.mp hostOps1_16_fresh) op hop

theorem hostOps1_keeps : (hostOps1 : List (HloOp τ sig (Elt F))).Forall fun op => ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_1_keeps : (hostOps1_1 : List (HloOp τ sig (Elt F))).Forall fun op => ∀ w, Proc.devRef .tc (Pipeline.arrRef spec0 w) ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_2_keeps : (hostOps1_2 : List (HloOp τ sig (Elt F))).Forall fun op => ∀ w, Proc.devRef .tc (Pipeline.arrRef spec0 w) ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_3_keeps : (hostOps1_3 : List (HloOp τ sig (Elt F))).Forall fun op => ∀ w, Proc.devRef .tc (Pipeline.arrRef spec0 w) ∉ op.writes := by
  simp only [hostOps1_3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_4_keeps : (hostOps1_4 : List (HloOp τ sig (Elt F))).Forall fun op => ∀ w, Proc.devRef .tc (Pipeline.arrRef spec0 w) ∉ op.writes := by
  simp only [hostOps1_4, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_5_keeps : (hostOps1_5 : List (HloOp τ sig (Elt F))).Forall fun op => ∀ w, Proc.devRef .tc (Pipeline.arrRef spec0 w) ∉ op.writes := by
  simp only [hostOps1_5, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_6_keeps : (hostOps1_6 : List (HloOp τ sig (Elt F))).Forall fun op => ∀ w, Proc.devRef .tc (Pipeline.arrRef spec0 w) ∉ op.writes := by
  simp only [hostOps1_6, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_7_keeps : (hostOps1_7 : List (HloOp τ sig (Elt F))).Forall fun op => ∀ w, Proc.devRef .tc (Pipeline.arrRef spec0 w) ∉ op.writes := by
  simp only [hostOps1_7, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_8_keeps : (hostOps1_8 : List (HloOp τ sig (Elt F))).Forall fun op => ∀ w, Proc.devRef .tc (Pipeline.arrRef spec0 w) ∉ op.writes := by
  simp only [hostOps1_8, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_9_keeps : (hostOps1_9 : List (HloOp τ sig (Elt F))).Forall fun op => ∀ w, Proc.devRef .tc (Pipeline.arrRef spec0 w) ∉ op.writes := by
  simp only [hostOps1_9, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_10_keeps : (hostOps1_10 : List (HloOp τ sig (Elt F))).Forall fun op => ∀ w, Proc.devRef .tc (Pipeline.arrRef spec0 w) ∉ op.writes := by
  simp only [hostOps1_10, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_11_keeps : (hostOps1_11 : List (HloOp τ sig (Elt F))).Forall fun op => ∀ w, Proc.devRef .tc (Pipeline.arrRef spec0 w) ∉ op.writes := by
  simp only [hostOps1_11, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_12_keeps : (hostOps1_12 : List (HloOp τ sig (Elt F))).Forall fun op => ∀ w, Proc.devRef .tc (Pipeline.arrRef spec0 w) ∉ op.writes := by
  simp only [hostOps1_12, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_13_keeps : (hostOps1_13 : List (HloOp τ sig (Elt F))).Forall fun op => ∀ w, Proc.devRef .tc (Pipeline.arrRef spec0 w) ∉ op.writes := by
  simp only [hostOps1_13, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_14_keeps : (hostOps1_14 : List (HloOp τ sig (Elt F))).Forall fun op => ∀ w, Proc.devRef .tc (Pipeline.arrRef spec0 w) ∉ op.writes := by
  simp only [hostOps1_14, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_15_keeps : (hostOps1_15 : List (HloOp τ sig (Elt F))).Forall fun op => ∀ w, Proc.devRef .tc (Pipeline.arrRef spec0 w) ∉ op.writes := by
  simp only [hostOps1_15, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_16_keeps : (hostOps1_16 : List (HloOp τ sig (Elt F))).Forall fun op => ∀ w, Proc.devRef .tc (Pipeline.arrRef spec0 w) ∉ op.writes := by
  simp only [hostOps1_16, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))

/-- And write none of the pipeline's three arrays: each writes its own result buffer only. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl | rfl | rfl | rfl | rfl | rfl | rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop
  · exact (List.forall_iff_forall_mem.mp hostOps1_6_keeps) op hop
  · exact (List.forall_iff_forall_mem.mp hostOps1_7_keeps) op hop
  · exact (List.forall_iff_forall_mem.mp hostOps1_8_keeps) op hop
  · exact (List.forall_iff_forall_mem.mp hostOps1_9_keeps) op hop
  · exact (List.forall_iff_forall_mem.mp hostOps1_10_keeps) op hop
  · exact (List.forall_iff_forall_mem.mp hostOps1_11_keeps) op hop
  · exact (List.forall_iff_forall_mem.mp hostOps1_12_keeps) op hop
  · exact (List.forall_iff_forall_mem.mp hostOps1_13_keeps) op hop
  · exact (List.forall_iff_forall_mem.mp hostOps1_14_keeps) op hop
  · exact (List.forall_iff_forall_mem.mp hostOps1_15_keeps) op hop
  · exact (List.forall_iff_forall_mem.mp hostOps1_16_keeps) op hop

/-- The region finds the argument array as launched. -/
theorem V_main_arg0 (c : Dev nD) : V m c main_arg0 = m ((c : Thread nD τ).loc main_arg0) := rfl

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The frame from a frame run: the argument array is the input window's array, which the pipeline only reads. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats 0 c).arrAt_in 0 rfl _).trans ((hA c 0).trans (V_main_arg0 m c)))) h

/-! ## The body's accesses -/

/-- the whole 4800×4 block of points -/
abbrev r0_0 : Rect S4800x4 := Rect.unit (s := S4800x4) ![0, 0] S4800x4.size inb_S4800x4_S4800x4_0_0
/-- the whole 4800×1 block of ids -/
abbrev r1_0 : Rect S4800x1 := Rect.unit (s := S4800x1) ![0, 0] S4800x1.size inb_S4800x1_S4800x1_0_0
/-- column k of the 4800×3 block of coordinates -/
abbrev r2_0 : Rect S4800x3 := Rect.unit (s := S4800x3) ![0, 0] S4800x1.size inb_S4800x3_S4800x1_0_0
abbrev r2_1 : Rect S4800x3 := Rect.unit (s := S4800x3) ![0, 1] S4800x1.size inb_S4800x3_S4800x1_0_1
abbrev r2_2 : Rect S4800x3 := Rect.unit (s := S4800x3) ![0, 2] S4800x1.size inb_S4800x3_S4800x1_0_2

/-! ## What the body leaves in each output window's buffer -/

/-- The id window's buffer after the body: its one store, the id column computed from the loaded block. -/
def out0_1 (x0 : Vec F S4800x4 .f32) : Vec F S4800x1 .i32 :=
  View.canon [⟨r1_0, k0_pay1 (k0_pay6 (View.ld x0 r0_0)) (k0_pay7 (View.ld x0 r0_0)) (k0_pay8 (View.ld x0 r0_0)) (k0_pay9 (View.ld x0 r0_0)) k0_pay10⟩]

/-- The coordinate window's buffer after the body: its three column stores, last first. -/
def out0_2 (x0 : Vec F S4800x4 .f32) : Vec F S4800x3 .i32 :=
  View.canon [⟨r2_2, k0_pay4 (k0_pay8 (View.ld x0 r0_0))⟩, ⟨r2_1, k0_pay3 (k0_pay7 (View.ld x0 r0_0))⟩, ⟨r2_0, k0_pay2 (k0_pay6 (View.ld x0 r0_0))⟩]

theorem cover0_1 (p0 : Vec F S4800x1 .i32) (y : S4800x1.Idx) :
    ∃ pc ∈ ([⟨r1_0, p0⟩] : List (View.Piece (Elt F) S4800x1 .i32)), y ∈ pc.1.set :=
  View.cover_of_tiled [⟨r1_0, p0⟩] S4800x1.size (by rfl) y

/-- The three columns tile the 4800×3 buffer. -/
theorem cover0_2 (p0 p1 p2 : Vec F S4800x1 .i32) (y : S4800x3.Idx) :
    ∃ pc ∈ ([⟨r2_2, p0⟩, ⟨r2_1, p1⟩, ⟨r2_0, p2⟩] : List (View.Piece (Elt F) S4800x3 .i32)), y ∈ pc.1.set :=
  View.cover_of_tiled [⟨r2_2, p0⟩, ⟨r2_1, p1⟩, ⟨r2_0, p2⟩] S4800x1.size (by rfl) y

/-! ## The body's triple -/

set_option maxHeartbeats 4000000 in
/-- The body on whole staging memrefs, the input's at read contents `x0` and the outputs' at anything, runs to the
    continuation holding the input's as it was and each output's at the canon of its stores. -/
theorem sound_kernel (c : Dev nD) (E : Set ℕ) (i : grid0.Coords) (arg1 : Memref sig .tc .vmem S4800x4 .f32) (harg1 : arg1.IsWhole) (arg2 : Memref sig .tc .vmem S4800x1 .i32) (harg2 : arg2.IsWhole) (arg3 : Memref sig .tc .vmem S4800x3 .i32) (harg3 : arg3.IsWhole)
    (x0 : Vec F S4800x4 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0) ∗ owns (c : Thread nD τ) arg3 fullShare (out0_2 x0)) -∗ K ⟨⟩))
      ⊢ wp frame (wpE (defs₀ (F := F)) Variants.none c none) E (cc0__voxel_prep_kernel i arg1 harg1 arg2 harg2 arg3 harg3) K := by
  simp only [cc0__voxel_prep_kernel_eq_skeleton]; unfold cc0__voxel_prep_kernel_skel
  simp only [k0_part1_eq_skeleton]; unfold k0_part1_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    try dsimp only
    exact View.read_writes_eq_canon _ _ _ (cover0_1 _)
  iexists _; isplitr
  swap; · iexact H2
  ipureintro
  try dsimp only
  exact View.read_writes_eq_canon _ _ _ (cover0_2 _ _ _)

/-! ## The pipeline's proof data -/

/-- The arrays as the region finds them; after the body at point `t` the input's buffer at its block and each output's at
    the canon of its stores over that block; nothing owed, full shares, the class's invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => out0_1 (iblk m c 0 t)
    | ⟨2, _⟩ => out0_2 (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = out0_1 (iblk m c 0 t) := by dsimp only [dats]
theorem after0_2 (c : Dev nD) (t : Fin cfg0.N) : (dats m 0 c).after 2 t = out0_2 (iblk m c 0 t) := by dsimp only [dats]

theorem before0_0 (c : Dev nD) (t : Fin cfg0.N) (d) : (dats m 0 c).before 0 t d = iblk m c 0 t :=
  before0_0_of m (dats m 0 c) (A_eq m c 0) (after0_0 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution terminates; every array of the pipeline ends at what the proof data computes and every
    other unscoped buffer as the later host operations leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame: the program runs and its argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.KernelIdeal.Hand

end
-- ==== Proof.KFrameBits.lean ====
/-
  The frame of the voxel-binning program: a grid of 500 points, each staging one block of 4800 points (4800×4 reals),
  computing per point the three voxel coordinates and the linear voxel id, and writing back one 4800×1 block of ids
  and one 4800×3 block of coordinates; then the host operations that sort, group and gather, which read those two
  arrays and the argument array and write none of them. What each output window's buffer holds after the body is the
  canon of the body's stores over the loaded block; the region is launched with that proof data, the host operations
  after it continue from the arrays the region leaves, and the argument array is an input window, so it ends as it began.
-/
import proofs.«161434_j1726576856006_2_alg».proof.Proof.Gen.Kernel.Launch
import proofs.«161434_j1726576856006_2_alg».proof.Proof.Gen.Kernel.Skeleton
import proofs.«161434_j1726576856006_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its one region -/

/-- The host operations after the region, stretch by stretch, in program order. -/
abbrev tailOps : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16]

/-- A core's buffer contents when the region is entered: the launch contents (no host operation comes before it). -/
abbrev V0 (c : Dev nD) : Valuation τ sig (Elt F) :=
  StableHlo.after (List.flatten ([] : List (List (HloOp τ sig (Elt F))))) (fun b => m (c, b))
/-- The same read at a TensorCore reference. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor
theorem hostOps1_12_fresh : (hostOps1_12 : List (HloOp τ sig (Elt F))).Forall fun op => op.fresh = ∅ := by
  simp only [List.Forall]; repeat' constructor
theorem hostOps1_13_fresh : (hostOps1_13 : List (HloOp τ sig (Elt F))).Forall fun op => op.fresh = ∅ := by
  simp only [List.Forall]; repeat' constructor
theorem hostOps1_14_fresh : (hostOps1_14 : List (HloOp τ sig (Elt F))).Forall fun op => op.fresh = ∅ := by
  simp only [List.Forall]; repeat' constructor
theorem hostOps1_15_fresh : (hostOps1_15 : List (HloOp τ sig (Elt F))).Forall fun op => op.fresh = ∅ := by
  simp only [List.Forall]; repeat' constructor
theorem hostOps1_16_fresh : (hostOps1_16 : List (HloOp τ sig (Elt F))).Forall fun op => op.fresh = ∅ := by
  simp only [List.Forall]; repeat' constructor

/-- The program is its region continued by the later host operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps (by simp only [List.Forall])
    (by simp only [List.Forall]) main_chain

/-- The later operations touch only unscoped TensorCore buffers: the pipeline's arrays and the buffers that bypass it. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)
  · exact Pipeline.sub_ucRefs op ((List.forall_iff_forall_mem.mp hostOps1_11_sub) op hop)
  · exact Pipeline.sub_ucRefs op ((List.forall_iff_forall_mem.mp hostOps1_12_sub) op hop)
  · exact Pipeline.sub_ucRefs op ((List.forall_iff_forall_mem.mp hostOps1_13_sub) op hop)
  · exact Pipeline.sub_ucRefs op ((List.forall_iff_forall_mem.mp hostOps1_14_sub) op hop)
  · exact Pipeline.sub_ucRefs op ((List.forall_iff_forall_mem.mp hostOps1_15_sub) op hop)
  · exact Pipeline.sub_ucRefs op ((List.forall_iff_forall_mem.mp hostOps1_16_sub) op hop)

/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
  · exact (List.forall_iff_forall_mem.mp hostOps1_9_fresh) op hop
  · exact (List.forall_iff_forall_mem.mp hostOps1_10_fresh) op hop
  · exact (List.forall_iff_forall_mem.mp hostOps1_11_fresh) op hop
  · exact (List.forall_iff_forall_mem.mp hostOps1_12_fresh) op hop
  · exact (List.forall_iff_forall_mem.mp hostOps1_13_fresh) op hop
  · exact (List.forall_iff_forall_mem.mp hostOps1_14_fresh) op hop
  · exact (List.forall_iff_forall_mem.mp hostOps1_15_fresh) op hop
  · exact (List.forall_iff_forall_mem.mp hostOps1_16_fresh) op hop

theorem hostOps1_keeps : (hostOps1 : List (HloOp τ sig (Elt F))).Forall fun op => ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_1_keeps : (hostOps1_1 : List (HloOp τ sig (Elt F))).Forall fun op => ∀ w, Proc.devRef .tc (Pipeline.arrRef spec0 w) ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_2_keeps : (hostOps1_2 : List (HloOp τ sig (Elt F))).Forall fun op => ∀ w, Proc.devRef .tc (Pipeline.arrRef spec0 w) ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_3_keeps : (hostOps1_3 : List (HloOp τ sig (Elt F))).Forall fun op => ∀ w, Proc.devRef .tc (Pipeline.arrRef spec0 w) ∉ op.writes := by
  simp only [hostOps1_3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_4_keeps : (hostOps1_4 : List (HloOp τ sig (Elt F))).Forall fun op => ∀ w, Proc.devRef .tc (Pipeline.arrRef spec0 w) ∉ op.writes := by
  simp only [hostOps1_4, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_5_keeps : (hostOps1_5 : List (HloOp τ sig (Elt F))).Forall fun op => ∀ w, Proc.devRef .tc (Pipeline.arrRef spec0 w) ∉ op.writes := by
  simp only [hostOps1_5, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_6_keeps : (hostOps1_6 : List (HloOp τ sig (Elt F))).Forall fun op => ∀ w, Proc.devRef .tc (Pipeline.arrRef spec0 w) ∉ op.writes := by
  simp only [hostOps1_6, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_7_keeps : (hostOps1_7 : List (HloOp τ sig (Elt F))).Forall fun op => ∀ w, Proc.devRef .tc (Pipeline.arrRef spec0 w) ∉ op.writes := by
  simp only [hostOps1_7, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_8_keeps : (hostOps1_8 : List (HloOp τ sig (Elt F))).Forall fun op => ∀ w, Proc.devRef .tc (Pipeline.arrRef spec0 w) ∉ op.writes := by
  simp only [hostOps1_8, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_9_keeps : (hostOps1_9 : List (HloOp τ sig (Elt F))).Forall fun op => ∀ w, Proc.devRef .tc (Pipeline.arrRef spec0 w) ∉ op.writes := by
  simp only [hostOps1_9, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_10_keeps : (hostOps1_10 : List (HloOp τ sig (Elt F))).Forall fun op => ∀ w, Proc.devRef .tc (Pipeline.arrRef spec0 w) ∉ op.writes := by
  simp only [hostOps1_10, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_11_keeps : (hostOps1_11 : List (HloOp τ sig (Elt F))).Forall fun op => ∀ w, Proc.devRef .tc (Pipeline.arrRef spec0 w) ∉ op.writes := by
  simp only [hostOps1_11, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_12_keeps : (hostOps1_12 : List (HloOp τ sig (Elt F))).Forall fun op => ∀ w, Proc.devRef .tc (Pipeline.arrRef spec0 w) ∉ op.writes := by
  simp only [hostOps1_12, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_13_keeps : (hostOps1_13 : List (HloOp τ sig (Elt F))).Forall fun op => ∀ w, Proc.devRef .tc (Pipeline.arrRef spec0 w) ∉ op.writes := by
  simp only [hostOps1_13, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_14_keeps : (hostOps1_14 : List (HloOp τ sig (Elt F))).Forall fun op => ∀ w, Proc.devRef .tc (Pipeline.arrRef spec0 w) ∉ op.writes := by
  simp only [hostOps1_14, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_15_keeps : (hostOps1_15 : List (HloOp τ sig (Elt F))).Forall fun op => ∀ w, Proc.devRef .tc (Pipeline.arrRef spec0 w) ∉ op.writes := by
  simp only [hostOps1_15, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_16_keeps : (hostOps1_16 : List (HloOp τ sig (Elt F))).Forall fun op => ∀ w, Proc.devRef .tc (Pipeline.arrRef spec0 w) ∉ op.writes := by
  simp only [hostOps1_16, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))

/-- And write none of the pipeline's three arrays: each writes its own result buffer only. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl | rfl | rfl | rfl | rfl | rfl | rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop
  · exact (List.forall_iff_forall_mem.mp hostOps1_6_keeps) op hop
  · exact (List.forall_iff_forall_mem.mp hostOps1_7_keeps) op hop
  · exact (List.forall_iff_forall_mem.mp hostOps1_8_keeps) op hop
  · exact (List.forall_iff_forall_mem.mp hostOps1_9_keeps) op hop
  · exact (List.forall_iff_forall_mem.mp hostOps1_10_keeps) op hop
  · exact (List.forall_iff_forall_mem.mp hostOps1_11_keeps) op hop
  · exact (List.forall_iff_forall_mem.mp hostOps1_12_keeps) op hop
  · exact (List.forall_iff_forall_mem.mp hostOps1_13_keeps) op hop
  · exact (List.forall_iff_forall_mem.mp hostOps1_14_keeps) op hop
  · exact (List.forall_iff_forall_mem.mp hostOps1_15_keeps) op hop
  · exact (List.forall_iff_forall_mem.mp hostOps1_16_keeps) op hop

/-- The region finds the argument array as launched. -/
theorem V_main_arg0 (c : Dev nD) : V m c main_arg0 = m ((c : Thread nD τ).loc main_arg0) := rfl

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The frame from a frame run: the argument array is the input window's array, which the pipeline only reads. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats 0 c).arrAt_in 0 rfl _).trans ((hA c 0).trans (V_main_arg0 m c)))) h

/-! ## The body's accesses -/

/-- the whole 4800×4 block of points -/
abbrev r0_0 : Rect S4800x4 := Rect.unit (s := S4800x4) ![0, 0] S4800x4.size inb_S4800x4_S4800x4_0_0
/-- the whole 4800×1 block of ids -/
abbrev r1_0 : Rect S4800x1 := Rect.unit (s := S4800x1) ![0, 0] S4800x1.size inb_S4800x1_S4800x1_0_0
/-- column k of the 4800×3 block of coordinates -/
abbrev r2_0 : Rect S4800x3 := Rect.unit (s := S4800x3) ![0, 0] S4800x1.size inb_S4800x3_S4800x1_0_0
abbrev r2_1 : Rect S4800x3 := Rect.unit (s := S4800x3) ![0, 1] S4800x1.size inb_S4800x3_S4800x1_0_1
abbrev r2_2 : Rect S4800x3 := Rect.unit (s := S4800x3) ![0, 2] S4800x1.size inb_S4800x3_S4800x1_0_2

/-! ## What the body leaves in each output window's buffer -/

/-- The id window's buffer after the body: its one store, the id column computed from the loaded block. -/
def out0_1 (x0 : Vec F S4800x4 .f32) : Vec F S4800x1 .i32 :=
  View.canon [⟨r1_0, k0_pay1 (k0_pay6 (View.ld x0 r0_0)) (k0_pay7 (View.ld x0 r0_0)) (k0_pay8 (View.ld x0 r0_0)) (k0_pay9 (View.ld x0 r0_0)) k0_pay10⟩]

/-- The coordinate window's buffer after the body: its three column stores, last first. -/
def out0_2 (x0 : Vec F S4800x4 .f32) : Vec F S4800x3 .i32 :=
  View.canon [⟨r2_2, k0_pay4 (k0_pay8 (View.ld x0 r0_0))⟩, ⟨r2_1, k0_pay3 (k0_pay7 (View.ld x0 r0_0))⟩, ⟨r2_0, k0_pay2 (k0_pay6 (View.ld x0 r0_0))⟩]

theorem cover0_1 (p0 : Vec F S4800x1 .i32) (y : S4800x1.Idx) :
    ∃ pc ∈ ([⟨r1_0, p0⟩] : List (View.Piece (Elt F) S4800x1 .i32)), y ∈ pc.1.set :=
  View.cover_of_tiled [⟨r1_0, p0⟩] S4800x1.size (by rfl) y

/-- The three columns tile the 4800×3 buffer. -/
theorem cover0_2 (p0 p1 p2 : Vec F S4800x1 .i32) (y : S4800x3.Idx) :
    ∃ pc ∈ ([⟨r2_2, p0⟩, ⟨r2_1, p1⟩, ⟨r2_0, p2⟩] : List (View.Piece (Elt F) S4800x3 .i32)), y ∈ pc.1.set :=
  View.cover_of_tiled [⟨r2_2, p0⟩, ⟨r2_1, p1⟩, ⟨r2_0, p2⟩] S4800x1.size (by rfl) y

/-! ## The body's triple -/

set_option maxHeartbeats 4000000 in
/-- The body on whole staging memrefs, the input's at read contents `x0` and the outputs' at anything, runs to the
    continuation holding the input's as it was and each output's at the canon of its stores. -/
theorem sound_kernel (c : Dev nD) (E : Set ℕ) (i : grid0.Coords) (arg1 : Memref sig .tc .vmem S4800x4 .f32) (harg1 : arg1.IsWhole) (arg2 : Memref sig .tc .vmem S4800x1 .i32) (harg2 : arg2.IsWhole) (arg3 : Memref sig .tc .vmem S4800x3 .i32) (harg3 : arg3.IsWhole)
    (x0 : Vec F S4800x4 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0) ∗ owns (c : Thread nD τ) arg3 fullShare (out0_2 x0)) -∗ K ⟨⟩))
      ⊢ wp frame (wpE (defs₀ (F := F)) Variants.none c none) E (cc0__voxel_prep_kernel i arg1 harg1 arg2 harg2 arg3 harg3) K := by
  simp only [cc0__voxel_prep_kernel_eq_skeleton]; unfold cc0__voxel_prep_kernel_skel
  simp only [k0_part1_eq_skeleton]; unfold k0_part1_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    try dsimp only
    exact View.read_writes_eq_canon _ _ _ (cover0_1 _)
  iexists _; isplitr
  swap; · iexact H2
  ipureintro
  try dsimp only
  exact View.read_writes_eq_canon _ _ _ (cover0_2 _ _ _)

/-! ## The pipeline's proof data -/

/-- The arrays as the region finds them; after the body at point `t` the input's buffer at its block and each output's at
    the canon of its stores over that block; nothing owed, full shares, the class's invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => out0_1 (iblk m c 0 t)
    | ⟨2, _⟩ => out0_2 (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = out0_1 (iblk m c 0 t) := by dsimp only [dats]
theorem after0_2 (c : Dev nD) (t : Fin cfg0.N) : (dats m 0 c).after 2 t = out0_2 (iblk m c 0 t) := by dsimp only [dats]

theorem before0_0 (c : Dev nD) (t : Fin cfg0.N) (d) : (dats m 0 c).before 0 t d = iblk m c 0 t :=
  before0_0_of m (dats m 0 c) (A_eq m c 0) (after0_0 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution terminates; every array of the pipeline ends at what the proof data computes and every
    other unscoped buffer as the later host operations leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame: the program runs and its argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.Kernel.Hand

end
-- ==== Proof.Spec.lean ====
import Idealize.ShloMosaic.PureOps.Ideal
import Idealize.ShloMosaic.Lib.ValueIdx

/-!
# The voxel grid of a point cloud, point by point

A point of the cloud with position (x, y, z) lies in the cell whose coordinate on axis k is
⌊(p_k − lo_k) / cell_k⌋, converted to a 32-bit integer. The grid has 432 × 496 × 1 cells; a point
inside it gets the row-major number (c_z · 496 + c_y) · 432 + c_x of its cell (32-bit wrapping
arithmetic), a point outside it the number 214272 = 432 · 496 · 1, one past the last cell.

Everything is stated for an arbitrary float instance: the float operations are the instance's own
subtraction, division, floor and conversion, so the specification is a composition of the same four
operations whichever way a program spells them.
-/

noncomputable section

namespace Cert.Voxelize

open Idealize.ShloMosaic Idealize.ShloMosaic.ValueIdx

variable {F : FTy → Type} [FloatOps F]

/-! ## One point -/

/-- The grid's lower corner on the three axes, as float words: 0, −39.68, −3. -/
def lo : Fin 3 → BitVec 32 := ![0x00000000#32, 0xC21EB852#32, 0xC0400000#32]

/-- The cell's extent on the three axes, as float words: 0.16, 0.16, 4. -/
def cell : Fin 3 → BitVec 32 := ![0x3E23D70A#32, 0x3E23D70A#32, 0x40800000#32]

/-- The cell coordinate on axis `k` of a point whose position on that axis is `x`:
    ⌊(x − lo_k) / cell_k⌋ as a 32-bit integer. -/
def coord (k : Fin 3) (x : F .f32) : BitVec 32 :=
  FloatOps.fptosi 32
    (FloatOps.floor
      (FloatOps.divf (FloatOps.subf x (FloatOps.ofBits .f32 (lo k))) (FloatOps.ofBits .f32 (cell k))))

/-- "The cell (cx, cy, cz) lies in the grid": 0 ≤ cx < 432, 0 ≤ cy < 496, 0 ≤ cz < 1 (signed), the six
    conditions joined from the left. -/
def inGrid (cx cy cz : BitVec 32) : BitVec 1 :=
  IntOp.andi
    (IntOp.andi
      (IntOp.andi
        (IntOp.andi
          (IntOp.andi (IntOp.cmpi .sge cx 0#32) (IntOp.cmpi .slt cx 432#32))
          (IntOp.cmpi .sge cy 0#32))
        (IntOp.cmpi .slt cy 496#32))
      (IntOp.cmpi .sge cz 0#32))
    (IntOp.cmpi .slt cz 1#32)

/-- The row-major number of the cell (cx, cy, cz), z outermost: (cz · 496 + cy) · 432 + cx. -/
def cellNumber (cx cy cz : BitVec 32) : BitVec 32 :=
  IntOp.addi (IntOp.muli (IntOp.addi (IntOp.muli cz 496#32) cy) 432#32) cx

/-- The number of a point's cell: the cell's row-major number inside the grid, 214272 outside. -/
def voxelId (cx cy cz : BitVec 32) : BitVec 32 :=
  Scalar.select (inGrid cx cy cz) (cellNumber cx cy cz) 214272#32

/-! ## The whole cloud -/

/-- Column `k` of the three position columns, as a column of the four-column cloud. -/
def posCol (k : Fin 3) : Fin 4 := ⟨k.val, by omega⟩

/-- The cell coordinate on axis `k` of point `n` of the cloud. -/
def coordAt (pts : (⟨2, ![2400000, 4]⟩ : Shape).Idx → F .f32) (n : Fin 2400000) (k : Fin 3) : BitVec 32 :=
  coord k (pts (ix2 n (posCol k)))

/-- The cell number of point `n` of the cloud. -/
def idAt (pts : (⟨2, ![2400000, 4]⟩ : Shape).Idx → F .f32) (n : Fin 2400000) : BitVec 32 :=
  voxelId (coordAt pts n 0) (coordAt pts n 1) (coordAt pts n 2)

/-- All cell coordinates: entry (n, k) is the coordinate on axis k of point n. -/
def coordArr (pts : (⟨2, ![2400000, 4]⟩ : Shape).Idx → F .f32) : (⟨2, ![2400000, 3]⟩ : Shape).Idx → BitVec 32 :=
  fun j => coordAt pts (j 0) (j 1)

/-- All cell numbers: entry n is the number of point n's cell. -/
def idArr (pts : (⟨2, ![2400000, 4]⟩ : Shape).Idx → F .f32) : (⟨1, ![2400000]⟩ : Shape).Idx → BitVec 32 :=
  fun j => idAt pts (j 0)

/-- The cell numbers as one column. -/
def idCol (pts : (⟨2, ![2400000, 4]⟩ : Shape).Idx → F .f32) : (⟨2, ![2400000, 1]⟩ : Shape).Idx → BitVec 32 :=
  fun j => idAt pts (j 0)

theorem coordArr_apply (pts : (⟨2, ![2400000, 4]⟩ : Shape).Idx → F .f32) (n : Fin 2400000) (k : Fin 3) :
    coordArr pts (ix2 n k) = coordAt pts n k := rfl

theorem idArr_apply (pts : (⟨2, ![2400000, 4]⟩ : Shape).Idx → F .f32) (n : Fin 2400000) :
    idArr pts (ix1 n) = idAt pts n := rfl

theorem idCol_apply (pts : (⟨2, ![2400000, 4]⟩ : Shape).Idx → F .f32) (n : Fin 2400000) (u : Fin 1) :
    idCol pts (ix2 n u) = idAt pts n := rfl

/-- The three position columns are columns 0, 1, 2 of the cloud. -/
theorem posCol_zero : posCol 0 = 0 := rfl
theorem posCol_one : posCol 1 = 1 := rfl
theorem posCol_two : posCol 2 = 2 := rfl

/-- The column of cell numbers is the vector of cell numbers read along its rows. -/
theorem idCol_eq_idArr (pts : (⟨2, ![2400000, 4]⟩ : Shape).Idx → F .f32) (n : Fin 2400000) (u : Fin 1) :
    idCol pts (ix2 n u) = idArr pts (ix1 n) := rfl

end Cert.Voxelize

end
-- ==== Proof.KPay.lean ====
import proofs.«161434_j1726576856006_2_alg».proof.Proof.Spec
import proofs.«161434_j1726576856006_2_alg».proof.Proof.Gen.KernelIdeal.Skeleton
import Idealize.ShloMosaic.Lib.Pipeline.Value

/-!
# What the kernel's body computes on one block of points, row by row

The body reads a block of 4800 points (four columns each), cuts out the three position columns one at a
time, and computes from them, elementwise, the three cell coordinates, the "in the grid" bit and the cell
number; it stores the coordinates and the number as columns. Read at row r, each stored value is the
specification's scalar function of row r's positions: the only operations that are not elementwise move
an entry without changing it (a slice of columns, a column read as a vector, a vector written as a column).
-/

noncomputable section

namespace Cert.KernelIdeal.Hand

open Idealize.ShloMosaic Idealize.ShloMosaic.ValueIdx Cert.Voxelize Cert.KernelIdeal Cert.KernelIdeal.Gen

variable {F : FTy → Type} [FloatOps F]

/-! ## The three layout operations, read at a row -/

section Layout
variable {α : Type}

/-- The first three of the four columns: entry (r, k) is entry (r, k) of the block. -/
theorem firstThree_apply (x : S4800x4.Idx → α) (h : S4800x4.Slices ![0, 0] S4800x3) (r : Fin 4800) (k : Fin 3) :
    extractStridedSlice S4800x3 ![0, 0] x h (ix2 r k) = x (ix2 r (posCol k)) :=
  extractStridedSlice_apply _ x h (ix2 r k) (ix2 r (posCol k)) fun a => match a with
    | ⟨0, _⟩ => by show r.val = 0 + r.val; omega
    | ⟨1, _⟩ => by show k.val = 0 + k.val; omega

/-- Column c of a three-column block, read as a vector: entry r is entry (r, c). -/
theorem column_apply (x : S4800x3.Idx → α) (off : Fin 2 → Nat) (h : S4800x3.Slices off S4800x1)
    (h' : S4800x1.ShapeCasts S4800) (r : Fin 4800) (c : Fin 3) (h0 : off 0 = 0) (h1 : off 1 = c.val) :
    shapeCast S4800 (extractStridedSlice S4800x1 off x h) h' (ix1 r) = x (ix2 r c) := by
  refine (shapeCast_apply _ h' (ix1 r) (ix2 r (0 : Fin 1)) ?_).trans ?_
  · rw [Shape.rowMajor_val_two, Shape.rowMajor_val_one]
    show r.val * 1 + 0 = r.val
    omega
  · exact extractStridedSlice_apply off x h (ix2 r (0 : Fin 1)) (ix2 r c) fun a => match a with
      | ⟨0, _⟩ => by show r.val = off 0 + r.val; omega
      | ⟨1, _⟩ => by show c.val = off 1 + 0; omega

/-- A vector written as a one-column block: entry (r, 0) is entry r. -/
theorem asColumn_apply (v : S4800.Idx → α) (h : S4800.ShapeCasts S4800x1) (r : Fin 4800) (u : Fin 1) :
    shapeCast S4800x1 v h (ix2 r u) = v (ix1 r) := by
  refine shapeCast_apply v h (ix2 r u) (ix1 r) ?_
  rw [Shape.rowMajor_val_two, Shape.rowMajor_val_one]
  show r.val = r.val * 1 + u.val
  have := u.isLt
  omega

end Layout

/-! ## The cell coordinates of row r -/

/-- The position columns of the block: entry (r, k) of the three-column slice is the block's entry (r, k). -/
theorem pay5_apply (x0 : Vec F S4800x4 .f32) (r : Fin 4800) (k : Fin 3) :
    k0_pay5 x0 (ix2 r k) = x0 (ix2 r (posCol k)) :=
  firstThree_apply x0 slices_S4800x4_o0_0_S4800x3 r k

/-- The first coordinate of row r is the specification's, of the row's x. -/
theorem pay6_apply (x0 : Vec F S4800x4 .f32) (r : Fin 4800) :
    k0_pay6 x0 (ix1 r) = coord 0 (x0 (ix2 r 0)) := by
  show coord 0 (shapeCast S4800 (extractStridedSlice S4800x1 ![0, 0] (k0_pay5 x0) slices_S4800x3_o0_0_S4800x1)
    shapeCasts_S4800x1_S4800 (ix1 r)) = _
  exact congrArg (coord 0) ((column_apply (k0_pay5 x0) _ _ _ r 0 rfl rfl).trans (pay5_apply x0 r 0))

/-- The second coordinate of row r is the specification's, of the row's y. -/
theorem pay7_apply (x0 : Vec F S4800x4 .f32) (r : Fin 4800) :
    k0_pay7 x0 (ix1 r) = coord 1 (x0 (ix2 r 1)) := by
  show coord 1 (shapeCast S4800 (extractStridedSlice S4800x1 ![0, 1] (k0_pay5 x0) slices_S4800x3_o0_1_S4800x1)
    shapeCasts_S4800x1_S4800 (ix1 r)) = _
  exact congrArg (coord 1) ((column_apply (k0_pay5 x0) _ _ _ r 1 rfl rfl).trans (pay5_apply x0 r 1))

/-- The third coordinate of row r is the specification's, of the row's z. -/
theorem pay8_apply (x0 : Vec F S4800x4 .f32) (r : Fin 4800) :
    k0_pay8 x0 (ix1 r) = coord 2 (x0 (ix2 r 2)) := by
  show coord 2 (shapeCast S4800 (extractStridedSlice S4800x1 ![0, 2] (k0_pay5 x0) slices_S4800x3_o0_2_S4800x1)
    shapeCasts_S4800x1_S4800 (ix1 r)) = _
  exact congrArg (coord 2) ((column_apply (k0_pay5 x0) _ _ _ r 2 rfl rfl).trans (pay5_apply x0 r 2))

/-! ## The stored columns of coordinates -/

/-- The stored x-column at row r. -/
theorem pay2_apply (x0 : Vec F S4800x4 .f32) (r : Fin 4800) (u : Fin 1) :
    k0_pay2 (k0_pay6 x0) (ix2 r u) = coord 0 (x0 (ix2 r 0)) :=
  (asColumn_apply (k0_pay6 x0) _ r u).trans (pay6_apply x0 r)

/-- The stored y-column at row r. -/
theorem pay3_apply (x0 : Vec F S4800x4 .f32) (r : Fin 4800) (u : Fin 1) :
    k0_pay3 (k0_pay7 x0) (ix2 r u) = coord 1 (x0 (ix2 r 1)) :=
  (asColumn_apply (k0_pay7 x0) _ r u).trans (pay7_apply x0 r)

/-- The stored z-column at row r. -/
theorem pay4_apply (x0 : Vec F S4800x4 .f32) (r : Fin 4800) (u : Fin 1) :
    k0_pay4 (k0_pay8 x0) (ix2 r u) = coord 2 (x0 (ix2 r 2)) :=
  (asColumn_apply (k0_pay8 x0) _ r u).trans (pay8_apply x0 r)

/-! ## The cell number of row r -/

/-- The "in the grid" bit of row r is the specification's, of the row's three coordinates. -/
theorem pay9_apply (x0 : Vec F S4800x4 .f32) (r : Fin 4800) :
    k0_pay9 x0 (ix1 r) = inGrid (k0_pay6 x0 (ix1 r)) (k0_pay7 x0 (ix1 r)) (k0_pay8 x0 (ix1 r)) := rfl

/-- The stored column of cell numbers at row r is the specification's cell number of the row's positions. -/
theorem pay1_apply (x0 : Vec F S4800x4 .f32) (r : Fin 4800) (u : Fin 1) :
    k0_pay1 (k0_pay6 x0) (k0_pay7 x0) (k0_pay8 x0) (k0_pay9 x0) k0_pay10 (ix2 r u)
      = voxelId (coord 0 (x0 (ix2 r 0))) (coord 1 (x0 (ix2 r 1))) (coord 2 (x0 (ix2 r 2))) := by
  unfold k0_pay1
  refine (asColumn_apply _ _ r u).trans ?_
  show voxelId (k0_pay6 x0 (ix1 r)) (k0_pay7 x0 (ix1 r)) (k0_pay8 x0 (ix1 r)) = _
  rw [pay6_apply, pay7_apply, pay8_apply]

end Cert.KernelIdeal.Hand

end
-- ==== Proof.KValue.lean ====
import proofs.«161434_j1726576856006_2_alg».proof.Proof.Spec
import proofs.«161434_j1726576856006_2_alg».proof.Proof.KPay
import proofs.«161434_j1726576856006_2_alg».proof.Proof.KFrame
import Idealize.ShloMosaic.Lib.Pipeline.Value

/-!
# The two arrays the grid leaves: every point's cell number and cell coordinates

Grid point t stages rows 4800 t … 4800 t + 4799 of the cloud, computes their cell numbers and coordinates, and
writes them back to the same rows of the two result arrays. Row n of the cloud is row n mod 4800 of the block of
point n / 4800, so the 500 blocks cover each array, and on each block what is written back is the specification
of the cloud restricted to the block's rows. Hence each array ends as the specification of the whole cloud.
-/

noncomputable section

namespace Cert.KernelIdeal.Hand

open Cert.KernelIdeal Cert.KernelIdeal.Gen Cert.Voxelize
open Idealize.ShloMosaic Idealize.ShloMosaic.TcCoe Idealize.ShloMosaic.ValueIdx
open Idealize.SL.Sem
open Idealize.ShloMosaic.Pipeline (Dat)

variable {F : FTy → Type} [FloatOps F]
variable (m : (ℓ : Loc nD τ sig) → Buf (Elt F) ℓ) (ρ : Dev nD → PrngReg)

theorem offsets_zero : (![0, 0] : Fin 2 → Nat) = fun _ => 0 := funext fun a => by fin_cases a <;> rfl

/-! ## One block: what the body leaves, row by row -/

/-- The block of cell numbers the body leaves: row r holds the cell number of the staged block's row r. -/
theorem out0_1_apply (x0 : Vec F S4800x4 .f32) (r : Fin 4800) (u : Fin 1) :
    out0_1 x0 (ix2 r u) = voxelId (coord 0 (x0 (ix2 r 0))) (coord 1 (x0 (ix2 r 1))) (coord 2 (x0 (ix2 r 2))) := by
  unfold out0_1
  rw [View.canon_unit_zero offsets_zero]
  simp only [View.ld_unit_zero (S := S4800x4) offsets_zero]
  exact pay1_apply x0 r u

/-- The block of cell coordinates the body leaves: its three column stores tile the block, and entry (r, k) holds
    the coordinate on axis k of the staged block's row r. -/
theorem out0_2_apply (x0 : Vec F S4800x4 .f32) (r : Fin 4800) (k : Fin 3) :
    out0_2 x0 (ix2 r k) = coord k (x0 (ix2 r (posCol k))) := by
  unfold out0_2
  simp only [View.ld_unit_zero (S := S4800x4) offsets_zero]
  refine (View.canon_apply_of_pieces
    (fun y : S4800x3.Idx => coord (y 1) (x0 (ix2 (y 0) (posCol (y 1))))) _ ?_ (ix2 r k) (cover0_2 _ _ _ _)).trans rfl
  intro pc hpc x
  rcases List.mem_cons.mp hpc with rfl | hpc
  · obtain ⟨q, u, rfl⟩ : ∃ (q : Fin 4800) (u : Fin 1), x = ix2 q u := ⟨x 0, x 1, eq_ix2 x⟩
    have e : r2_2.emb (ix2 q u) = ix2 q (2 : Fin 3) := by
      funext a
      match a with
      | ⟨0, _⟩ => exact Fin.ext (by show 0 + 1 * q.val = q.val; omega)
      | ⟨1, _⟩ => exact Fin.ext (by have := u.isLt; show 2 + 1 * u.val = 2; omega)
    exact (pay4_apply x0 q u).trans
      (congrArg (fun y : S4800x3.Idx => coord (y 1) (x0 (ix2 (y 0) (posCol (y 1))))) e).symm
  rcases List.mem_cons.mp hpc with rfl | hpc
  · obtain ⟨q, u, rfl⟩ : ∃ (q : Fin 4800) (u : Fin 1), x = ix2 q u := ⟨x 0, x 1, eq_ix2 x⟩
    have e : r2_1.emb (ix2 q u) = ix2 q (1 : Fin 3) := by
      funext a
      match a with
      | ⟨0, _⟩ => exact Fin.ext (by show 0 + 1 * q.val = q.val; omega)
      | ⟨1, _⟩ => exact Fin.ext (by have := u.isLt; show 1 + 1 * u.val = 1; omega)
    exact (pay3_apply x0 q u).trans
      (congrArg (fun y : S4800x3.Idx => coord (y 1) (x0 (ix2 (y 0) (posCol (y 1))))) e).symm
  rcases List.mem_cons.mp hpc with rfl | hpc
  · obtain ⟨q, u, rfl⟩ : ∃ (q : Fin 4800) (u : Fin 1), x = ix2 q u := ⟨x 0, x 1, eq_ix2 x⟩
    have e : r2_0.emb (ix2 q u) = ix2 q (0 : Fin 3) := by
      funext a
      match a with
      | ⟨0, _⟩ => exact Fin.ext (by show 0 + 1 * q.val = q.val; omega)
      | ⟨1, _⟩ => exact Fin.ext (by have := u.isLt; show 0 + 1 * u.val = 0; omega)
    exact (pay2_apply x0 q u).trans
      (congrArg (fun y : S4800x3.Idx => coord (y 1) (x0 (ix2 (y 0) (posCol (y 1))))) e).symm
  nomatch hpc

/-! ## One block against the cloud: block b holds rows 4800 b … 4800 b + 4799 -/

/-- If the staged block is rows 4800 b … of the cloud, the cell numbers it leaves are the cloud's at those rows. -/
theorem block_ids (x0 : Vec F S4800x4 .f32) (pts : S2400000x4.Idx → F .f32) (b : Nat)
    (hx : ∀ (r : Fin 4800) (k : Fin 4) (n : Fin 2400000), n.val = b * 4800 + r.val → x0 (ix2 r k) = pts (ix2 n k))
    (y : S4800x1.Idx) (i : S2400000x1.Idx) (hi : (i 0).val = b * 4800 + (y 0).val) :
    out0_1 x0 y = idCol pts i := by
  obtain ⟨r, u, rfl⟩ : ∃ (r : Fin 4800) (u : Fin 1), y = ix2 r u := ⟨y 0, y 1, eq_ix2 y⟩
  obtain ⟨n, v, rfl⟩ : ∃ (n : Fin 2400000) (v : Fin 1), i = ix2 n v := ⟨i 0, i 1, eq_ix2 i⟩
  have hn : n.val = b * 4800 + r.val := hi
  rw [out0_1_apply, hx r 0 n hn, hx r 1 n hn, hx r 2 n hn]
  rfl

/-- If the staged block is rows 4800 b … of the cloud, the cell coordinates it leaves are the cloud's at those rows. -/
theorem block_coords (x0 : Vec F S4800x4 .f32) (pts : S2400000x4.Idx → F .f32) (b : Nat)
    (hx : ∀ (r : Fin 4800) (k : Fin 4) (n : Fin 2400000), n.val = b * 4800 + r.val → x0 (ix2 r k) = pts (ix2 n k))
    (y : S4800x3.Idx) (i : S2400000x3.Idx) (hi0 : (i 0).val = b * 4800 + (y 0).val) (hi1 : (i 1).val = (y 1).val) :
    out0_2 x0 y = coordArr pts i := by
  obtain ⟨r, k, rfl⟩ : ∃ (r : Fin 4800) (k : Fin 3), y = ix2 r k := ⟨y 0, y 1, eq_ix2 y⟩
  obtain ⟨n, k', rfl⟩ : ∃ (n : Fin 2400000) (k' : Fin 3), i = ix2 n k' := ⟨i 0, i 1, eq_ix2 i⟩
  have hn : n.val = b * 4800 + r.val := hi0
  obtain rfl : k' = k := Fin.ext hi1
  rw [out0_2_apply, hx r (posCol k') n hn]
  rfl

/-! ## The grid: point t handles block t of every array -/

/-- The three index maps, decided over the 500 points: each sends point t to block (t, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The staged block at point t is rows 4800 t … 4800 t + 4799 of the cloud as the region finds it. -/
theorem iblk0_apply (c : Dev nD) (t : Fin cfg0.N) (r : Fin 4800) (k : Fin 4) (n : Fin 2400000)
    (hn : n.val = t.val * 4800 + r.val) :
    (iblk m c 0 t : Vec F S4800x4 .f32) (ix2 r k) = (V m c main_arg0 : S2400000x4.Idx → F .f32) (ix2 n k) := by
  obtain ⟨e0, e1, -, -, -, -⟩ := idx_facts t
  unfold iblk
  rw [View.read_apply]
  show V m c main_arg0 _ = V m c main_arg0 _
  congr 1
  funext a
  apply Fin.ext
  match a with
  | ⟨0, _⟩ => show win0_0.index t (0 : Fin 2) * 4800 + 1 * r.val = n.val; rw [e0, hn]; omega
  | ⟨1, _⟩ => show win0_0.index t (1 : Fin 2) * 4 + 1 * k.val = k.val; rw [e1]; omega

/-! ## The array of cell numbers -/

/-- What point t writes back to the array of cell numbers is block t of the cloud's cell numbers. -/
theorem flushed1_eq (c : Dev nD) (t : Fin cfg0.N) :
    (dats m 0 c).flushed 1 t = ((cfg0.win 1).blk t).view.read (Elt F) (idCol (V m c main_arg0)) := by
  obtain ⟨-, -, e0, e1, -, -⟩ := idx_facts t
  show (cfg0.win 1).cut (grid0.coords t) ((dats m 0 c).after 1 t) = _
  rw [after0_1]
  funext j
  refine block_ids (iblk m c 0 t) (V m c main_arg0) t.val (fun r k n hn => iblk0_apply m c t r k n hn) j _ ?_
  show win0_1.index t (0 : Fin 2) * 4800 + 1 * (j 0).val = t.val * 4800 + (j 0).val
  rw [e0]; omega

/-- A row of the array of cell numbers lies in point t's block iff it is one of rows 4800 t … 4800 t + 4799. -/
theorem mem_blk1 (t : Fin cfg0.N) (i : S2400000x1.Idx) :
    i ∈ ((cfg0.win 1).blk t).view.set ↔ ∀ a : Fin 2, win0_1.index t a * S4800x1.size a ≤ (i a).val ∧ (i a).val < win0_1.index t a * S4800x1.size a + S4800x1.size a := by
  show i ∈ ((View.whole main_v0_0).slice (win0_1.rect t)).set ↔ _
  rw [View.set_slice_whole, Rect.mem_set_unit]
  exact Iff.rfl

/-- Row n is written back by point n / 4800. -/
theorem cover1 (i : S2400000x1.Idx) :
    ∃ t : Fin cfg0.N, (cfg0.win 1).flush t = true ∧ i ∈ ((cfg0.win 1).blk t).view.set := by
  have h0 : (i 0).val < 2400000 := (i 0).isLt
  have h1 : (i 1).val < 1 := (i 1).isLt
  have hN : cfg0.N = 500 := N_0
  let t : Fin cfg0.N := ⟨(i 0).val / 4800, by rw [hN]; omega⟩
  obtain ⟨-, -, e0, e1, -, -⟩ := idx_facts t
  refine ⟨t, flush0_1 t, ?_⟩
  rw [mem_blk1]
  intro a
  match a with
  | ⟨0, _⟩ =>
    show win0_1.index t (0 : Fin 2) * 4800 ≤ (i 0).val ∧ (i 0).val < win0_1.index t (0 : Fin 2) * 4800 + 4800
    rw [e0]; show (i 0).val / 4800 * 4800 ≤ (i 0).val ∧ (i 0).val < (i 0).val / 4800 * 4800 + 4800; omega
  | ⟨1, _⟩ =>
    show win0_1.index t (1 : Fin 2) * 1 ≤ (i 1).val ∧ (i 1).val < win0_1.index t (1 : Fin 2) * 1 + 1
    rw [e1]; omega

/-- THE ARRAY OF CELL NUMBERS after the grid: the cloud's cell numbers, as a column. -/
theorem final1 (c : Dev nD) : (dats m 0 c).arrAt 1 cfg0.N = idCol (V m c main_arg0) :=
  (dats m 0 c).arrAt_eq_of_cover 1 (idCol (V m c main_arg0)) (fun t _ => flushed1_eq m c t) cover1

/-! ## The array of cell coordinates -/

/-- What point t writes back to the array of cell coordinates is block t of the cloud's cell coordinates. -/
theorem flushed2_eq (c : Dev nD) (t : Fin cfg0.N) :
    (dats m 0 c).flushed 2 t = ((cfg0.win 2).blk t).view.read (Elt F) (coordArr (V m c main_arg0)) := by
  obtain ⟨-, -, -, -, e0, e1⟩ := idx_facts t
  show (cfg0.win 2).cut (grid0.coords t) ((dats m 0 c).after 2 t) = _
  rw [after0_2]
  funext j
  refine block_coords (iblk m c 0 t) (V m c main_arg0) t.val (fun r k n hn => iblk0_apply m c t r k n hn) j _ ?_ ?_
  · show win0_2.index t (0 : Fin 2) * 4800 + 1 * (j 0).val = t.val * 4800 + (j 0).val
    rw [e0]; omega
  · show win0_2.index t (1 : Fin 2) * 3 + 1 * (j 1).val = (j 1).val
    rw [e1]; omega

/-- An entry of the array of cell coordinates lies in point t's block iff its row is one of rows 4800 t … 4800 t + 4799. -/
theorem mem_blk2 (t : Fin cfg0.N) (i : S2400000x3.Idx) :
    i ∈ ((cfg0.win 2).blk t).view.set ↔ ∀ a : Fin 2, win0_2.index t a * S4800x3.size a ≤ (i a).val ∧ (i a).val < win0_2.index t a * S4800x3.size a + S4800x3.size a := by
  show i ∈ ((View.whole main_v0_1).slice (win0_2.rect t)).set ↔ _
  rw [View.set_slice_whole, Rect.mem_set_unit]
  exact Iff.rfl

/-- Row n is written back by point n / 4800. -/
theorem cover2 (i : S2400000x3.Idx) :
    ∃ t : Fin cfg0.N, (cfg0.win 2).flush t = true ∧ i ∈ ((cfg0.win 2).blk t).view.set := by
  have h0 : (i 0).val < 2400000 := (i 0).isLt
  have h1 : (i 1).val < 3 := (i 1).isLt
  have hN : cfg0.N = 500 := N_0
  let t : Fin cfg0.N := ⟨(i 0).val / 4800, by rw [hN]; omega⟩
  obtain ⟨-, -, -, -, e0, e1⟩ := idx_facts t
  refine ⟨t, flush0_2 t, ?_⟩
  rw [mem_blk2]
  intro a
  match a with
  | ⟨0, _⟩ =>
    show win0_2.index t (0 : Fin 2) * 4800 ≤ (i 0).val ∧ (i 0).val < win0_2.index t (0 : Fin 2) * 4800 + 4800
    rw [e0]; show (i 0).val / 4800 * 4800 ≤ (i 0).val ∧ (i 0).val < (i 0).val / 4800 * 4800 + 4800; omega
  | ⟨1, _⟩ =>
    show win0_2.index t (1 : Fin 2) * 3 ≤ (i 1).val ∧ (i 1).val < win0_2.index t (1 : Fin 2) * 3 + 3
    rw [e1]; omega

/-- THE ARRAY OF CELL COORDINATES after the grid: the cloud's cell coordinates. -/
theorem final2 (c : Dev nD) : (dats m 0 c).arrAt 2 cfg0.N = coordArr (V m c main_arg0) :=
  (dats m 0 c).arrAt_eq_of_cover 2 (coordArr (V m c main_arg0)) (fun t _ => flushed2_eq m c t) cover2

end Cert.KernelIdeal.Hand

end
-- ==== Proof.RefOps.lean ====
/-
  The reference program's @main as two literal lists of host operations, in program order. Each call of a
  module-local function is replaced by the callee's operations over the call's own buffer record (StableHLO's
  meaning of func.call: the callee's body on the operands), nested calls likewise.

  opsPre  (38 operations): from the three literal tables to the first call of @_where. It computes the voxel
  coordinates c = fptosi (floor ((xyz - lo) / cell)) (buffer main_v8) and the linear cell id
  lin = select (all three coordinates inside the grid) ((cz * 496 + cy) * 432 + cx) 214272 (buffer main_v28).
  opsTail (155 operations): everything after it, from the first argsort to the three results
  (main_v109, main_v127, main_v80); it reads lin, c and the points (main_arg0) and nothing else of opsPre.
-/
import proofs.«161434_j1726576856006_2_alg».proof.Proof.Gen.ReferenceIdeal
import Idealize.ShloMosaic.Lib.StableHlo.Run

noncomputable section

namespace Cert.ReferenceIdeal.Hand

open Cert.ReferenceIdeal Cert.ReferenceIdeal.Gen
open Idealize.ShloMosaic Idealize.ShloMosaic.TcCoe Idealize.SL.Sem Idealize.ShloMosaic.StableHlo

variable {F : FTy → Type} [FloatOps F]

/-- @main's operations up to and including the first select of the linear cell id. -/
abbrev opsPre : List (HloOp τ sig (Elt F)) :=
  [ nullary main_cst (fun i => FloatOps.ofBits .f32 (lit0 (S3.rowMajor i))),
    nullary main_cst_0 (fun i => FloatOps.ofBits .f32 (lit1 (S3.rowMajor i))),
    nullary main_c (fun i => lit2 (S3.rowMajor i)),
    unary main_arg0 main_v0 ((extractStridedSlice S2400000x3 ![0, 0] · slices_S2400000x4_S2400000x3_0_0) : (⟨S2400000x4, .f32⟩ : BufTy).Contents (Elt F) → (⟨S2400000x3, .f32⟩ : BufTy).Contents (Elt F)),
    unary main_cst main_v1 (broadcastInDim S1x3 ![1] bcast_S3_S1x3_1 : (⟨S3, .f32⟩ : BufTy).Contents (Elt F) → (⟨S1x3, .f32⟩ : BufTy).Contents (Elt F)),
    unary main_v1 main_v2 (broadcastInDim S2400000x3 ![0, 1] bcast_S1x3_S2400000x3_0_1 : (⟨S1x3, .f32⟩ : BufTy).Contents (Elt F) → (⟨S2400000x3, .f32⟩ : BufTy).Contents (Elt F)),
    binary main_v0 main_v2 main_v3 (subf : (⟨S2400000x3, .f32⟩ : BufTy).Contents (Elt F) → (⟨S2400000x3, .f32⟩ : BufTy).Contents (Elt F) → (⟨S2400000x3, .f32⟩ : BufTy).Contents (Elt F)),
    unary main_cst_0 main_v4 (broadcastInDim S1x3 ![1] bcast_S3_S1x3_1 : (⟨S3, .f32⟩ : BufTy).Contents (Elt F) → (⟨S1x3, .f32⟩ : BufTy).Contents (Elt F)),
    unary main_v4 main_v5 (broadcastInDim S2400000x3 ![0, 1] bcast_S1x3_S2400000x3_0_1 : (⟨S1x3, .f32⟩ : BufTy).Contents (Elt F) → (⟨S2400000x3, .f32⟩ : BufTy).Contents (Elt F)),
    binary main_v3 main_v5 main_v6 (Host.divf : (⟨S2400000x3, .f32⟩ : BufTy).Contents (Elt F) → (⟨S2400000x3, .f32⟩ : BufTy).Contents (Elt F) → (⟨S2400000x3, .f32⟩ : BufTy).Contents (Elt F)),
    unary main_v6 main_v7 (Host.floor : (⟨S2400000x3, .f32⟩ : BufTy).Contents (Elt F) → (⟨S2400000x3, .f32⟩ : BufTy).Contents (Elt F)),
    unary main_v7 main_v8 (fptosi 32 : (⟨S2400000x3, .f32⟩ : BufTy).Contents (Elt F) → (⟨S2400000x3, .i32⟩ : BufTy).Contents (Elt F)),
    nullary main_c_1 (constantI S_ 32 0#32),
    unary main_c_1 main_v9 (broadcastInDim S2400000x3 ![] bcast_S_S2400000x3 : (⟨S_, .i32⟩ : BufTy).Contents (Elt F) → (⟨S2400000x3, .i32⟩ : BufTy).Contents (Elt F)),
    binary main_v8 main_v9 main_v10 (cmpi .sge : (⟨S2400000x3, .i32⟩ : BufTy).Contents (Elt F) → (⟨S2400000x3, .i32⟩ : BufTy).Contents (Elt F) → (⟨S2400000x3, .i1⟩ : BufTy).Contents (Elt F)),
    unary main_c main_v11 (broadcastInDim S1x3 ![1] bcast_S3_S1x3_1 : (⟨S3, .i32⟩ : BufTy).Contents (Elt F) → (⟨S1x3, .i32⟩ : BufTy).Contents (Elt F)),
    unary main_v11 main_v12 (broadcastInDim S2400000x3 ![0, 1] bcast_S1x3_S2400000x3_0_1 : (⟨S1x3, .i32⟩ : BufTy).Contents (Elt F) → (⟨S2400000x3, .i32⟩ : BufTy).Contents (Elt F)),
    binary main_v8 main_v12 main_v13 (cmpi .slt : (⟨S2400000x3, .i32⟩ : BufTy).Contents (Elt F) → (⟨S2400000x3, .i32⟩ : BufTy).Contents (Elt F) → (⟨S2400000x3, .i1⟩ : BufTy).Contents (Elt F)),
    binary main_v10 main_v13 main_v14 (andi : (⟨S2400000x3, .i1⟩ : BufTy).Contents (Elt F) → (⟨S2400000x3, .i1⟩ : BufTy).Contents (Elt F) → (⟨S2400000x3, .i1⟩ : BufTy).Contents (Elt F)),
    nullary main_c_2 (constantI S_ 1 1#1),
    binary main_v14 main_c_2 main_v15 ((fun x v => Host.reduce IntOp.andi x v reducesTo_S2400000x3_S2400000_d1 h_S_) : (⟨S2400000x3, .i1⟩ : BufTy).Contents (Elt F) → (⟨S_, .i1⟩ : BufTy).Contents (Elt F) → (⟨S2400000, .i1⟩ : BufTy).Contents (Elt F)),
    unary main_v8 main_v16 ((extractStridedSlice S2400000x1 ![0, 2] · slices_S2400000x3_S2400000x1_0_2) : (⟨S2400000x3, .i32⟩ : BufTy).Contents (Elt F) → (⟨S2400000x1, .i32⟩ : BufTy).Contents (Elt F)),
    reshape main_v16 main_v17 rfl shapeCasts_S2400000x1_S2400000,
    nullary main_c_3 (constantI S_ 32 496#32),
    unary main_c_3 main_v18 (broadcastInDim S2400000 ![] bcast_S_S2400000 : (⟨S_, .i32⟩ : BufTy).Contents (Elt F) → (⟨S2400000, .i32⟩ : BufTy).Contents (Elt F)),
    binary main_v17 main_v18 main_v19 (muli : (⟨S2400000, .i32⟩ : BufTy).Contents (Elt F) → (⟨S2400000, .i32⟩ : BufTy).Contents (Elt F) → (⟨S2400000, .i32⟩ : BufTy).Contents (Elt F)),
    unary main_v8 main_v20 ((extractStridedSlice S2400000x1 ![0, 1] · slices_S2400000x3_S2400000x1_0_1) : (⟨S2400000x3, .i32⟩ : BufTy).Contents (Elt F) → (⟨S2400000x1, .i32⟩ : BufTy).Contents (Elt F)),
    reshape main_v20 main_v21 rfl shapeCasts_S2400000x1_S2400000,
    binary main_v19 main_v21 main_v22 (addi : (⟨S2400000, .i32⟩ : BufTy).Contents (Elt F) → (⟨S2400000, .i32⟩ : BufTy).Contents (Elt F) → (⟨S2400000, .i32⟩ : BufTy).Contents (Elt F)),
    nullary main_c_4 (constantI S_ 32 432#32),
    unary main_c_4 main_v23 (broadcastInDim S2400000 ![] bcast_S_S2400000 : (⟨S_, .i32⟩ : BufTy).Contents (Elt F) → (⟨S2400000, .i32⟩ : BufTy).Contents (Elt F)),
    binary main_v22 main_v23 main_v24 (muli : (⟨S2400000, .i32⟩ : BufTy).Contents (Elt F) → (⟨S2400000, .i32⟩ : BufTy).Contents (Elt F) → (⟨S2400000, .i32⟩ : BufTy).Contents (Elt F)),
    unary main_v8 main_v25 ((extractStridedSlice S2400000x1 ![0, 0] · slices_S2400000x3_S2400000x1_0_0) : (⟨S2400000x3, .i32⟩ : BufTy).Contents (Elt F) → (⟨S2400000x1, .i32⟩ : BufTy).Contents (Elt F)),
    reshape main_v25 main_v26 rfl shapeCasts_S2400000x1_S2400000,
    binary main_v24 main_v26 main_v27 (addi : (⟨S2400000, .i32⟩ : BufTy).Contents (Elt F) → (⟨S2400000, .i32⟩ : BufTy).Contents (Elt F) → (⟨S2400000, .i32⟩ : BufTy).Contents (Elt F)),
    nullary main_c_5 (constantI S_ 32 214272#32),
    TRef.unary (.of main_c_5 : StableHlo.TRef sig ⟨S_, .i32⟩) main_call0.v0 (broadcastInDim S2400000 ![] bcast_S_S2400000),
    TRef.ternary (.of main_v15 : StableHlo.TRef sig ⟨S2400000, .i1⟩) (.of main_v27 : StableHlo.TRef sig ⟨S2400000, .i32⟩) main_call0.v0 main_call0.v1 select ]

/-- @main's remaining operations: sort by cell id, group, count, second sort, gathers and masks. -/
abbrev opsTail : List (HloOp τ sig (Elt F)) :=
  [ TRef.nullary main_call1.v0 (iotaInDim S2400000 32 0),
    TRef.binary (.of main_v28 : StableHlo.TRef sig ⟨S2400000, .i32⟩) main_call1.v0 main_call1.v1_0 (fun x y => (Host.sort2 S2400000 0 comparator_i32_i32_d0 x y).1),
    TRef.binary (.of main_v28 : StableHlo.TRef sig ⟨S2400000, .i32⟩) main_call1.v0 main_call1.v1_1 (fun x y => (Host.sort2 S2400000 0 comparator_i32_i32_d0 x y).2),
    nullary main_c_6 (constantI S_ 32 0#32),
    unary main_c_6 main_v30 (broadcastInDim S2400000 ![] bcast_S_S2400000 : (⟨S_, .i32⟩ : BufTy).Contents (Elt F) → (⟨S2400000, .i32⟩ : BufTy).Contents (Elt F)),
    binary main_v29 main_v30 main_v31 (cmpi .slt : (⟨S2400000, .i32⟩ : BufTy).Contents (Elt F) → (⟨S2400000, .i32⟩ : BufTy).Contents (Elt F) → (⟨S2400000, .i1⟩ : BufTy).Contents (Elt F)),
    nullary main_c_7 (constantI S_ 32 2400000#32),
    unary main_c_7 main_v32 (broadcastInDim S2400000 ![] bcast_S_S2400000 : (⟨S_, .i32⟩ : BufTy).Contents (Elt F) → (⟨S2400000, .i32⟩ : BufTy).Contents (Elt F)),
    binary main_v29 main_v32 main_v33 (addi : (⟨S2400000, .i32⟩ : BufTy).Contents (Elt F) → (⟨S2400000, .i32⟩ : BufTy).Contents (Elt F) → (⟨S2400000, .i32⟩ : BufTy).Contents (Elt F)),
    ternary main_v31 main_v33 main_v29 main_v34 (select : (⟨S2400000, .i1⟩ : BufTy).Contents (Elt F) → (⟨S2400000, .i32⟩ : BufTy).Contents (Elt F) → (⟨S2400000, .i32⟩ : BufTy).Contents (Elt F) → (⟨S2400000, .i32⟩ : BufTy).Contents (Elt F)),
    unary main_v34 main_v35 (broadcastInDim S2400000x1 ![0] bcast_S2400000_S2400000x1_0 : (⟨S2400000, .i32⟩ : BufTy).Contents (Elt F) → (⟨S2400000x1, .i32⟩ : BufTy).Contents (Elt F)),
    binary main_v28 main_v35 main_v36 ((fun x i => Host.gather gather_S2400000_S2400000x1_S2400000_n_0_n_n_0_1_1 x i) : (⟨S2400000, .i32⟩ : BufTy).Contents (Elt F) → (⟨S2400000x1, .i32⟩ : BufTy).Contents (Elt F) → (⟨S2400000, .i32⟩ : BufTy).Contents (Elt F)),
    nullary main_c_8 (constantI S_ 32 214272#32),
    unary main_c_8 main_v37 (broadcastInDim S2400000 ![] bcast_S_S2400000 : (⟨S_, .i32⟩ : BufTy).Contents (Elt F) → (⟨S2400000, .i32⟩ : BufTy).Contents (Elt F)),
    binary main_v36 main_v37 main_v38 (cmpi .slt : (⟨S2400000, .i32⟩ : BufTy).Contents (Elt F) → (⟨S2400000, .i32⟩ : BufTy).Contents (Elt F) → (⟨S2400000, .i1⟩ : BufTy).Contents (Elt F)),
    nullary main_c_9 (constantI S_ 1 1#1),
    unary main_c_9 main_v39 (broadcastInDim S1 ![] bcast_S_S1 : (⟨S_, .i1⟩ : BufTy).Contents (Elt F) → (⟨S1, .i1⟩ : BufTy).Contents (Elt F)),
    unary main_v36 main_v40 ((extractStridedSlice S2399999 ![1] · slices_S2400000_S2399999_1) : (⟨S2400000, .i32⟩ : BufTy).Contents (Elt F) → (⟨S2399999, .i32⟩ : BufTy).Contents (Elt F)),
    unary main_v36 main_v41 ((extractStridedSlice S2399999 ![0] · slices_S2400000_S2399999_0) : (⟨S2400000, .i32⟩ : BufTy).Contents (Elt F) → (⟨S2399999, .i32⟩ : BufTy).Contents (Elt F)),
    binary main_v40 main_v41 main_v42 (cmpi .ne : (⟨S2399999, .i32⟩ : BufTy).Contents (Elt F) → (⟨S2399999, .i32⟩ : BufTy).Contents (Elt F) → (⟨S2399999, .i1⟩ : BufTy).Contents (Elt F)),
    binary main_v39 main_v42 main_v43 ((fun a b => concatenate S2400000 0 [⟨S1, a⟩, ⟨S2399999, b⟩] concatenates_S1_S2399999_S2400000_d0) : (⟨S1, .i1⟩ : BufTy).Contents (Elt F) → (⟨S2399999, .i1⟩ : BufTy).Contents (Elt F) → (⟨S2400000, .i1⟩ : BufTy).Contents (Elt F)),
    TRef.unary (.of main_v43 : StableHlo.TRef sig ⟨S2400000, .i1⟩) main_call2.v0 (extui 32 · natLt_1_32),
    TRef.nullary main_call2.call0.c (constantI S_ 32 0#32),
    TRef.unary main_call2.call0.c main_call2.call0.v0 (broadcastInDim S_ ![] bcast_S_S_),
    TRef.binary (main_call2.v0 : StableHlo.TRef sig ⟨S2400000, .i32⟩) main_call2.call0.v0 main_call2.call0.v1 (fun x v => Host.reduceWindow IntOp.addi ![2400000] ![1] ![2399999] ![0] x v reduceWindows_S2400000_S2400000_w2400000s1p2399999_0 h_S_),
    nullary main_c_10 (constantI S_ 32 1#32),
    unary main_c_10 main_v45 (broadcastInDim S2400000 ![] bcast_S_S2400000 : (⟨S_, .i32⟩ : BufTy).Contents (Elt F) → (⟨S2400000, .i32⟩ : BufTy).Contents (Elt F)),
    binary main_v44 main_v45 main_v46 (subi : (⟨S2400000, .i32⟩ : BufTy).Contents (Elt F) → (⟨S2400000, .i32⟩ : BufTy).Contents (Elt F) → (⟨S2400000, .i32⟩ : BufTy).Contents (Elt F)),
    unary main_v38 main_v47 ((extui 32 · natLt_1_32) : (⟨S2400000, .i1⟩ : BufTy).Contents (Elt F) → (⟨S2400000, .i32⟩ : BufTy).Contents (Elt F)),
    nullary main_c_11 (constantI S_ 32 0#32),
    unary main_c_11 main_v48 (broadcastInDim S2400000 ![] bcast_S_S2400000 : (⟨S_, .i32⟩ : BufTy).Contents (Elt F) → (⟨S2400000, .i32⟩ : BufTy).Contents (Elt F)),
    unary main_v46 main_v49 (broadcastInDim S2400000x1 ![0] bcast_S2400000_S2400000x1_0 : (⟨S2400000, .i32⟩ : BufTy).Contents (Elt F) → (⟨S2400000x1, .i32⟩ : BufTy).Contents (Elt F)),
    ternary main_v48 main_v49 main_v47 main_v50 ((fun x i u => Host.scatter scatter_S2400000_S2400000x1_S2400000_n_0_0_1 IntOp.addi x i u) : (⟨S2400000, .i32⟩ : BufTy).Contents (Elt F) → (⟨S2400000x1, .i32⟩ : BufTy).Contents (Elt F) → (⟨S2400000, .i32⟩ : BufTy).Contents (Elt F) → (⟨S2400000, .i32⟩ : BufTy).Contents (Elt F)),
    binary main_v43 main_v38 main_v51 (andi : (⟨S2400000, .i1⟩ : BufTy).Contents (Elt F) → (⟨S2400000, .i1⟩ : BufTy).Contents (Elt F) → (⟨S2400000, .i1⟩ : BufTy).Contents (Elt F)),
    nullary main_c_12 (constantI S_ 32 2400000#32),
    TRef.unary (.of main_c_12 : StableHlo.TRef sig ⟨S_, .i32⟩) main_call3.v0 (broadcastInDim S2400000 ![] bcast_S_S2400000),
    TRef.ternary (.of main_v51 : StableHlo.TRef sig ⟨S2400000, .i1⟩) (.of main_v29 : StableHlo.TRef sig ⟨S2400000, .i32⟩) main_call3.v0 main_call3.v1 select,
    TRef.nullary main_call4.v0 (iotaInDim S2400000 32 0),
    TRef.binary (.of main_v52 : StableHlo.TRef sig ⟨S2400000, .i32⟩) main_call4.v0 main_call4.v1_0 (fun x y => (Host.sort2 S2400000 0 comparator_i32_i32_d0 x y).1),
    TRef.binary (.of main_v52 : StableHlo.TRef sig ⟨S2400000, .i32⟩) main_call4.v0 main_call4.v1_1 (fun x y => (Host.sort2 S2400000 0 comparator_i32_i32_d0 x y).2),
    unary main_v53 main_v54 ((extractStridedSlice S40000 ![0] · slices_S2400000_S40000_0) : (⟨S2400000, .i32⟩ : BufTy).Contents (Elt F) → (⟨S40000, .i32⟩ : BufTy).Contents (Elt F)),
    nullary main_c_13 (constantI S_ 32 0#32),
    unary main_c_13 main_v55 (broadcastInDim S40000 ![] bcast_S_S40000 : (⟨S_, .i32⟩ : BufTy).Contents (Elt F) → (⟨S40000, .i32⟩ : BufTy).Contents (Elt F)),
    binary main_v54 main_v55 main_v56 (cmpi .slt : (⟨S40000, .i32⟩ : BufTy).Contents (Elt F) → (⟨S40000, .i32⟩ : BufTy).Contents (Elt F) → (⟨S40000, .i1⟩ : BufTy).Contents (Elt F)),
    nullary main_c_14 (constantI S_ 32 2400000#32),
    unary main_c_14 main_v57 (broadcastInDim S40000 ![] bcast_S_S40000 : (⟨S_, .i32⟩ : BufTy).Contents (Elt F) → (⟨S40000, .i32⟩ : BufTy).Contents (Elt F)),
    binary main_v54 main_v57 main_v58 (addi : (⟨S40000, .i32⟩ : BufTy).Contents (Elt F) → (⟨S40000, .i32⟩ : BufTy).Contents (Elt F) → (⟨S40000, .i32⟩ : BufTy).Contents (Elt F)),
    ternary main_v56 main_v58 main_v54 main_v59 (select : (⟨S40000, .i1⟩ : BufTy).Contents (Elt F) → (⟨S40000, .i32⟩ : BufTy).Contents (Elt F) → (⟨S40000, .i32⟩ : BufTy).Contents (Elt F) → (⟨S40000, .i32⟩ : BufTy).Contents (Elt F)),
    unary main_v59 main_v60 (broadcastInDim S40000x1 ![0] bcast_S40000_S40000x1_0 : (⟨S40000, .i32⟩ : BufTy).Contents (Elt F) → (⟨S40000x1, .i32⟩ : BufTy).Contents (Elt F)),
    binary main_v52 main_v60 main_v61 ((fun x i => Host.gather gather_S2400000_S40000x1_S40000_n_0_n_n_0_1_1 x i) : (⟨S2400000, .i32⟩ : BufTy).Contents (Elt F) → (⟨S40000x1, .i32⟩ : BufTy).Contents (Elt F) → (⟨S40000, .i32⟩ : BufTy).Contents (Elt F)),
    nullary main_c_15 (constantI S_ 32 2400000#32),
    unary main_c_15 main_v62 (broadcastInDim S40000 ![] bcast_S_S40000 : (⟨S_, .i32⟩ : BufTy).Contents (Elt F) → (⟨S40000, .i32⟩ : BufTy).Contents (Elt F)),
    binary main_v61 main_v62 main_v63 (cmpi .slt : (⟨S40000, .i32⟩ : BufTy).Contents (Elt F) → (⟨S40000, .i32⟩ : BufTy).Contents (Elt F) → (⟨S40000, .i1⟩ : BufTy).Contents (Elt F)),
    nullary main_c_16 (constantI S_ 32 0#32),
    unary main_c_16 main_v64 (broadcastInDim S40000 ![] bcast_S_S40000 : (⟨S_, .i32⟩ : BufTy).Contents (Elt F) → (⟨S40000, .i32⟩ : BufTy).Contents (Elt F)),
    binary main_v54 main_v64 main_v65 (cmpi .slt : (⟨S40000, .i32⟩ : BufTy).Contents (Elt F) → (⟨S40000, .i32⟩ : BufTy).Contents (Elt F) → (⟨S40000, .i1⟩ : BufTy).Contents (Elt F)),
    nullary main_c_17 (constantI S_ 32 2400000#32),
    unary main_c_17 main_v66 (broadcastInDim S40000 ![] bcast_S_S40000 : (⟨S_, .i32⟩ : BufTy).Contents (Elt F) → (⟨S40000, .i32⟩ : BufTy).Contents (Elt F)),
    binary main_v54 main_v66 main_v67 (addi : (⟨S40000, .i32⟩ : BufTy).Contents (Elt F) → (⟨S40000, .i32⟩ : BufTy).Contents (Elt F) → (⟨S40000, .i32⟩ : BufTy).Contents (Elt F)),
    ternary main_v65 main_v67 main_v54 main_v68 (select : (⟨S40000, .i1⟩ : BufTy).Contents (Elt F) → (⟨S40000, .i32⟩ : BufTy).Contents (Elt F) → (⟨S40000, .i32⟩ : BufTy).Contents (Elt F) → (⟨S40000, .i32⟩ : BufTy).Contents (Elt F)),
    unary main_v68 main_v69 (broadcastInDim S40000x1 ![0] bcast_S40000_S40000x1_0 : (⟨S40000, .i32⟩ : BufTy).Contents (Elt F) → (⟨S40000x1, .i32⟩ : BufTy).Contents (Elt F)),
    binary main_v46 main_v69 main_v70 ((fun x i => Host.gather gather_S2400000_S40000x1_S40000_n_0_n_n_0_1_1 x i) : (⟨S2400000, .i32⟩ : BufTy).Contents (Elt F) → (⟨S40000x1, .i32⟩ : BufTy).Contents (Elt F) → (⟨S40000, .i32⟩ : BufTy).Contents (Elt F)),
    nullary main_c_18 (constantI S_ 32 0#32),
    unary main_c_18 main_v71 (broadcastInDim S40000 ![] bcast_S_S40000 : (⟨S_, .i32⟩ : BufTy).Contents (Elt F) → (⟨S40000, .i32⟩ : BufTy).Contents (Elt F)),
    binary main_v70 main_v71 main_v72 (cmpi .slt : (⟨S40000, .i32⟩ : BufTy).Contents (Elt F) → (⟨S40000, .i32⟩ : BufTy).Contents (Elt F) → (⟨S40000, .i1⟩ : BufTy).Contents (Elt F)),
    nullary main_c_19 (constantI S_ 32 2400000#32),
    unary main_c_19 main_v73 (broadcastInDim S40000 ![] bcast_S_S40000 : (⟨S_, .i32⟩ : BufTy).Contents (Elt F) → (⟨S40000, .i32⟩ : BufTy).Contents (Elt F)),
    binary main_v70 main_v73 main_v74 (addi : (⟨S40000, .i32⟩ : BufTy).Contents (Elt F) → (⟨S40000, .i32⟩ : BufTy).Contents (Elt F) → (⟨S40000, .i32⟩ : BufTy).Contents (Elt F)),
    ternary main_v72 main_v74 main_v70 main_v75 (select : (⟨S40000, .i1⟩ : BufTy).Contents (Elt F) → (⟨S40000, .i32⟩ : BufTy).Contents (Elt F) → (⟨S40000, .i32⟩ : BufTy).Contents (Elt F) → (⟨S40000, .i32⟩ : BufTy).Contents (Elt F)),
    unary main_v75 main_v76 (broadcastInDim S40000x1 ![0] bcast_S40000_S40000x1_0 : (⟨S40000, .i32⟩ : BufTy).Contents (Elt F) → (⟨S40000x1, .i32⟩ : BufTy).Contents (Elt F)),
    binary main_v50 main_v76 main_v77 ((fun x i => Host.gather gather_S2400000_S40000x1_S40000_n_0_n_n_0_1_1 x i) : (⟨S2400000, .i32⟩ : BufTy).Contents (Elt F) → (⟨S40000x1, .i32⟩ : BufTy).Contents (Elt F) → (⟨S40000, .i32⟩ : BufTy).Contents (Elt F)),
    nullary main_c_20 (constantI S_ 32 0#32),
    TRef.unary (.of main_c_20 : StableHlo.TRef sig ⟨S_, .i32⟩) main_call5.v0 id,
    TRef.unary main_call5.v0 main_call5.v1 (broadcastInDim S40000 ![] bcast_S_S40000),
    TRef.ternary (.of main_v63 : StableHlo.TRef sig ⟨S40000, .i1⟩) (.of main_v77 : StableHlo.TRef sig ⟨S40000, .i32⟩) main_call5.v1 main_call5.v2 select,
    nullary main_c_21 (constantI S_ 32 32#32),
    unary main_c_21 main_v79 (broadcastInDim S40000 ![] bcast_S_S40000 : (⟨S_, .i32⟩ : BufTy).Contents (Elt F) → (⟨S40000, .i32⟩ : BufTy).Contents (Elt F)),
    binary main_v78 main_v79 main_v80 (minsi : (⟨S40000, .i32⟩ : BufTy).Contents (Elt F) → (⟨S40000, .i32⟩ : BufTy).Contents (Elt F) → (⟨S40000, .i32⟩ : BufTy).Contents (Elt F)),
    unary main_v54 main_v81 (broadcastInDim S40000x1 ![0] bcast_S40000_S40000x1_0 : (⟨S40000, .i32⟩ : BufTy).Contents (Elt F) → (⟨S40000x1, .i32⟩ : BufTy).Contents (Elt F)),
    nullary main_v82 (iotaInDim S32 32 0),
    unary main_v82 main_v83 (broadcastInDim S1x32 ![1] bcast_S32_S1x32_1 : (⟨S32, .i32⟩ : BufTy).Contents (Elt F) → (⟨S1x32, .i32⟩ : BufTy).Contents (Elt F)),
    unary main_v81 main_v84 (broadcastInDim S40000x32 ![0, 1] bcast_S40000x1_S40000x32_0_1 : (⟨S40000x1, .i32⟩ : BufTy).Contents (Elt F) → (⟨S40000x32, .i32⟩ : BufTy).Contents (Elt F)),
    unary main_v83 main_v85 (broadcastInDim S40000x32 ![0, 1] bcast_S1x32_S40000x32_0_1 : (⟨S1x32, .i32⟩ : BufTy).Contents (Elt F) → (⟨S40000x32, .i32⟩ : BufTy).Contents (Elt F)),
    binary main_v84 main_v85 main_v86 (addi : (⟨S40000x32, .i32⟩ : BufTy).Contents (Elt F) → (⟨S40000x32, .i32⟩ : BufTy).Contents (Elt F) → (⟨S40000x32, .i32⟩ : BufTy).Contents (Elt F)),
    nullary main_v87 (iotaInDim S32 32 0),
    unary main_v87 main_v88 (broadcastInDim S1x32 ![1] bcast_S32_S1x32_1 : (⟨S32, .i32⟩ : BufTy).Contents (Elt F) → (⟨S1x32, .i32⟩ : BufTy).Contents (Elt F)),
    unary main_v80 main_v89 (broadcastInDim S40000x1 ![0] bcast_S40000_S40000x1_0 : (⟨S40000, .i32⟩ : BufTy).Contents (Elt F) → (⟨S40000x1, .i32⟩ : BufTy).Contents (Elt F)),
    unary main_v88 main_v90 (broadcastInDim S40000x32 ![0, 1] bcast_S1x32_S40000x32_0_1 : (⟨S1x32, .i32⟩ : BufTy).Contents (Elt F) → (⟨S40000x32, .i32⟩ : BufTy).Contents (Elt F)),
    unary main_v89 main_v91 (broadcastInDim S40000x32 ![0, 1] bcast_S40000x1_S40000x32_0_1 : (⟨S40000x1, .i32⟩ : BufTy).Contents (Elt F) → (⟨S40000x32, .i32⟩ : BufTy).Contents (Elt F)),
    binary main_v90 main_v91 main_v92 (cmpi .slt : (⟨S40000x32, .i32⟩ : BufTy).Contents (Elt F) → (⟨S40000x32, .i32⟩ : BufTy).Contents (Elt F) → (⟨S40000x32, .i1⟩ : BufTy).Contents (Elt F)),
    nullary main_c_22 (constantI S_ 32 0#32),
    nullary main_c_23 (constantI S_ 32 2399999#32),
    TRef.unary (.of main_c_22 : StableHlo.TRef sig ⟨S_, .i32⟩) main_call6.v0 id,
    TRef.unary main_call6.v0 main_call6.v1 (broadcastInDim S40000x32 ![] bcast_S_S40000x32),
    TRef.binary main_call6.v1 (.of main_v86 : StableHlo.TRef sig ⟨S40000x32, .i32⟩) main_call6.v2 maxsi,
    TRef.unary (.of main_c_23 : StableHlo.TRef sig ⟨S_, .i32⟩) main_call6.v3 id,
    TRef.unary main_call6.v3 main_call6.v4 (broadcastInDim S40000x32 ![] bcast_S_S40000x32),
    TRef.binary main_call6.v4 main_call6.v2 main_call6.v5 minsi,
    nullary main_c_24 (constantI S_ 32 0#32),
    unary main_c_24 main_v94 (broadcastInDim S40000x32 ![] bcast_S_S40000x32 : (⟨S_, .i32⟩ : BufTy).Contents (Elt F) → (⟨S40000x32, .i32⟩ : BufTy).Contents (Elt F)),
    binary main_v93 main_v94 main_v95 (cmpi .slt : (⟨S40000x32, .i32⟩ : BufTy).Contents (Elt F) → (⟨S40000x32, .i32⟩ : BufTy).Contents (Elt F) → (⟨S40000x32, .i1⟩ : BufTy).Contents (Elt F)),
    nullary main_c_25 (constantI S_ 32 2400000#32),
    unary main_c_25 main_v96 (broadcastInDim S40000x32 ![] bcast_S_S40000x32 : (⟨S_, .i32⟩ : BufTy).Contents (Elt F) → (⟨S40000x32, .i32⟩ : BufTy).Contents (Elt F)),
    binary main_v93 main_v96 main_v97 (addi : (⟨S40000x32, .i32⟩ : BufTy).Contents (Elt F) → (⟨S40000x32, .i32⟩ : BufTy).Contents (Elt F) → (⟨S40000x32, .i32⟩ : BufTy).Contents (Elt F)),
    ternary main_v95 main_v97 main_v93 main_v98 (select : (⟨S40000x32, .i1⟩ : BufTy).Contents (Elt F) → (⟨S40000x32, .i32⟩ : BufTy).Contents (Elt F) → (⟨S40000x32, .i32⟩ : BufTy).Contents (Elt F) → (⟨S40000x32, .i32⟩ : BufTy).Contents (Elt F)),
    unary main_v98 main_v99 (broadcastInDim S40000x32x1 ![0, 1] bcast_S40000x32_S40000x32x1_0_1 : (⟨S40000x32, .i32⟩ : BufTy).Contents (Elt F) → (⟨S40000x32x1, .i32⟩ : BufTy).Contents (Elt F)),
    binary main_v29 main_v99 main_v100 ((fun x i => Host.gather gather_S2400000_S40000x32x1_S40000x32_n_0_n_n_0_2_1 x i) : (⟨S2400000, .i32⟩ : BufTy).Contents (Elt F) → (⟨S40000x32x1, .i32⟩ : BufTy).Contents (Elt F) → (⟨S40000x32, .i32⟩ : BufTy).Contents (Elt F)),
    unary main_v92 main_v101 (broadcastInDim S40000x32x1 ![0, 1] bcast_S40000x32_S40000x32x1_0_1 : (⟨S40000x32, .i1⟩ : BufTy).Contents (Elt F) → (⟨S40000x32x1, .i1⟩ : BufTy).Contents (Elt F)),
    nullary main_c_26 (constantI S_ 32 0#32),
    unary main_c_26 main_v102 (broadcastInDim S40000x32 ![] bcast_S_S40000x32 : (⟨S_, .i32⟩ : BufTy).Contents (Elt F) → (⟨S40000x32, .i32⟩ : BufTy).Contents (Elt F)),
    binary main_v100 main_v102 main_v103 (cmpi .slt : (⟨S40000x32, .i32⟩ : BufTy).Contents (Elt F) → (⟨S40000x32, .i32⟩ : BufTy).Contents (Elt F) → (⟨S40000x32, .i1⟩ : BufTy).Contents (Elt F)),
    nullary main_c_27 (constantI S_ 32 2400000#32),
    unary main_c_27 main_v104 (broadcastInDim S40000x32 ![] bcast_S_S40000x32 : (⟨S_, .i32⟩ : BufTy).Contents (Elt F) → (⟨S40000x32, .i32⟩ : BufTy).Contents (Elt F)),
    binary main_v100 main_v104 main_v105 (addi : (⟨S40000x32, .i32⟩ : BufTy).Contents (Elt F) → (⟨S40000x32, .i32⟩ : BufTy).Contents (Elt F) → (⟨S40000x32, .i32⟩ : BufTy).Contents (Elt F)),
    ternary main_v103 main_v105 main_v100 main_v106 (select : (⟨S40000x32, .i1⟩ : BufTy).Contents (Elt F) → (⟨S40000x32, .i32⟩ : BufTy).Contents (Elt F) → (⟨S40000x32, .i32⟩ : BufTy).Contents (Elt F) → (⟨S40000x32, .i32⟩ : BufTy).Contents (Elt F)),
    unary main_v106 main_v107 (broadcastInDim S40000x32x1 ![0, 1] bcast_S40000x32_S40000x32x1_0_1 : (⟨S40000x32, .i32⟩ : BufTy).Contents (Elt F) → (⟨S40000x32x1, .i32⟩ : BufTy).Contents (Elt F)),
    binary main_arg0 main_v107 main_v108 ((fun x i => Host.gather gather_S2400000x4_S40000x32x1_S40000x32x4_2_0_n_n_0_2_14 x i) : (⟨S2400000x4, .f32⟩ : BufTy).Contents (Elt F) → (⟨S40000x32x1, .i32⟩ : BufTy).Contents (Elt F) → (⟨S40000x32x4, .f32⟩ : BufTy).Contents (Elt F)),
    nullary main_cst_28 (constant S_ .f32 0x00000000#32),
    TRef.unary (.of main_cst_28 : StableHlo.TRef sig ⟨S_, .f32⟩) main_call7.v0 id,
    TRef.unary (.of main_v101 : StableHlo.TRef sig ⟨S40000x32x1, .i1⟩) main_call7.v1 (broadcastInDim S40000x32x4 ![0, 1, 2] bcast_S40000x32x1_S40000x32x4_0_1_2),
    TRef.unary main_call7.v0 main_call7.v2 (broadcastInDim S40000x32x4 ![] bcast_S_S40000x32x4),
    TRef.ternary main_call7.v1 (.of main_v108 : StableHlo.TRef sig ⟨S40000x32x4, .f32⟩) main_call7.v2 main_call7.v3 select,
    nullary main_c_29 (constantI S_ 32 0#32),
    nullary main_c_30 (constantI S_ 32 2399999#32),
    TRef.unary (.of main_c_29 : StableHlo.TRef sig ⟨S_, .i32⟩) main_call8.v0 id,
    TRef.unary main_call8.v0 main_call8.v1 (broadcastInDim S40000 ![] bcast_S_S40000),
    TRef.binary main_call8.v1 (.of main_v54 : StableHlo.TRef sig ⟨S40000, .i32⟩) main_call8.v2 maxsi,
    TRef.unary (.of main_c_30 : StableHlo.TRef sig ⟨S_, .i32⟩) main_call8.v3 id,
    TRef.unary main_call8.v3 main_call8.v4 (broadcastInDim S40000 ![] bcast_S_S40000),
    TRef.binary main_call8.v4 main_call8.v2 main_call8.v5 minsi,
    nullary main_c_31 (constantI S_ 32 0#32),
    unary main_c_31 main_v111 (broadcastInDim S40000 ![] bcast_S_S40000 : (⟨S_, .i32⟩ : BufTy).Contents (Elt F) → (⟨S40000, .i32⟩ : BufTy).Contents (Elt F)),
    binary main_v110 main_v111 main_v112 (cmpi .slt : (⟨S40000, .i32⟩ : BufTy).Contents (Elt F) → (⟨S40000, .i32⟩ : BufTy).Contents (Elt F) → (⟨S40000, .i1⟩ : BufTy).Contents (Elt F)),
    nullary main_c_32 (constantI S_ 32 2400000#32),
    unary main_c_32 main_v113 (broadcastInDim S40000 ![] bcast_S_S40000 : (⟨S_, .i32⟩ : BufTy).Contents (Elt F) → (⟨S40000, .i32⟩ : BufTy).Contents (Elt F)),
    binary main_v110 main_v113 main_v114 (addi : (⟨S40000, .i32⟩ : BufTy).Contents (Elt F) → (⟨S40000, .i32⟩ : BufTy).Contents (Elt F) → (⟨S40000, .i32⟩ : BufTy).Contents (Elt F)),
    ternary main_v112 main_v114 main_v110 main_v115 (select : (⟨S40000, .i1⟩ : BufTy).Contents (Elt F) → (⟨S40000, .i32⟩ : BufTy).Contents (Elt F) → (⟨S40000, .i32⟩ : BufTy).Contents (Elt F) → (⟨S40000, .i32⟩ : BufTy).Contents (Elt F)),
    unary main_v115 main_v116 (broadcastInDim S40000x1 ![0] bcast_S40000_S40000x1_0 : (⟨S40000, .i32⟩ : BufTy).Contents (Elt F) → (⟨S40000x1, .i32⟩ : BufTy).Contents (Elt F)),
    binary main_v29 main_v116 main_v117 ((fun x i => Host.gather gather_S2400000_S40000x1_S40000_n_0_n_n_0_1_1 x i) : (⟨S2400000, .i32⟩ : BufTy).Contents (Elt F) → (⟨S40000x1, .i32⟩ : BufTy).Contents (Elt F) → (⟨S40000, .i32⟩ : BufTy).Contents (Elt F)),
    nullary main_c_33 (constantI S_ 32 0#32),
    unary main_c_33 main_v118 (broadcastInDim S40000 ![] bcast_S_S40000 : (⟨S_, .i32⟩ : BufTy).Contents (Elt F) → (⟨S40000, .i32⟩ : BufTy).Contents (Elt F)),
    binary main_v117 main_v118 main_v119 (cmpi .slt : (⟨S40000, .i32⟩ : BufTy).Contents (Elt F) → (⟨S40000, .i32⟩ : BufTy).Contents (Elt F) → (⟨S40000, .i1⟩ : BufTy).Contents (Elt F)),
    nullary main_c_34 (constantI S_ 32 2400000#32),
    unary main_c_34 main_v120 (broadcastInDim S40000 ![] bcast_S_S40000 : (⟨S_, .i32⟩ : BufTy).Contents (Elt F) → (⟨S40000, .i32⟩ : BufTy).Contents (Elt F)),
    binary main_v117 main_v120 main_v121 (addi : (⟨S40000, .i32⟩ : BufTy).Contents (Elt F) → (⟨S40000, .i32⟩ : BufTy).Contents (Elt F) → (⟨S40000, .i32⟩ : BufTy).Contents (Elt F)),
    ternary main_v119 main_v121 main_v117 main_v122 (select : (⟨S40000, .i1⟩ : BufTy).Contents (Elt F) → (⟨S40000, .i32⟩ : BufTy).Contents (Elt F) → (⟨S40000, .i32⟩ : BufTy).Contents (Elt F) → (⟨S40000, .i32⟩ : BufTy).Contents (Elt F)),
    unary main_v122 main_v123 (broadcastInDim S40000x1 ![0] bcast_S40000_S40000x1_0 : (⟨S40000, .i32⟩ : BufTy).Contents (Elt F) → (⟨S40000x1, .i32⟩ : BufTy).Contents (Elt F)),
    binary main_v8 main_v123 main_v124 ((fun x i => Host.gather gather_S2400000x3_S40000x1_S40000x3_1_0_n_n_0_1_13 x i) : (⟨S2400000x3, .i32⟩ : BufTy).Contents (Elt F) → (⟨S40000x1, .i32⟩ : BufTy).Contents (Elt F) → (⟨S40000x3, .i32⟩ : BufTy).Contents (Elt F)),
    unary main_v63 main_v125 (broadcastInDim S40000x1 ![0] bcast_S40000_S40000x1_0 : (⟨S40000, .i1⟩ : BufTy).Contents (Elt F) → (⟨S40000x1, .i1⟩ : BufTy).Contents (Elt F)),
    unary main_v124 main_v126 (Host.reverse [1] : (⟨S40000x3, .i32⟩ : BufTy).Contents (Elt F) → (⟨S40000x3, .i32⟩ : BufTy).Contents (Elt F)),
    nullary main_c_35 (constantI S_ 32 4294967295#32),
    TRef.unary (.of main_c_35 : StableHlo.TRef sig ⟨S_, .i32⟩) main_call9.v0 id,
    TRef.unary (.of main_v125 : StableHlo.TRef sig ⟨S40000x1, .i1⟩) main_call9.v1 (broadcastInDim S40000x3 ![0, 1] bcast_S40000x1_S40000x3_0_1),
    TRef.unary main_call9.v0 main_call9.v2 (broadcastInDim S40000x3 ![] bcast_S_S40000x3),
    TRef.ternary main_call9.v1 (.of main_v126 : StableHlo.TRef sig ⟨S40000x3, .i32⟩) main_call9.v2 main_call9.v3 select ]

end Cert.ReferenceIdeal.Hand

end
-- ==== Proof.RefRun.lean ====
/-
  The reference program's run. @main is the straight line of the host operations opsPre ++ opsTail (the
  module-local functions' bodies substituted at their calls, sequencing re-associated), the signature scopes no
  TensorCore buffer and no semaphore, and every operation touches TensorCore references only; so from any memory
  with zero counters every weakly fair execution of @main terminates with each TensorCore buffer at the
  operations' fold over the launch contents. No operation writes the argument buffer, which therefore ends as
  launched.
-/
import proofs.«161434_j1726576856006_2_alg».proof.Proof.RefOps

noncomputable section

namespace Cert.ReferenceIdeal.Hand

open Cert.ReferenceIdeal Cert.ReferenceIdeal.Gen
open Idealize.ShloMosaic Idealize.ShloMosaic.TcCoe Idealize.SL.Sem Idealize.ShloMosaic.StableHlo

variable {F : FTy → Type} [FloatOps F]

/-- @main is that straight line: its three consecutive windows run in order, the module-local functions'
    definitions unfolded at their calls and the calls' records at their fields, are one chain of host steps once
    sequencing is re-associated. -/
theorem main_eq (c : Dev nD) : main (F := F) c = seq (opsPre ++ opsTail) := by
  simp only [main, main_part0, main_part1, main_part2, fn_where.body, fn_argsort.body, fn_cumsum_0.body, fn_cumsum.body, fn_where_1.body, fn_clip.body, fn_where_2.body, fn_clip_3.body, fn_where_4.body,
    seq, List.cons_append, List.nil_append, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Each operation touches TensorCore references only. -/
theorem ops_sub : (opsPre ++ opsTail : List (HloOp τ sig (Elt F))).Forall fun op => op.bufs ⊆ tcRefs τ sig :=
  ⟨
    nullary_bufs_sub .., nullary_bufs_sub .., nullary_bufs_sub .., unary_bufs_sub .., unary_bufs_sub .., unary_bufs_sub ..,
    binary_bufs_sub .., unary_bufs_sub .., unary_bufs_sub .., binary_bufs_sub .., unary_bufs_sub .., unary_bufs_sub ..,
    nullary_bufs_sub .., unary_bufs_sub .., binary_bufs_sub .., unary_bufs_sub .., unary_bufs_sub .., binary_bufs_sub ..,
    binary_bufs_sub .., nullary_bufs_sub .., binary_bufs_sub .., unary_bufs_sub .., reshape_bufs_sub .., nullary_bufs_sub ..,
    unary_bufs_sub .., binary_bufs_sub .., unary_bufs_sub .., reshape_bufs_sub .., binary_bufs_sub .., nullary_bufs_sub ..,
    unary_bufs_sub .., binary_bufs_sub .., unary_bufs_sub .., reshape_bufs_sub .., binary_bufs_sub .., nullary_bufs_sub ..,
    unary_bufs_sub .., ternary_bufs_sub .., nullary_bufs_sub .., binary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., nullary_bufs_sub ..,
    unary_bufs_sub .., unary_bufs_sub .., unary_bufs_sub .., binary_bufs_sub .., binary_bufs_sub .., unary_bufs_sub ..,
    nullary_bufs_sub .., unary_bufs_sub .., binary_bufs_sub .., nullary_bufs_sub .., unary_bufs_sub .., binary_bufs_sub ..,
    unary_bufs_sub .., nullary_bufs_sub .., unary_bufs_sub .., unary_bufs_sub .., ternary_bufs_sub .., binary_bufs_sub ..,
    nullary_bufs_sub .., unary_bufs_sub .., ternary_bufs_sub .., nullary_bufs_sub .., binary_bufs_sub .., binary_bufs_sub ..,
    unary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., nullary_bufs_sub ..,
    unary_bufs_sub .., binary_bufs_sub .., unary_bufs_sub .., nullary_bufs_sub .., unary_bufs_sub .., unary_bufs_sub ..,
    unary_bufs_sub .., binary_bufs_sub .., nullary_bufs_sub .., unary_bufs_sub .., unary_bufs_sub .., unary_bufs_sub ..,
    unary_bufs_sub .., binary_bufs_sub .., nullary_bufs_sub .., nullary_bufs_sub .., unary_bufs_sub .., unary_bufs_sub ..,
    binary_bufs_sub .., unary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., unary_bufs_sub .., unary_bufs_sub .., ternary_bufs_sub .., nullary_bufs_sub .., nullary_bufs_sub ..,
    unary_bufs_sub .., unary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., unary_bufs_sub .., nullary_bufs_sub .., unary_bufs_sub .., unary_bufs_sub .., unary_bufs_sub ..,
    ternary_bufs_sub ..⟩

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = after (opsPre ++ opsTail) (launchContents m c) (b : DevRef τ sig) :=
  run_seq scopedRefs_eq scopedSems_eq defs main (fun _ => opsPre ++ opsTail) main_eq (fun _ => ops_sub) m ρ

/-- No operation writes the argument buffer: it holds at the end what it held at launch. -/
theorem arg0_kept (V : Valuation τ sig (Elt F)) :
    after (opsPre ++ opsTail) V (main_arg0 : DevRef τ sig) = V (main_arg0 : DevRef τ sig) :=
  after_of_forall_not_mem (b := Proc.devRef .tc main_arg0) _ _ (List.forall_iff_forall_mem.mp (by
    simp only [opsPre, opsTail, List.cons_append, List.nil_append, List.Forall, nullary_writes, unary_writes,
      binary_writes, ternary_writes, quaternary_writes, reshape_writes, Finset.mem_singleton]
    repeat' apply And.intro
    all_goals exact devRef_ne_of_ne (by decide)))

end Cert.ReferenceIdeal.Hand

end
-- ==== Proof.RefPre.lean ====
import proofs.«161434_j1726576856006_2_alg».proof.Proof.Spec
import proofs.«161434_j1726576856006_2_alg».proof.Proof.RefOps
import Idealize.ShloMosaic.Lib.Pipeline.Value
import Idealize.ShloMosaic.Lib.IdealHost

/-!
# What the reference's first operations compute: every point's cell coordinates and cell number

The reference cuts the three position columns out of the cloud, subtracts the grid's lower corner, divides by the
cell's extent, takes the floor and converts to integers: its array of cell coordinates. From it, column by column,
it forms the row-major cell number; row by row it joins the six range conditions (two per axis, the three axes
folded together from the constant 1); and it selects the cell number where the conjunction holds, 214272 elsewhere.
Read at a row, each of these is the specification's scalar function of that row's positions. On extended reals the
host's division and floor are the division and floor themselves, so the coordinates are the specification's; the
conjunction is the specification's up to the order in which six bits are joined, and joining bits is associative and
commutative with 1 neutral.
-/

noncomputable section

namespace Cert.ReferenceIdeal.Hand

open Cert.ReferenceIdeal Cert.ReferenceIdeal.Gen Cert.Voxelize
open Idealize.ShloMosaic Idealize.ShloMosaic.TcCoe Idealize.ShloMosaic.StableHlo Idealize.ShloMosaic.ValueIdx

/-! ## Layout operations of the whole arrays, read at a row -/

section Layout
variable {α : Type}

/-- The first three of the cloud's four columns: entry (n, k) is the cloud's entry (n, k). -/
theorem firstThree_apply (x : S2400000x4.Idx → α) (h : S2400000x4.Slices ![0, 0] S2400000x3) (n : Fin 2400000) (k : Fin 3) :
    extractStridedSlice S2400000x3 ![0, 0] x h (ix2 n k) = x (ix2 n (posCol k)) :=
  extractStridedSlice_apply _ x h (ix2 n k) (ix2 n (posCol k)) fun a => match a with
    | ⟨0, _⟩ => by show n.val = 0 + n.val; omega
    | ⟨1, _⟩ => by show k.val = 0 + k.val; omega

/-- Column c of a three-column array, read as a vector: entry n is entry (n, c). -/
theorem column_apply (x : S2400000x3.Idx → α) (off : Fin 2 → Nat) (h : S2400000x3.Slices off S2400000x1)
    (h' : S2400000x1.ShapeCasts S2400000) (n : Fin 2400000) (c : Fin 3) (h0 : off 0 = 0) (h1 : off 1 = c.val) :
    shapeCast S2400000 (extractStridedSlice S2400000x1 off x h) h' (ix1 n) = x (ix2 n c) := by
  refine (shapeCast_apply _ h' (ix1 n) (ix2 n (0 : Fin 1)) ?_).trans ?_
  · rw [Shape.rowMajor_val_two, Shape.rowMajor_val_one]
    show n.val * 1 + 0 = n.val
    omega
  · exact extractStridedSlice_apply off x h (ix2 n (0 : Fin 1)) (ix2 n c) fun a => match a with
      | ⟨0, _⟩ => by show n.val = off 0 + n.val; omega
      | ⟨1, _⟩ => by show c.val = off 1 + 0; omega

/-- A vector of three entries copied into every row: entry (n, k) is entry k. -/
theorem everyRow_apply (v : S3.Idx → α) (h1 : S3.BroadcastsInDim S1x3 (![1] : Fin 1 → Fin S1x3.rank))
    (h2 : S1x3.BroadcastsInDim S2400000x3 (![0, 1] : Fin 2 → Fin S2400000x3.rank)) (n : Fin 2400000) (k : Fin 3) :
    broadcastInDim S2400000x3 ![0, 1] h2 (broadcastInDim S1x3 ![1] h1 v) (ix2 n k) = v (ix1 k) := by
  refine (broadcastInDim_apply _ h2 _ (ix2 n k) (ix2 (0 : Fin 1) k) fun a => match a with
    | ⟨0, _⟩ => by rfl
    | ⟨1, _⟩ => by rfl).trans ?_
  exact broadcastInDim_apply _ h1 v (ix2 (0 : Fin 1) k) (ix1 k) fun a => match a with
    | ⟨0, _⟩ => by rfl

end Layout

/-! ## The three tables of constants -/

/-- The grid's extent in cells on the three axes. -/
def extent : Fin 3 → BitVec 32 := ![432#32, 496#32, 1#32]

/-- The first table is the grid's lower corner … -/
theorem lit0_eq (k : Fin 3) : lit0 (S3.rowMajor (ix1 k)) = lo k := by
  fin_cases k <;> rfl
/-- … the second the cell's extent … -/
theorem lit1_eq (k : Fin 3) : lit1 (S3.rowMajor (ix1 k)) = cell k := by
  fin_cases k <;> rfl
/-- … the third the grid's extent in cells. -/
theorem lit2_eq (k : Fin 3) : lit2 (S3.rowMajor (ix1 k)) = extent k := by
  fin_cases k <;> rfl

/-! ## The array of cell coordinates -/

/-- The reference's cell coordinates as one term of the cloud. -/
abbrev coordTerm (pts : S2400000x4.Idx → Ideal .f32) : S2400000x3.Idx → BitVec 32 :=
  fptosi 32
    (Host.floor
      (Host.divf
        (subf (extractStridedSlice S2400000x3 ![0, 0] pts slices_S2400000x4_S2400000x3_0_0)
          (broadcastInDim S2400000x3 ![0, 1] bcast_S1x3_S2400000x3_0_1
            (broadcastInDim S1x3 ![1] bcast_S3_S1x3_1 fun i => FloatOps.ofBits .f32 (lit0 (S3.rowMajor i)))))
        (broadcastInDim S2400000x3 ![0, 1] bcast_S1x3_S2400000x3_0_1
          (broadcastInDim S1x3 ![1] bcast_S3_S1x3_1 fun i => FloatOps.ofBits .f32 (lit1 (S3.rowMajor i))))))

/-- Entry (n, k) of it is the specification's coordinate on axis k of point n: on extended reals the host's division
    and floor are the division and the floor. -/
theorem coordTerm_apply (pts : S2400000x4.Idx → Ideal .f32) (n : Fin 2400000) (k : Fin 3) :
    coordTerm pts (ix2 n k) = coordAt pts n k := by
  have e0 := firstThree_apply pts slices_S2400000x4_S2400000x3_0_0 n k
  have e1 := (everyRow_apply (fun i => (FloatOps.ofBits .f32 (lit0 (S3.rowMajor i)) : Ideal .f32))
    bcast_S3_S1x3_1 bcast_S1x3_S2400000x3_0_1 n k).trans (congrArg (FloatOps.ofBits (F := Ideal) .f32) (lit0_eq k))
  have e2 := (everyRow_apply (fun i => (FloatOps.ofBits .f32 (lit1 (S3.rowMajor i)) : Ideal .f32))
    bcast_S3_S1x3_1 bcast_S1x3_S2400000x3_0_1 n k).trans (congrArg (FloatOps.ofBits (F := Ideal) .f32) (lit1_eq k))
  show FloatOps.fptosi 32 (FloatOps.hostUnary .floor (FloatOps.hostDivf
      (FloatOps.subf (extractStridedSlice S2400000x3 ![0, 0] pts slices_S2400000x4_S2400000x3_0_0 (ix2 n k))
        (broadcastInDim S2400000x3 ![0, 1] bcast_S1x3_S2400000x3_0_1
          (broadcastInDim S1x3 ![1] bcast_S3_S1x3_1 fun i => (FloatOps.ofBits .f32 (lit0 (S3.rowMajor i)) : Ideal .f32)) (ix2 n k)))
      (broadcastInDim S2400000x3 ![0, 1] bcast_S1x3_S2400000x3_0_1
        (broadcastInDim S1x3 ![1] bcast_S3_S1x3_1 fun i => (FloatOps.ofBits .f32 (lit1 (S3.rowMajor i)) : Ideal .f32)) (ix2 n k)))) = _
  rw [e0, e1, e2]
  rfl

/-- So it is the specification's array of cell coordinates. -/
theorem coordTerm_eq (pts : S2400000x4.Idx → Ideal .f32) : coordTerm pts = coordArr pts := by
  funext j
  obtain ⟨n, k, rfl⟩ : ∃ (n : Fin 2400000) (k : Fin 3), j = ix2 n k := ⟨j 0, j 1, eq_ix2 j⟩
  exact coordTerm_apply pts n k

/-! ## "Inside the grid", row by row -/

/-- The two range conditions of every coordinate, joined: entry (n, k) says 0 ≤ c < extent on axis k. -/
abbrev insideTerm (C : S2400000x3.Idx → BitVec 32) : S2400000x3.Idx → BitVec 1 :=
  andi
    (cmpi .sge C (broadcastInDim S2400000x3 ![] bcast_S_S2400000x3 (constantI S_ 32 0#32)))
    (cmpi .slt C (broadcastInDim S2400000x3 ![0, 1] bcast_S1x3_S2400000x3_0_1
      (broadcastInDim S1x3 ![1] bcast_S3_S1x3_1 fun i => lit2 (S3.rowMajor i))))

theorem insideTerm_apply (C : S2400000x3.Idx → BitVec 32) (n : Fin 2400000) (k : Fin 3) :
    insideTerm C (ix2 n k) = IntOp.andi (IntOp.cmpi .sge (C (ix2 n k)) 0#32) (IntOp.cmpi .slt (C (ix2 n k)) (extent k)) := by
  have e1 := broadcastInDim_scalar_apply bcast_S_S2400000x3 (constantI S_ 32 0#32) (ix2 n k)
  have e2 := (everyRow_apply (fun i => lit2 (S3.rowMajor i)) bcast_S3_S1x3_1 bcast_S1x3_S2400000x3_0_1 n k).trans (lit2_eq k)
  show IntOp.andi
      (IntOp.cmpi .sge (C (ix2 n k)) (broadcastInDim S2400000x3 ![] bcast_S_S2400000x3 (constantI S_ 32 0#32) (ix2 n k)))
      (IntOp.cmpi .slt (C (ix2 n k)) (broadcastInDim S2400000x3 ![0, 1] bcast_S1x3_S2400000x3_0_1
        (broadcastInDim S1x3 ![1] bcast_S3_S1x3_1 fun i => lit2 (S3.rowMajor i)) (ix2 n k))) = _
  rw [e1, e2]
  rfl

/-- The reduced index n with column k put back is (n, k). -/
theorem lift_row (h : S2400000x3.Reduces [1] S2400000) (n : Fin 2400000) (k : Fin (S2400000x3.size 1)) :
    h.lift (ix1 n) k = ix2 n (⟨k.val, k.isLt⟩ : Fin 3) := by
  funext c; apply Fin.ext
  fin_cases c <;> rfl

/-- Joining three bits onto b, in any order, is joining them one after the other. -/
theorem fold_andi_three (g : Fin 3 → BitVec 1) (b : BitVec 1) :
    (Finset.univ : Finset (Fin 3)).fold IntOp.andi b g = IntOp.andi (g 0) (IntOp.andi (g 1) (IntOp.andi (g 2) b)) := by
  rw [show (Finset.univ : Finset (Fin 3)) = {0, 1, 2} from by decide]
  rw [Finset.fold_insert (by decide), Finset.fold_insert (by decide), Finset.fold_singleton]

/-- A conjunction along the rows of a three-column array of bits, at row n: the three bits of the row joined onto
    the initial value. -/
theorem allRow_apply (x : S2400000x3.Idx → BitVec 1) (init : S_.Idx → BitVec 1) (h' : S2400000x3.ReducesTo [1] S2400000)
    (hu : 0 < S_.numel) (n : Fin 2400000) :
    Host.reduce IntOp.andi x init h' hu (ix1 n)
      = IntOp.andi (x (ix2 n 0)) (IntOp.andi (x (ix2 n 1)) (IntOp.andi (x (ix2 n 2)) (init (Shape.Idx.first hu)))) := by
  have h : S2400000x3.Reduces [1] S2400000 := by decide
  rw [Host.reduce_eq_fold_single IntOp.andi x init h' h hu]
  have hf : (x ∘ h.lift (ix1 n)) = fun k : Fin 3 => x (ix2 n k) := funext fun k => congrArg x (lift_row h n k)
  refine Eq.trans ?_ (fold_andi_three (fun k : Fin 3 => x (ix2 n k)) _)
  exact congrArg (fun f => Finset.fold IntOp.andi (init (Shape.Idx.first hu)) f (Finset.univ : Finset (Fin 3))) hf

/-- Six bits joined pair by pair and then together from 1 are the six bits joined from the left. -/
theorem and_chain (a0 b0 a1 b1 a2 b2 : BitVec 1) :
    IntOp.andi (IntOp.andi a0 b0) (IntOp.andi (IntOp.andi a1 b1) (IntOp.andi (IntOp.andi a2 b2) 1#1))
      = IntOp.andi (IntOp.andi (IntOp.andi (IntOp.andi (IntOp.andi a0 b0) a1) b1) a2) b2 := by
  rcases BitVec.eq_zero_or_eq_one a0 with rfl | rfl <;> rcases BitVec.eq_zero_or_eq_one b0 with rfl | rfl <;>
  rcases BitVec.eq_zero_or_eq_one a1 with rfl | rfl <;> rcases BitVec.eq_zero_or_eq_one b1 with rfl | rfl <;>
  rcases BitVec.eq_zero_or_eq_one a2 with rfl | rfl <;> rcases BitVec.eq_zero_or_eq_one b2 with rfl | rfl <;> decide

/-- "Point n lies in the grid", as the reference computes it. -/
abbrev validTerm (C : S2400000x3.Idx → BitVec 32) : S2400000.Idx → BitVec 1 :=
  Host.reduce IntOp.andi (insideTerm C) (constantI S_ 1 1#1) reducesTo_S2400000x3_S2400000_d1 h_S_

theorem validTerm_apply (C : S2400000x3.Idx → BitVec 32) (n : Fin 2400000) :
    validTerm C (ix1 n) = inGrid (C (ix2 n 0)) (C (ix2 n 1)) (C (ix2 n 2)) := by
  refine (allRow_apply (insideTerm C) (constantI S_ 1 1#1) reducesTo_S2400000x3_S2400000_d1 h_S_ n).trans ?_
  rw [insideTerm_apply C n 0, insideTerm_apply C n 1, insideTerm_apply C n 2]
  exact and_chain _ _ _ _ _ _

/-! ## The row-major cell number, row by row -/

/-- Column "off" of the coordinates as a vector. -/
abbrev colTerm (C : S2400000x3.Idx → BitVec 32) (off : Fin 2 → Nat) (h : S2400000x3.Slices off S2400000x1) :
    S2400000.Idx → BitVec 32 :=
  shapeCast S2400000 (extractStridedSlice S2400000x1 off C h) shapeCasts_S2400000x1_S2400000

theorem colTerm_apply (C : S2400000x3.Idx → BitVec 32) (off : Fin 2 → Nat) (h : S2400000x3.Slices off S2400000x1)
    (n : Fin 2400000) (c : Fin 3) (h0 : off 0 = 0) (h1 : off 1 = c.val) : colTerm C off h (ix1 n) = C (ix2 n c) :=
  column_apply C off h shapeCasts_S2400000x1_S2400000 n c h0 h1

/-- A number copied to every point. -/
abbrev splat (b : BitVec 32) : S2400000.Idx → BitVec 32 :=
  broadcastInDim S2400000 ![] bcast_S_S2400000 (constantI S_ 32 b)

theorem splat_apply (b : BitVec 32) (j : S2400000.Idx) : splat b j = b :=
  broadcastInDim_scalar_apply bcast_S_S2400000 (constantI S_ 32 b) j

/-- (cz · 496 + cy) · 432 + cx, column by column. -/
abbrev numTerm (C : S2400000x3.Idx → BitVec 32) : S2400000.Idx → BitVec 32 :=
  addi
    (muli
      (addi (muli (colTerm C ![0, 2] slices_S2400000x3_S2400000x1_0_2) (splat 496#32))
        (colTerm C ![0, 1] slices_S2400000x3_S2400000x1_0_1))
      (splat 432#32))
    (colTerm C ![0, 0] slices_S2400000x3_S2400000x1_0_0)

theorem numTerm_apply (C : S2400000x3.Idx → BitVec 32) (n : Fin 2400000) :
    numTerm C (ix1 n) = cellNumber (C (ix2 n 0)) (C (ix2 n 1)) (C (ix2 n 2)) := by
  have c2 := colTerm_apply C ![0, 2] slices_S2400000x3_S2400000x1_0_2 n 2 rfl rfl
  have c1 := colTerm_apply C ![0, 1] slices_S2400000x3_S2400000x1_0_1 n 1 rfl rfl
  have c0 := colTerm_apply C ![0, 0] slices_S2400000x3_S2400000x1_0_0 n 0 rfl rfl
  have s1 := splat_apply 496#32 (ix1 n)
  have s2 := splat_apply 432#32 (ix1 n)
  show IntOp.addi
      (IntOp.muli
        (IntOp.addi
          (IntOp.muli (colTerm C ![0, 2] slices_S2400000x3_S2400000x1_0_2 (ix1 n)) (splat 496#32 (ix1 n)))
          (colTerm C ![0, 1] slices_S2400000x3_S2400000x1_0_1 (ix1 n)))
        (splat 432#32 (ix1 n)))
      (colTerm C ![0, 0] slices_S2400000x3_S2400000x1_0_0 (ix1 n)) = _
  rw [c2, c1, c0, s1, s2]
  rfl

/-! ## The array of cell numbers -/

/-- The reference's cell numbers as one term of its cell coordinates. -/
abbrev linTerm (C : S2400000x3.Idx → BitVec 32) : S2400000.Idx → BitVec 32 :=
  select (validTerm C) (numTerm C) (splat 214272#32)

theorem linTerm_apply (C : S2400000x3.Idx → BitVec 32) (n : Fin 2400000) :
    linTerm C (ix1 n) = voxelId (C (ix2 n 0)) (C (ix2 n 1)) (C (ix2 n 2)) := by
  have v := validTerm_apply C n
  have a := numTerm_apply C n
  have s := splat_apply 214272#32 (ix1 n)
  show Scalar.select (validTerm C (ix1 n)) (numTerm C (ix1 n)) (splat 214272#32 (ix1 n)) = _
  rw [v, a, s]
  rfl

/-- Over the specification's cell coordinates it is the specification's array of cell numbers. -/
theorem linTerm_eq (pts : S2400000x4.Idx → Ideal .f32) : linTerm (coordTerm pts) = idArr pts := by
  rw [coordTerm_eq]
  funext j
  obtain ⟨n, rfl⟩ : ∃ n : Fin 2400000, j = ix1 n := ⟨j 0, eq_ix1 j⟩
  exact linTerm_apply (coordArr pts) n

/-! ## The three buffers after the first 38 operations -/

variable (V : Valuation τ sig (Elt Ideal))

/-- The cloud as a valuation holds it. -/
abbrev ptsOf : S2400000x4.Idx → Ideal .f32 := V (Proc.devRef .tc main_arg0)

/-- No operation writes the cloud. -/
theorem after_points : after (opsPre (F := Ideal)) V (Proc.devRef .tc main_arg0) = V (Proc.devRef .tc main_arg0) := by
  after_results_simp

set_option maxHeartbeats 400000 in
/-- The buffer of cell coordinates holds the specification's. -/
theorem after_coords :
    (after (opsPre (F := Ideal)) V (Proc.devRef .tc main_v8) : S2400000x3.Idx → BitVec 32) = coordArr (ptsOf V) := by
  after_results_simp
  exact coordTerm_eq (ptsOf V)

/-- The value 214272 copied to every point, at the buffer that holds it: over any contents W. -/
theorem fill_result (W : Valuation τ sig (Elt Ideal)) :
    ((TRef.unary (.of main_c_5 : StableHlo.TRef sig ⟨S_, .i32⟩) main_call0.v0
        (broadcastInDim S2400000 ![] bcast_S_S2400000) : HloOp τ sig (Elt Ideal)).result W (Proc.devRef .tc main_call0_v0)
      : S2400000.Idx → BitVec 32)
      = broadcastInDim S2400000 ![] bcast_S_S2400000 (W (Proc.devRef .tc main_c_5) : S_.Idx → BitVec 32) := by
  refine (unary_result _ _ _ _ _ W).trans ?_
  rfl

/-- The final selection, at the buffer that holds it: over any contents W. -/
theorem select_result (W : Valuation τ sig (Elt Ideal)) :
    ((TRef.ternary (.of main_v15 : StableHlo.TRef sig ⟨S2400000, .i1⟩) (.of main_v27 : StableHlo.TRef sig ⟨S2400000, .i32⟩)
        main_call0.v0 main_call0.v1 select : HloOp τ sig (Elt Ideal)).result W (Proc.devRef .tc main_v28)
      : S2400000.Idx → BitVec 32)
      = select (W (Proc.devRef .tc main_v15) : S2400000.Idx → BitVec 1) (W (Proc.devRef .tc main_v27) : S2400000.Idx → BitVec 32)
          (W (Proc.devRef .tc main_call0_v0) : S2400000.Idx → BitVec 32) := by
  refine (ternary_result _ _ _ _ _ _ _ _ _ W).trans ?_
  rfl

set_option maxHeartbeats 400000 in
/-- The buffer of cell numbers holds the specification's: the last two operations first (the selection, and the
    copy of 214272 it reads), then the thirty-six before them. -/
theorem after_ids :
    (after (opsPre (F := Ideal)) V (Proc.devRef .tc main_v28) : S2400000.Idx → BitVec 32) = idArr (ptsOf V) := by
  simp only [after_cons, after_nil]
  rw [select_result]
  rw [fill_result]
  after_results_simp
  exact linTerm_eq (ptsOf V)

end Cert.ReferenceIdeal.Hand

end
-- ==== Proof.SpecFlat.lean ====
import proofs.«161434_j1726576856006_2_alg».proof.Proof.Spec
import Idealize.ShloMosaic.Lib.Pipeline.Value

/-!
# The column of cell numbers, flattened

A column of 2400000 entries and a vector of 2400000 entries list the same values in the same row-major order:
entry n of the vector is entry (n, 0) of the column. So the column of cell numbers read as a vector is the vector of
cell numbers, whatever evidence of the two shapes' compatibility the reading carries.
-/

noncomputable section

namespace Cert.Voxelize

open Idealize.ShloMosaic Idealize.ShloMosaic.ValueIdx

variable {F : FTy → Type} [FloatOps F]

/-- The id column flattened is the id vector. -/
theorem idCol_flat (pts : (⟨2, ![2400000, 4]⟩ : Shape).Idx → F .f32)
    (h : (⟨2, ![2400000, 1]⟩ : Shape).ShapeCasts (⟨1, ![2400000]⟩ : Shape)) :
    shapeCast (⟨1, ![2400000]⟩ : Shape) (idCol pts) h = idArr pts := by
  funext j
  obtain ⟨n, rfl⟩ : ∃ n : Fin 2400000, j = ix1 n := ⟨j 0, eq_ix1 j⟩
  refine (shapeCast_apply (idCol pts) h (ix1 n) (ix2 n (0 : Fin 1)) ?_).trans rfl
  rw [Shape.rowMajor_val_two, Shape.rowMajor_val_one]
  show n.val * 1 + 0 = n.val
  omega

/-- The same, read at one entry. -/
theorem idCol_flat_apply (pts : (⟨2, ![2400000, 4]⟩ : Shape).Idx → F .f32)
    (h : (⟨2, ![2400000, 1]⟩ : Shape).ShapeCasts (⟨1, ![2400000]⟩ : Shape)) (j : (⟨1, ![2400000]⟩ : Shape).Idx) :
    shapeCast (⟨1, ![2400000]⟩ : Shape) (idCol pts) h j = idArr pts j :=
  congrFun (idCol_flat pts h) j

end Cert.Voxelize

end
-- ==== Proof.TailDefs.lean ====
/-
  What the two tails share. The kernel program's host operations after its region and the reference's operations
  after the linear cell id are the same 155 operations in the same order over renamed buffers; the two lists are cut
  at the same six places, and at each cut the buffers still read later are paired (Agree0 … Agree6). The reference's
  tail is cut by position (sliceR); the kernel's is already cut finer, into its sixteen stretches.
-/
import proofs.«161434_j1726576856006_2_alg».proof.Proof.RefOps
import proofs.«161434_j1726576856006_2_alg».proof.Proof.Gen.KernelIdeal.Launch

noncomputable section

namespace Cert.Proof.Tail

open Idealize.ShloMosaic Idealize.ShloMosaic.TcCoe Idealize.SL.Sem Idealize.ShloMosaic.StableHlo

variable {F : FTy → Type} [FloatOps F]

/-- The concatenation of two vectors along an axis, the two vectors as arguments of their own (in `concatenate`
    they sit inside a list on which the shape fact's type depends, where no rewriting reaches them). -/
def concat2 {α : Type} (t : Shape) (d : Fin t.rank) (s₁ s₂ : Shape) (h : Shape.Concatenates [s₁, s₂] t d)
    (a : s₁.Idx → α) (b : s₂.Idx → α) : t.Idx → α :=
  concatenate t d [⟨s₁, a⟩, ⟨s₂, b⟩] h

theorem concat2_eq {α : Type} (t : Shape) (d : Fin t.rank) (s₁ s₂ : Shape) (a : s₁.Idx → α) (b : s₂.Idx → α)
    (h : Shape.Concatenates [s₁, s₂] t d) :
    concatenate t d [⟨s₁, a⟩, ⟨s₂, b⟩] h = concat2 t d s₁ s₂ h a b := rfl

/-- The kernel program's host operations after its first reshape: its sixteen stretches in order. -/
abbrev tailK : List (HloOp Cert.KernelIdeal.τ Cert.KernelIdeal.sig (Elt F)) :=
  List.flatten [Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, Cert.KernelIdeal.Gen.hostOps1_7, Cert.KernelIdeal.Gen.hostOps1_8, Cert.KernelIdeal.Gen.hostOps1_9, Cert.KernelIdeal.Gen.hostOps1_10, Cert.KernelIdeal.Gen.hostOps1_11, Cert.KernelIdeal.Gen.hostOps1_12, Cert.KernelIdeal.Gen.hostOps1_13, Cert.KernelIdeal.Gen.hostOps1_14, Cert.KernelIdeal.Gen.hostOps1_15, Cert.KernelIdeal.Gen.hostOps1_16]

/-- Operations a, …, a + n - 1 of the reference's tail. -/
abbrev sliceR (a n : Nat) : List (HloOp Cert.ReferenceIdeal.τ Cert.ReferenceIdeal.sig (Elt F)) :=
  (Cert.ReferenceIdeal.Hand.opsTail.drop a).take n

/-- The reference's tail is its six slices in a row. -/
theorem opsTail_split : (Cert.ReferenceIdeal.Hand.opsTail : List (HloOp Cert.ReferenceIdeal.τ Cert.ReferenceIdeal.sig (Elt F)))
    = sliceR 0 25 ++ (sliceR 25 15 ++ (sliceR 40 35 ++ (sliceR 75 23 ++ (sliceR 98 32 ++ sliceR 130 25)))) := rfl

/-- The two programs' buffer contents agree at the start of the tail: the linear cell ids, the voxel coordinates, the points. -/
def Agree0 (VK : Valuation Cert.KernelIdeal.τ Cert.KernelIdeal.sig (Elt F)) (VR : Valuation Cert.ReferenceIdeal.τ Cert.ReferenceIdeal.sig (Elt F)) : Prop :=
  VK (Cert.KernelIdeal.main_v1 : DevRef _ _) = VR (Cert.ReferenceIdeal.main_v28 : DevRef _ _) ∧
  VK (Cert.KernelIdeal.main_v0_1 : DevRef _ _) = VR (Cert.ReferenceIdeal.main_v8 : DevRef _ _) ∧
  VK (Cert.KernelIdeal.main_arg0 : DevRef _ _) = VR (Cert.ReferenceIdeal.main_arg0 : DevRef _ _)

/-- The two programs' buffer contents agree after the first sort and the running count of cells: the coordinates, the points, the order, which sorted points lie in the grid, where a new cell starts, the running count. -/
def Agree1 (VK : Valuation Cert.KernelIdeal.τ Cert.KernelIdeal.sig (Elt F)) (VR : Valuation Cert.ReferenceIdeal.τ Cert.ReferenceIdeal.sig (Elt F)) : Prop :=
  VK (Cert.KernelIdeal.main_v0_1 : DevRef _ _) = VR (Cert.ReferenceIdeal.main_v8 : DevRef _ _) ∧
  VK (Cert.KernelIdeal.main_arg0 : DevRef _ _) = VR (Cert.ReferenceIdeal.main_arg0 : DevRef _ _) ∧
  VK (Cert.KernelIdeal.main_v2 : DevRef _ _) = VR (Cert.ReferenceIdeal.main_v29 : DevRef _ _) ∧
  VK (Cert.KernelIdeal.main_v11 : DevRef _ _) = VR (Cert.ReferenceIdeal.main_v38 : DevRef _ _) ∧
  VK (Cert.KernelIdeal.main_v16 : DevRef _ _) = VR (Cert.ReferenceIdeal.main_v43 : DevRef _ _) ∧
  VK (Cert.KernelIdeal.main_v18 : DevRef _ _) = VR (Cert.ReferenceIdeal.main_v44 : DevRef _ _)

/-- The two programs' buffer contents agree after the second sort: the coordinates, the points, the order, each sorted point's cell number, the per-cell counts, the key of the second sort, the order it yields. -/
def Agree2 (VK : Valuation Cert.KernelIdeal.τ Cert.KernelIdeal.sig (Elt F)) (VR : Valuation Cert.ReferenceIdeal.τ Cert.ReferenceIdeal.sig (Elt F)) : Prop :=
  VK (Cert.KernelIdeal.main_v0_1 : DevRef _ _) = VR (Cert.ReferenceIdeal.main_v8 : DevRef _ _) ∧
  VK (Cert.KernelIdeal.main_arg0 : DevRef _ _) = VR (Cert.ReferenceIdeal.main_arg0 : DevRef _ _) ∧
  VK (Cert.KernelIdeal.main_v2 : DevRef _ _) = VR (Cert.ReferenceIdeal.main_v29 : DevRef _ _) ∧
  VK (Cert.KernelIdeal.main_v20 : DevRef _ _) = VR (Cert.ReferenceIdeal.main_v46 : DevRef _ _) ∧
  VK (Cert.KernelIdeal.main_v24 : DevRef _ _) = VR (Cert.ReferenceIdeal.main_v50 : DevRef _ _) ∧
  VK (Cert.KernelIdeal.main_v26 : DevRef _ _) = VR (Cert.ReferenceIdeal.main_v52 : DevRef _ _) ∧
  VK (Cert.KernelIdeal.main_v27 : DevRef _ _) = VR (Cert.ReferenceIdeal.main_v53 : DevRef _ _)

/-- The two programs' buffer contents agree after the per-cell counts are gathered: the coordinates, the points, the order, the first 40000 positions of the second order, which of them are cells, their counts. -/
def Agree3 (VK : Valuation Cert.KernelIdeal.τ Cert.KernelIdeal.sig (Elt F)) (VR : Valuation Cert.ReferenceIdeal.τ Cert.ReferenceIdeal.sig (Elt F)) : Prop :=
  VK (Cert.KernelIdeal.main_v0_1 : DevRef _ _) = VR (Cert.ReferenceIdeal.main_v8 : DevRef _ _) ∧
  VK (Cert.KernelIdeal.main_arg0 : DevRef _ _) = VR (Cert.ReferenceIdeal.main_arg0 : DevRef _ _) ∧
  VK (Cert.KernelIdeal.main_v2 : DevRef _ _) = VR (Cert.ReferenceIdeal.main_v29 : DevRef _ _) ∧
  VK (Cert.KernelIdeal.main_v28 : DevRef _ _) = VR (Cert.ReferenceIdeal.main_v54 : DevRef _ _) ∧
  VK (Cert.KernelIdeal.main_v37 : DevRef _ _) = VR (Cert.ReferenceIdeal.main_v63 : DevRef _ _) ∧
  VK (Cert.KernelIdeal.main_v52 : DevRef _ _) = VR (Cert.ReferenceIdeal.main_v78 : DevRef _ _)

/-- The two programs' buffer contents agree after the point indices of each cell's 32 slots are clipped: the coordinates, the points, the order, the positions, which are cells, the capped counts, which slots are filled, the clipped indices. -/
def Agree4 (VK : Valuation Cert.KernelIdeal.τ Cert.KernelIdeal.sig (Elt F)) (VR : Valuation Cert.ReferenceIdeal.τ Cert.ReferenceIdeal.sig (Elt F)) : Prop :=
  VK (Cert.KernelIdeal.main_v0_1 : DevRef _ _) = VR (Cert.ReferenceIdeal.main_v8 : DevRef _ _) ∧
  VK (Cert.KernelIdeal.main_arg0 : DevRef _ _) = VR (Cert.ReferenceIdeal.main_arg0 : DevRef _ _) ∧
  VK (Cert.KernelIdeal.main_v2 : DevRef _ _) = VR (Cert.ReferenceIdeal.main_v29 : DevRef _ _) ∧
  VK (Cert.KernelIdeal.main_v28 : DevRef _ _) = VR (Cert.ReferenceIdeal.main_v54 : DevRef _ _) ∧
  VK (Cert.KernelIdeal.main_v37 : DevRef _ _) = VR (Cert.ReferenceIdeal.main_v63 : DevRef _ _) ∧
  VK (Cert.KernelIdeal.main_v54 : DevRef _ _) = VR (Cert.ReferenceIdeal.main_v80 : DevRef _ _) ∧
  VK (Cert.KernelIdeal.main_v66 : DevRef _ _) = VR (Cert.ReferenceIdeal.main_v92 : DevRef _ _) ∧
  VK (Cert.KernelIdeal.main_v67 : DevRef _ _) = VR (Cert.ReferenceIdeal.main_v93 : DevRef _ _)

/-- The two programs' buffer contents agree after the points are gathered and masked and the positions clipped: the coordinates, the order, which are cells, the capped counts, the gathered points, the clipped positions. -/
def Agree5 (VK : Valuation Cert.KernelIdeal.τ Cert.KernelIdeal.sig (Elt F)) (VR : Valuation Cert.ReferenceIdeal.τ Cert.ReferenceIdeal.sig (Elt F)) : Prop :=
  VK (Cert.KernelIdeal.main_v0_1 : DevRef _ _) = VR (Cert.ReferenceIdeal.main_v8 : DevRef _ _) ∧
  VK (Cert.KernelIdeal.main_v2 : DevRef _ _) = VR (Cert.ReferenceIdeal.main_v29 : DevRef _ _) ∧
  VK (Cert.KernelIdeal.main_v37 : DevRef _ _) = VR (Cert.ReferenceIdeal.main_v63 : DevRef _ _) ∧
  VK (Cert.KernelIdeal.main_v54 : DevRef _ _) = VR (Cert.ReferenceIdeal.main_v80 : DevRef _ _) ∧
  VK (Cert.KernelIdeal.main_v83 : DevRef _ _) = VR (Cert.ReferenceIdeal.main_v109 : DevRef _ _) ∧
  VK (Cert.KernelIdeal.main_v84 : DevRef _ _) = VR (Cert.ReferenceIdeal.main_v110 : DevRef _ _)

/-- The two programs' buffer contents agree at the end: the capped counts, the gathered points, the gathered coordinates. -/
def Agree6 (VK : Valuation Cert.KernelIdeal.τ Cert.KernelIdeal.sig (Elt F)) (VR : Valuation Cert.ReferenceIdeal.τ Cert.ReferenceIdeal.sig (Elt F)) : Prop :=
  VK (Cert.KernelIdeal.main_v54 : DevRef _ _) = VR (Cert.ReferenceIdeal.main_v80 : DevRef _ _) ∧
  VK (Cert.KernelIdeal.main_v83 : DevRef _ _) = VR (Cert.ReferenceIdeal.main_v109 : DevRef _ _) ∧
  VK (Cert.KernelIdeal.main_v101 : DevRef _ _) = VR (Cert.ReferenceIdeal.main_v127 : DevRef _ _)

end Cert.Proof.Tail

end
-- ==== Proof.TailA.lean ====
/-
  The first three of the six steps of the two tails: from the linear cell ids to the per-cell counts at the first 40000 positions of the second order. In each step both sides run the same operations over renamed buffers; each side's fold is read back as a term over the buffers live into the step, the hypotheses identify those, and the two terms are then the same term.
-/
import proofs.«161434_j1726576856006_2_alg».proof.Proof.TailDefs

set_option pp.maxSteps 5000
set_option pp.deepTerms false

noncomputable section

namespace Cert.Proof.Tail

open Idealize.ShloMosaic Idealize.ShloMosaic.TcCoe Idealize.SL.Sem Idealize.ShloMosaic.StableHlo

variable {F : FTy → Type} [FloatOps F]

attribute [local irreducible] Host.sort2 Host.gather Host.scatter Host.reduceWindow Host.reverse Host.reduce broadcastInDim extractStridedSlice extui cmpi addi subi andi minsi maxsi concatenate select constantI constant iotaInDim concat2 in
set_option maxHeartbeats 1000000 in
set_option maxRecDepth 8192 in
/-- The first sort, the gather of the sorted ids, the test that a sorted point lies in the grid, the test that a cell starts at it, and the running count of cells: the same operations on both sides, so buffers that agree before agree after. -/
theorem step1 (VK : Valuation Cert.KernelIdeal.τ Cert.KernelIdeal.sig (Elt F)) (VR : Valuation Cert.ReferenceIdeal.τ Cert.ReferenceIdeal.sig (Elt F)) (h : Agree0 VK VR) :
    Agree1 (after Cert.KernelIdeal.Gen.hostOps1_3 (after Cert.KernelIdeal.Gen.hostOps1_2 (after Cert.KernelIdeal.Gen.hostOps1_1 VK))) (after (sliceR 0 25) VR) := by
  obtain ⟨h1, h2, h3⟩ := h
  unfold Agree1
  simp only [Cert.KernelIdeal.Gen.hostOps1_1, Cert.KernelIdeal.Gen.hostOps1_2, Cert.KernelIdeal.Gen.hostOps1_3, sliceR, Cert.ReferenceIdeal.Hand.opsTail,
    List.drop_succ_cons, List.drop_zero, List.take_succ_cons, List.take_zero]
  refine ⟨?_, ?_, ?_, ?_, ?_, ?_⟩ <;>
  · simp (disch := decide) only [after_cons, after_nil, nullary_result', unary_result', binary_result', ternary_result', quaternary_result', reshape_result', nullary_result_ne', unary_result_ne', binary_result_ne', ternary_result_ne', quaternary_result_ne', reshape_result_ne', concat2_eq]
    try simp only [h1, h2, h3]
    try (first | rfl | fail "the two terms are not closed by rfl")

attribute [local irreducible] Host.sort2 Host.gather Host.scatter Host.reduceWindow Host.reverse Host.reduce broadcastInDim extractStridedSlice extui cmpi addi subi andi minsi maxsi concatenate select constantI constant iotaInDim concat2 in
set_option maxHeartbeats 1000000 in
set_option maxRecDepth 8192 in
/-- Each sorted point's cell number, the per-cell counts (a scatter-add of the in-grid flags), the key of the second sort (the order where a cell starts in the grid, else past the end) and the second sort: the same operations on both sides, so buffers that agree before agree after. -/
theorem step2 (VK : Valuation Cert.KernelIdeal.τ Cert.KernelIdeal.sig (Elt F)) (VR : Valuation Cert.ReferenceIdeal.τ Cert.ReferenceIdeal.sig (Elt F)) (h : Agree1 VK VR) :
    Agree2 (after Cert.KernelIdeal.Gen.hostOps1_6 (after Cert.KernelIdeal.Gen.hostOps1_5 (after Cert.KernelIdeal.Gen.hostOps1_4 VK))) (after (sliceR 25 15) VR) := by
  obtain ⟨h1, h2, h3, h4, h5, h6⟩ := h
  unfold Agree2
  simp only [Cert.KernelIdeal.Gen.hostOps1_4, Cert.KernelIdeal.Gen.hostOps1_5, Cert.KernelIdeal.Gen.hostOps1_6, sliceR, Cert.ReferenceIdeal.Hand.opsTail,
    List.drop_succ_cons, List.drop_zero, List.take_succ_cons, List.take_zero]
  refine ⟨?_, ?_, ?_, ?_, ?_, ?_, ?_⟩ <;>
  · simp (disch := decide) only [after_cons, after_nil, nullary_result', unary_result', binary_result', ternary_result', quaternary_result', reshape_result', nullary_result_ne', unary_result_ne', binary_result_ne', ternary_result_ne', quaternary_result_ne', reshape_result_ne', concat2_eq]
    try simp only [h1, h2, h3, h4, h5, h6]
    try (first | rfl | fail "the two terms are not closed by rfl")

attribute [local irreducible] Host.sort2 Host.gather Host.scatter Host.reduceWindow Host.reverse Host.reduce broadcastInDim extractStridedSlice extui cmpi addi subi andi minsi maxsi concatenate select constantI constant iotaInDim concat2 in
set_option maxHeartbeats 1000000 in
set_option maxRecDepth 8192 in
/-- The first 40000 positions of the second order; for each, whether it is a cell, its cell number and its count (three gathers and the select): the same operations on both sides, so buffers that agree before agree after. -/
theorem step3 (VK : Valuation Cert.KernelIdeal.τ Cert.KernelIdeal.sig (Elt F)) (VR : Valuation Cert.ReferenceIdeal.τ Cert.ReferenceIdeal.sig (Elt F)) (h : Agree2 VK VR) :
    Agree3 (after Cert.KernelIdeal.Gen.hostOps1_8 (after Cert.KernelIdeal.Gen.hostOps1_7 VK)) (after (sliceR 40 35) VR) := by
  obtain ⟨h1, h2, h3, h4, h5, h6, h7⟩ := h
  unfold Agree3
  simp only [Cert.KernelIdeal.Gen.hostOps1_7, Cert.KernelIdeal.Gen.hostOps1_8, sliceR, Cert.ReferenceIdeal.Hand.opsTail,
    List.drop_succ_cons, List.drop_zero, List.take_succ_cons, List.take_zero]
  refine ⟨?_, ?_, ?_, ?_, ?_, ?_⟩ <;>
  · simp (disch := decide) only [after_cons, after_nil, nullary_result', unary_result', binary_result', ternary_result', quaternary_result', reshape_result', nullary_result_ne', unary_result_ne', binary_result_ne', ternary_result_ne', quaternary_result_ne', reshape_result_ne', concat2_eq]
    try simp only [h1, h2, h3, h4, h5, h6, h7]
    try (first | rfl | fail "the two terms are not closed by rfl")

end Cert.Proof.Tail

end
-- ==== Proof.TailB.lean ====
/-
  The last three of the six steps of the two tails: from the per-cell counts to the three results. In each step both sides run the same operations over renamed buffers; each side's fold is read back as a term over the buffers live into the step, the hypotheses identify those, and the two terms are then the same term.
-/
import proofs.«161434_j1726576856006_2_alg».proof.Proof.TailDefs

set_option pp.maxSteps 5000
set_option pp.deepTerms false

noncomputable section

namespace Cert.Proof.Tail

open Idealize.ShloMosaic Idealize.ShloMosaic.TcCoe Idealize.SL.Sem Idealize.ShloMosaic.StableHlo

variable {F : FTy → Type} [FloatOps F]

/-- Reads a fold of host operations at a buffer as the composed term over the contents it started from: each
    operation's result at its own buffer is its function's value, at any other buffer what was there. -/
local macro "read_after" : tactic =>
  `(tactic| simp (disch := decide) only [after_cons, after_nil, nullary_result', unary_result', binary_result', ternary_result',
      quaternary_result', reshape_result', nullary_result_ne', unary_result_ne', binary_result_ne', ternary_result_ne',
      quaternary_result_ne', reshape_result_ne', concat2_eq])

attribute [local irreducible] Host.sort2 Host.gather Host.scatter Host.reduceWindow Host.reverse Host.reduce broadcastInDim extractStridedSlice extui cmpi addi subi andi minsi maxsi concatenate select constantI constant iotaInDim concat2 in
set_option maxHeartbeats 1000000 in
set_option maxRecDepth 8192 in
/-- The count capped at 32, each cell's 32 slot positions and which are filled, the positions clipped to the array: the same operations on both sides, so buffers that agree before agree after. -/
theorem step4 (VK : Valuation Cert.KernelIdeal.τ Cert.KernelIdeal.sig (Elt F)) (VR : Valuation Cert.ReferenceIdeal.τ Cert.ReferenceIdeal.sig (Elt F)) (h : Agree3 VK VR) :
    Agree4 (after Cert.KernelIdeal.Gen.hostOps1_10 (after Cert.KernelIdeal.Gen.hostOps1_9 VK)) (after (sliceR 75 23) VR) := by
  obtain ⟨h1, h2, h3, h4, h5, h6⟩ := h
  unfold Agree4
  simp only [Cert.KernelIdeal.Gen.hostOps1_9, Cert.KernelIdeal.Gen.hostOps1_10, sliceR, Cert.ReferenceIdeal.Hand.opsTail,
    List.drop_succ_cons, List.drop_zero, List.take_succ_cons, List.take_zero]
  refine ⟨?_, ?_, ?_, ?_, ?_, ?_, ?_, ?_⟩
  · read_after
    first
      | done
      | (simp only [h1, h2, h3, h4, h5, h6]; first | done | rfl)
      | rfl
      | fail "step4 conjunct 1: the two terms differ"
  · read_after
    first
      | done
      | (simp only [h1, h2, h3, h4, h5, h6]; first | done | rfl)
      | rfl
      | fail "step4 conjunct 2: the two terms differ"
  · read_after
    first
      | done
      | (simp only [h1, h2, h3, h4, h5, h6]; first | done | rfl)
      | rfl
      | fail "step4 conjunct 3: the two terms differ"
  · read_after
    first
      | done
      | (simp only [h1, h2, h3, h4, h5, h6]; first | done | rfl)
      | rfl
      | fail "step4 conjunct 4: the two terms differ"
  · read_after
    first
      | done
      | (simp only [h1, h2, h3, h4, h5, h6]; first | done | rfl)
      | rfl
      | fail "step4 conjunct 5: the two terms differ"
  · read_after
    first
      | done
      | (simp only [h1, h2, h3, h4, h5, h6]; first | done | rfl)
      | rfl
      | fail "step4 conjunct 6: the two terms differ"
  · read_after
    first
      | done
      | (simp only [h1, h2, h3, h4, h5, h6]; first | done | rfl)
      | rfl
      | fail "step4 conjunct 7: the two terms differ"
  · read_after
    first
      | done
      | (simp only [h1, h2, h3, h4, h5, h6]; first | done | rfl)
      | rfl
      | fail "step4 conjunct 8: the two terms differ"

attribute [local irreducible] Host.sort2 Host.gather Host.scatter Host.reduceWindow Host.reverse Host.reduce broadcastInDim extractStridedSlice extui cmpi addi subi andi minsi maxsi concatenate select constantI constant iotaInDim concat2 in
set_option maxHeartbeats 1000000 in
set_option maxRecDepth 8192 in
/-- The point indices gathered through the order, the points gathered and masked by the filled slots, the cell positions clipped: the same operations on both sides, so buffers that agree before agree after. -/
theorem step5 (VK : Valuation Cert.KernelIdeal.τ Cert.KernelIdeal.sig (Elt F)) (VR : Valuation Cert.ReferenceIdeal.τ Cert.ReferenceIdeal.sig (Elt F)) (h : Agree4 VK VR) :
    Agree5 (after Cert.KernelIdeal.Gen.hostOps1_14 (after Cert.KernelIdeal.Gen.hostOps1_13 (after Cert.KernelIdeal.Gen.hostOps1_12 (after Cert.KernelIdeal.Gen.hostOps1_11 VK)))) (after (sliceR 98 32) VR) := by
  obtain ⟨h1, h2, h3, h4, h5, h6, h7, h8⟩ := h
  unfold Agree5
  simp only [Cert.KernelIdeal.Gen.hostOps1_11, Cert.KernelIdeal.Gen.hostOps1_12, Cert.KernelIdeal.Gen.hostOps1_13, Cert.KernelIdeal.Gen.hostOps1_14, sliceR, Cert.ReferenceIdeal.Hand.opsTail,
    List.drop_succ_cons, List.drop_zero, List.take_succ_cons, List.take_zero]
  refine ⟨?_, ?_, ?_, ?_, ?_, ?_⟩
  · read_after
    first
      | done
      | (simp only [h1, h2, h3, h4, h5, h6, h7, h8]; first | done | rfl)
      | rfl
      | fail "step5 conjunct 1: the two terms differ"
  · read_after
    first
      | done
      | (simp only [h1, h2, h3, h4, h5, h6, h7, h8]; first | done | rfl)
      | rfl
      | fail "step5 conjunct 2: the two terms differ"
  · read_after
    first
      | done
      | (simp only [h1, h2, h3, h4, h5, h6, h7, h8]; first | done | rfl)
      | rfl
      | fail "step5 conjunct 3: the two terms differ"
  · read_after
    first
      | done
      | (simp only [h1, h2, h3, h4, h5, h6, h7, h8]; first | done | rfl)
      | rfl
      | fail "step5 conjunct 4: the two terms differ"
  · read_after
    first
      | done
      | (simp only [h1, h2, h3, h4, h5, h6, h7, h8]; first | done | rfl)
      | rfl
      | fail "step5 conjunct 5: the two terms differ"
  · read_after
    first
      | done
      | (simp only [h1, h2, h3, h4, h5, h6, h7, h8]; first | done | rfl)
      | rfl
      | fail "step5 conjunct 6: the two terms differ"

attribute [local irreducible] Host.sort2 Host.gather Host.scatter Host.reduceWindow Host.reverse Host.reduce broadcastInDim extractStridedSlice extui cmpi addi subi andi minsi maxsi concatenate select constantI constant iotaInDim concat2 in
set_option maxHeartbeats 1000000 in
set_option maxRecDepth 8192 in
/-- The cell's first point through the order, its coordinates gathered, reversed and masked: the same operations on both sides, so buffers that agree before agree after. -/
theorem step6 (VK : Valuation Cert.KernelIdeal.τ Cert.KernelIdeal.sig (Elt F)) (VR : Valuation Cert.ReferenceIdeal.τ Cert.ReferenceIdeal.sig (Elt F)) (h : Agree5 VK VR) :
    Agree6 (after Cert.KernelIdeal.Gen.hostOps1_16 (after Cert.KernelIdeal.Gen.hostOps1_15 VK)) (after (sliceR 130 25) VR) := by
  obtain ⟨h1, h2, h3, h4, h5, h6⟩ := h
  unfold Agree6
  simp only [Cert.KernelIdeal.Gen.hostOps1_15, Cert.KernelIdeal.Gen.hostOps1_16, sliceR, Cert.ReferenceIdeal.Hand.opsTail,
    List.drop_succ_cons, List.drop_zero, List.take_succ_cons, List.take_zero]
  refine ⟨?_, ?_, ?_⟩
  · read_after
    first
      | done
      | (simp only [h1, h2, h3, h4, h5, h6]; first | done | rfl)
      | rfl
      | fail "step6 conjunct 1: the two terms differ"
  · read_after
    first
      | done
      | (simp only [h1, h2, h3, h4, h5, h6]; first | done | rfl)
      | rfl
      | fail "step6 conjunct 2: the two terms differ"
  · read_after
    first
      | done
      | (simp only [h1, h2, h3, h4, h5, h6]; first | done | rfl)
      | rfl
      | fail "step6 conjunct 3: the two terms differ"

end Cert.Proof.Tail

end
-- ==== Proof.Tail.lean ====
/-
  The two tails end equal. The kernel program's host operations after its first reshape (tailK) and the reference's
  operations after the linear cell id (opsTail) are the same 155 operations over renamed buffers. Cut both at the same
  six places: a step takes valuations that agree on the buffers live at one cut to valuations that agree on the buffers
  live at the next (step1 … step6), so from agreement on the linear cell ids, the voxel coordinates and the points the
  three result buffers agree at the end.
-/
import proofs.«161434_j1726576856006_2_alg».proof.Proof.TailA
import proofs.«161434_j1726576856006_2_alg».proof.Proof.TailB
import Idealize.ShloMosaic.Lib.Pipeline.Frame

noncomputable section

namespace Cert.Proof.Tail

open Idealize.ShloMosaic Idealize.ShloMosaic.TcCoe Idealize.SL.Sem Idealize.ShloMosaic.StableHlo

variable {F : FTy → Type} [FloatOps F]

/-- From equal linear cell ids, voxel coordinates and points, the gathered points, the gathered coordinates and the
    capped counts are equal. -/
theorem tail_eq (VK : Valuation Cert.KernelIdeal.τ Cert.KernelIdeal.sig (Elt F)) (VR : Valuation Cert.ReferenceIdeal.τ Cert.ReferenceIdeal.sig (Elt F))
    (h1 : VK (Cert.KernelIdeal.main_v1 : DevRef _ _) = VR (Cert.ReferenceIdeal.main_v28 : DevRef _ _))
    (h2 : VK (Cert.KernelIdeal.main_v0_1 : DevRef _ _) = VR (Cert.ReferenceIdeal.main_v8 : DevRef _ _))
    (h3 : VK (Cert.KernelIdeal.main_arg0 : DevRef _ _) = VR (Cert.ReferenceIdeal.main_arg0 : DevRef _ _)) :
    after tailK VK (Cert.KernelIdeal.main_v83 : DevRef _ _) = after Cert.ReferenceIdeal.Hand.opsTail VR (Cert.ReferenceIdeal.main_v109 : DevRef _ _)
      ∧ after tailK VK (Cert.KernelIdeal.main_v101 : DevRef _ _) = after Cert.ReferenceIdeal.Hand.opsTail VR (Cert.ReferenceIdeal.main_v127 : DevRef _ _)
      ∧ after tailK VK (Cert.KernelIdeal.main_v54 : DevRef _ _) = after Cert.ReferenceIdeal.Hand.opsTail VR (Cert.ReferenceIdeal.main_v80 : DevRef _ _) := by
  have h := step6 _ _ (step5 _ _ (step4 _ _ (step3 _ _ (step2 _ _ (step1 VK VR ⟨h1, h2, h3⟩)))))
  obtain ⟨e54, e83, e101⟩ := h
  rw [opsTail_split]
  simp only [tailK, List.flatten_cons, List.flatten_nil, List.append_nil, after_append]
  exact ⟨e83, e101, e54⟩

end Cert.Proof.Tail

end
-- ==== Proof.lean ====
/-
  Voxel binning of a point cloud, a Pallas kernel against its jnp reference, at the extended reals.

  Both programs take a cloud of 2,400,000 points (x, y, z, feature). Per point they compute the three voxel coordinates
  c_k = ⌊(x_k − lo_k) / cell_k⌋ converted to a 32-bit integer, test that the voxel lies inside the 432 × 496 × 1 grid,
  and form the linear voxel id (c_z · 496 + c_y) · 432 + c_x, replaced by the sentinel 214272 outside the grid. The kernel
  program does this in a grid of 500 blocks of 4800 points, one block of ids and one block of coordinates written back
  per grid point; the reference does it with whole-array host operations. At the extended reals the vector unit's
  floor and quotient are the host's, the literals lo and cell are the same words on both sides, and the reference's
  conjunction over the three axes is the kernel's chain of six comparisons, so the id vector and the coordinate array of
  the two programs are one function of the cloud, index by index; no finiteness of the cloud is used. From there both
  programs apply the same host operations (a stable sort of the ids, group boundaries, a running count, a histogram, a
  second sort, gathers and selects) to the same three arrays, and so return the same three results.

  The frames: the kernel program's region is launched with each output window's buffer after the body named as the
  canon of the body's stores over the loaded block, the host operations after it write neither the cloud nor the
  region's arrays, and the cloud is an input window's array; the reference is a straight line of host operations none of
  which writes the cloud.
-/
import proofs.«161434_j1726576856006_2_alg».proof.Defs
import proofs.«161434_j1726576856006_2_alg».proof.Proof.Gen.Kernel
import proofs.«161434_j1726576856006_2_alg».proof.Proof.Gen.KernelIdeal
import proofs.«161434_j1726576856006_2_alg».proof.Proof.Gen.ReferenceIdeal
import proofs.«161434_j1726576856006_2_alg».proof.Proof.Gen.Pre_finite_inputs
import proofs.«161434_j1726576856006_2_alg».proof.Proof.KFrame
import proofs.«161434_j1726576856006_2_alg».proof.Proof.KFrameBits
import proofs.«161434_j1726576856006_2_alg».proof.Proof.KValue
import proofs.«161434_j1726576856006_2_alg».proof.Proof.RefRun
import proofs.«161434_j1726576856006_2_alg».proof.Proof.RefPre
import proofs.«161434_j1726576856006_2_alg».proof.Proof.SpecFlat
import proofs.«161434_j1726576856006_2_alg».proof.Proof.Tail
import Idealize.ShloMosaic.Adequacy
import Idealize.ShloMosaic.Init

noncomputable section

namespace Cert.Proof

open Idealize.ShloMosaic Idealize.ShloMosaic.TcCoe Idealize.SL.Sem Idealize.ShloMosaic.StableHlo

/-! ## The frames -/

theorem frame_k : Cert.frame_Kernel := fun m ρ _ => Cert.Kernel.Hand.frame m ρ
theorem frame_ki : Cert.frame_KernelIdeal := fun m ρ _ => Cert.KernelIdeal.Hand.frame m ρ
/-- The reference's frame is its run with everything but the cloud forgotten. -/
theorem frame_ri : Cert.frame_ReferenceIdeal := fun m ρ _ =>
  (θ_run Cert.ReferenceIdeal.defs _ _).mono (fun _ h c => (h c Cert.ReferenceIdeal.main_arg0).trans (Cert.ReferenceIdeal.Hand.arg0_kept _))
    (Cert.ReferenceIdeal.Hand.run_main (F := Ideal) m ρ)

/-- The idealization rewrote nothing. -/
theorem preserves : Cert.preserves_Kernel_KernelIdeal := trivial

/-! ## What the region leaves, read at the three arrays -/

section Values
open Cert.KernelIdeal Cert.KernelIdeal.Gen Cert.KernelIdeal.Hand

variable (m : (ℓ : Loc Cert.KernelIdeal.nD Cert.KernelIdeal.τ Cert.KernelIdeal.sig) → Buf (Elt Ideal) ℓ)

/-- What the region leaves a core's buffers at: the three arrays at what the grid wrote, everything else as launched. -/
abbrev leaves (c : Dev nD) : Valuation τ sig (Elt Ideal) :=
  Pipeline.withArrays spec0 c (V0 m c) fun w => (dats m 0 c).arrAt w cfg0.N

/-- The id column is the specification's. -/
theorem leaves_ids (c : Dev nD) : leaves m c (Proc.devRef .tc main_v0_0) = Cert.Voxelize.idCol (F := Ideal) (V m c main_arg0) :=
  (Pipeline.withArrays_arr spec0 launch0.win.arr_inj c _ _ 1).trans (final1 m c)

/-- The coordinate array is the specification's. -/
theorem leaves_coords (c : Dev nD) : leaves m c (Proc.devRef .tc main_v0_1) = Cert.Voxelize.coordArr (F := Ideal) (V m c main_arg0) :=
  (Pipeline.withArrays_arr spec0 launch0.win.arr_inj c _ _ 2).trans (final2 m c)

/-- The cloud is an input: unchanged. -/
theorem leaves_points (c : Dev nD) : leaves m c (Proc.devRef .tc main_arg0) = V m c main_arg0 :=
  (Pipeline.withArrays_arr spec0 launch0.win.arr_inj c _ _ 0).trans (((dats m 0 c).arrAt_in 0 rfl _).trans (A_eq m c 0))

end Values

/-! ## Equal inputs to the shared host operations, equal results -/

section Alg
open Cert.KernelIdeal.Hand

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The host operations after the region are the one reshape of the id column followed by the shared ones. -/
theorem tailOps_flatten : List.flatten (Cert.KernelIdeal.Hand.tailOps (F := Ideal)) = Cert.KernelIdeal.Gen.hostOps1 ++ Tail.tailK := rfl

/-- The two programs' inputs to the shared operations agree: the id vector (the kernel's column flattened), the
    coordinate array, the cloud. -/
theorem inputs_agree (c : Dev Cert.KernelIdeal.nD)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    (after Cert.KernelIdeal.Gen.hostOps1 (leaves m c) (Cert.KernelIdeal.main_v1 : DevRef _ _)
        = after Cert.ReferenceIdeal.Hand.opsPre (launchContents m' c) (Cert.ReferenceIdeal.main_v28 : DevRef _ _))
    ∧ (after Cert.KernelIdeal.Gen.hostOps1 (leaves m c) (Cert.KernelIdeal.main_v0_1 : DevRef _ _)
        = after Cert.ReferenceIdeal.Hand.opsPre (launchContents m' c) (Cert.ReferenceIdeal.main_v8 : DevRef _ _))
    ∧ (after Cert.KernelIdeal.Gen.hostOps1 (leaves m c) (Cert.KernelIdeal.main_arg0 : DevRef _ _)
        = after Cert.ReferenceIdeal.Hand.opsPre (launchContents m' c) (Cert.ReferenceIdeal.main_arg0 : DevRef _ _)) := by
  have hp : Cert.ReferenceIdeal.Hand.ptsOf (launchContents m' c) = Cert.KernelIdeal.Hand.V m c Cert.KernelIdeal.main_arg0 := hag
  refine ⟨?_, ?_, ?_⟩
  · refine Eq.trans ?_ (Cert.ReferenceIdeal.Hand.after_ids (launchContents m' c)).symm
    rw [hp]
    after_results
    rw [leaves_ids]
    exact Cert.Voxelize.idCol_flat _ _
  · refine Eq.trans ?_ (Cert.ReferenceIdeal.Hand.after_coords (launchContents m' c)).symm
    rw [hp]
    after_results
    exact leaves_coords m c
  · refine Eq.trans ?_ (Cert.ReferenceIdeal.Hand.after_points (launchContents m' c)).symm
    after_results
    exact (leaves_points m c).trans hag.symm

/-- Each result of the kernel program equals the reference's: the same operations on equal inputs. -/
theorem values_eq (c : Dev Cert.KernelIdeal.nD)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    (Pipeline.afterTail₀ Cert.KernelIdeal.cfgs (dats m) 0 (V0 m) tailOps c Cert.KernelIdeal.main_v83
        = after (Cert.ReferenceIdeal.Hand.opsPre ++ Cert.ReferenceIdeal.Hand.opsTail) (launchContents m' c) (Cert.ReferenceIdeal.main_v109 : DevRef _ _))
    ∧ (Pipeline.afterTail₀ Cert.KernelIdeal.cfgs (dats m) 0 (V0 m) tailOps c Cert.KernelIdeal.main_v101
        = after (Cert.ReferenceIdeal.Hand.opsPre ++ Cert.ReferenceIdeal.Hand.opsTail) (launchContents m' c) (Cert.ReferenceIdeal.main_v127 : DevRef _ _))
    ∧ (Pipeline.afterTail₀ Cert.KernelIdeal.cfgs (dats m) 0 (V0 m) tailOps c Cert.KernelIdeal.main_v54
        = after (Cert.ReferenceIdeal.Hand.opsPre ++ Cert.ReferenceIdeal.Hand.opsTail) (launchContents m' c) (Cert.ReferenceIdeal.main_v80 : DevRef _ _)) := by
  obtain ⟨h1, h2, h3⟩ := inputs_agree m m' c hag
  have key := Tail.tail_eq _ _ h1 h2 h3
  unfold Pipeline.afterTail₀
  rw [tailOps_flatten]
  simp only [after_append]
  exact key

end Alg

/-! ## The claims -/

/-- Both idealized programs run, from memories agreeing on the cloud, to equal results. -/
theorem algebraic : Cert.algebraic_KernelIdeal_ReferenceIdeal := by
  intro m ρ m' ρ' _ hagree
  refine ⟨fun c => Pipeline.afterTail₀ Cert.KernelIdeal.cfgs (Cert.KernelIdeal.Hand.dats m) 0 (Cert.KernelIdeal.Hand.V0 m) Cert.KernelIdeal.Hand.tailOps c Cert.KernelIdeal.main_v83,
    fun c => Pipeline.afterTail₀ Cert.KernelIdeal.cfgs (Cert.KernelIdeal.Hand.dats m) 0 (Cert.KernelIdeal.Hand.V0 m) Cert.KernelIdeal.Hand.tailOps c Cert.KernelIdeal.main_v101,
    fun c => Pipeline.afterTail₀ Cert.KernelIdeal.cfgs (Cert.KernelIdeal.Hand.dats m) 0 (Cert.KernelIdeal.Hand.V0 m) Cert.KernelIdeal.Hand.tailOps c Cert.KernelIdeal.main_v54, ?_, ?_⟩
  · exact (θ_run Cert.KernelIdeal.defs _ _).mono (fun r h c =>
      ⟨(h c).2 Cert.KernelIdeal.main_v83 (Pipeline.mem_restRefs_of Cert.KernelIdeal.main_v83 (by decide) (by decide)),
       (h c).2 Cert.KernelIdeal.main_v101 (Pipeline.mem_restRefs_of Cert.KernelIdeal.main_v101 (by decide) (by decide)),
       (h c).2 Cert.KernelIdeal.main_v54 (Pipeline.mem_restRefs_of Cert.KernelIdeal.main_v54 (by decide) (by decide)),
       ((h c).1 0).trans (((Cert.KernelIdeal.Hand.dats m 0 c).arrAt_in 0 rfl _).trans ((Cert.KernelIdeal.Hand.A_eq m c 0).trans (Cert.KernelIdeal.Hand.V_main_arg0 m c)))⟩)
      (Cert.KernelIdeal.Hand.run_main m ρ)
  · refine (θ_run Cert.ReferenceIdeal.defs _ _).mono (fun r h c => ?_) (Cert.ReferenceIdeal.Hand.run_main (F := Ideal) m' ρ')
    obtain ⟨e1, e2, e3⟩ := values_eq m m' c (hagree c)
    exact ⟨(h c Cert.ReferenceIdeal.main_v109).trans e1.symm, (h c Cert.ReferenceIdeal.main_v127).trans e2.symm,
      (h c Cert.ReferenceIdeal.main_v80).trans e3.symm, (h c Cert.ReferenceIdeal.main_arg0).trans (Cert.ReferenceIdeal.Hand.arg0_kept _)⟩

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
